-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S500000x16 : Shape := ⟨2, ![500000, 16]⟩
abbrev S2x1000000 : Shape := ⟨2, ![2, 1000000]⟩
abbrev S2x500000 : Shape := ⟨2, ![2, 500000]⟩
abbrev S32x128 : Shape := ⟨2, ![32, 128]⟩
abbrev S128 : Shape := ⟨1, ![128]⟩
abbrev S128x128 : Shape := ⟨2, ![128, 128]⟩
abbrev S16x128 : Shape := ⟨2, ![16, 128]⟩
abbrev S384x128 : Shape := ⟨2, ![384, 128]⟩
abbrev S128x2 : Shape := ⟨2, ![128, 2]⟩
abbrev S2 : Shape := ⟨1, ![2]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S16x128 : S_.BroadcastsInDim S16x128 (![] : Fin 0 → Fin S16x128.rank)
  reducesTo_S16x128_S_d0_1 : S16x128.ReducesTo [0, 1] S_
  bcast_S_S384x128 : S_.BroadcastsInDim S384x128 (![] : Fin 0 → Fin S384x128.rank)
  reducesTo_S384x128_S_d0_1 : S384x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part7 {F : FTy → Type} [FloatOps F] (main_v118 : IVec S_ 1) (main_v119 : FVec F S2 .f32) : IVec S_ 1 :=
  let main_cst_46 : FVec F S_ .f32 := constant S_ .f32 0x7F800000#32
  let main_v120 : FVec F S2 .f32 := broadcastInDim S2 ![] bcast_S_S2 main_cst_46
  let main_v121 : IVec S2 1 := cmpf .olt main_v119 main_v120
  let main_c_47 : IVec S_ 1 := constantI S_ 1 1#1
  let main_v122 : IVec S_ 1 := (fun x v => Host.reduce IntOp.andi x v reducesTo_S2_S_d0 h_S_) main_v121 main_c_47
  let main_v123 : IVec S_ 1 := andi main_v118 main_v122
  main_v123

def fn_part6 {F : FTy → Type} [FloatOps F] (main_arg24 : FVec F S384x128 .f32) (main_arg25 : FVec F S128 .f32) (main_arg26 : FVec F S128x2 .f32) (main_arg27 : FVec F S2 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S384x128 .f32 := Host.absf main_arg24
  let main_cst_40 : FVec F S_ .f32 := constant S_ .f32 0x7F800000#32
  let main_v105 : FVec F S384x128 .f32 := broadcastInDim S384x128 ![] bcast_S_S384x128 main_cst_40
  let main_v106 : IVec S384x128 1 := cmpf .olt main_v104 main_v105
  let main_c_41 : IVec S_ 1 := constantI S_ 1 1#1
  let main_v107 : IVec S_ 1 := (fun x v => Host.reduce IntOp.andi x v reducesTo_S384x128_S_d0_1 h_S_) main_v106 main_c_41
  let main_v108 : IVec S_ 1 := andi main_v103 main_v107
  let main_v109 : FVec F S128 .f32 := Host.absf main_arg25
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x2 .f32 := Host.absf main_arg26
  let main_cst_44 : FVec F S_ .f32 := constant S_ .f32 0x7F800000#32
  let main_v115 : FVec F S128x2 .f32 := broadcastInDim S128x2 ![] bcast_S_S128x2 main_cst_44
  let main_v116 : IVec S128x2 1 := cmpf .olt main_v114 main_v115
  let main_c_45 : IVec S_ 1 := constantI S_ 1 1#1
  let main_v117 : IVec S_ 1 := (fun x v => Host.reduce IntOp.andi x v reducesTo_S128x2_S_d0_1 h_S_) main_v116 main_c_45
  let main_v118 : IVec S_ 1 := andi main_v113 main_v117
  let main_v119 : FVec F S2 .f32 := Host.absf main_arg27
  fn_part7 (F := F) main_v118 main_v119

def fn_part5 {F : FTy → Type} [FloatOps F] (main_arg21 : FVec F S128x128 .f32) (main_arg22 : FVec F S16x128 .f32) (main_arg23 : FVec F S128 .f32) (main_arg24 : FVec F S384x128 .f32) (main_arg25 : FVec F S128 .f32) (main_arg26 : FVec F S128x2 .f32) (main_arg27 : FVec F S2 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg21
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S16x128 .f32 := Host.absf main_arg22
  let main_cst_36 : FVec F S_ .f32 := constant S_ .f32 0x7F800000#32
  let main_v95 : FVec F S16x128 .f32 := broadcastInDim S16x128 ![] bcast_S_S16x128 main_cst_36
  let main_v96 : IVec S16x128 1 := cmpf .olt main_v94 main_v95
  let main_c_37 : IVec S_ 1 := constantI S_ 1 1#1
  let main_v97 : IVec S_ 1 := (fun x v => Host.reduce IntOp.andi x v reducesTo_S16x128_S_d0_1 h_S_) main_v96 main_c_37
  let main_v98 : IVec S_ 1 := andi main_v93 main_v97
  let main_v99 : FVec F S128 .f32 := Host.absf main_arg23
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg24 main_arg25 main_arg26 main_arg27 main_v98 main_v101 main_c_39

def fn_part4 {F : FTy → Type} [FloatOps F] (main_arg17 : FVec F S128 .f32) (main_arg18 : FVec F S128x128 .f32) (main_arg19 : FVec F S128x128 .f32) (main_arg20 : FVec F S128 .f32) (main_arg21 : FVec F S128x128 .f32) (main_arg22 : FVec F S16x128 .f32) (main_arg23 : FVec F S128 .f32) (main_arg24 : FVec F S384x128 .f32) (main_arg25 : FVec F S128 .f32) (main_arg26 : FVec F S128x2 .f32) (main_arg27 : FVec F S2 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg18
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg19
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg20
  let main_cst_32 : FVec F S_ .f32 := constant S_ .f32 0x7F800000#32
  fn_part5 (F := F) main_arg21 main_arg22 main_arg23 main_arg24 main_arg25 main_arg26 main_arg27 main_v83 main_v84 main_cst_32

def fn_part3 {F : FTy → Type} [FloatOps F] (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_arg22 : FVec F S16x128 .f32) (main_arg23 : FVec F S128 .f32) (main_arg24 : FVec F S384x128 .f32) (main_arg25 : FVec F S128 .f32) (main_arg26 : FVec F S128x2 .f32) (main_arg27 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg17 main_arg18 main_arg19 main_arg20 main_arg21 main_arg22 main_arg23 main_arg24 main_arg25 main_arg26 main_arg27 main_v63 main_v67

def fn_part2 {F : FTy → Type} [FloatOps F] (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_arg22 : FVec F S16x128 .f32) (main_arg23 : FVec F S128 .f32) (main_arg24 : FVec F S384x128 .f32) (main_arg25 : FVec F S128 .f32) (main_arg26 : FVec F S128x2 .f32) (main_arg27 : FVec F S2 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg7 : FVec F S128 .f32) (main_arg8 : FVec F S32x128 .f32) (main_arg9 : FVec F S128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_arg22 : FVec F S16x128 .f32) (main_arg23 : FVec F S128 .f32) (main_arg24 : FVec F S384x128 .f32) (main_arg25 : FVec F S128 .f32) (main_arg26 : FVec F S128x2 .f32) (main_arg27 : FVec F S2 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S32x128 .f32 := Host.absf main_arg8
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S100000x32 .f32) (main_arg1 : FVec F S100000x32 .f32) (main_arg2 : FVec F S500000x16 .f32) (main_arg3 : IVec S2x1000000 32) (main_arg4 : IVec S2x1000000 32) (main_arg5 : IVec S2x500000 32) (main_arg6 : FVec F S32x128 .f32) (main_arg7 : FVec F S128 .f32) (main_arg8 : FVec F S32x128 .f32) (main_arg9 : FVec F S128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_arg22 : FVec F S16x128 .f32) (main_arg23 : FVec F S128 .f32) (main_arg24 : FVec F S384x128 .f32) (main_arg25 : FVec F S128 .f32) (main_arg26 : FVec F S128x2 .f32) (main_arg27 : FVec F S2 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S500000x16 .f32 := Host.absf main_arg2
  let main_cst_2 : FVec F S_ .f32 := constant S_ .f32 0x7F800000#32
  let main_v10 : FVec F S500000x16 .f32 := broadcastInDim S500000x16 ![] bcast_S_S500000x16 main_cst_2
  let main_v11 : IVec S500000x16 1 := cmpf .olt main_v9 main_v10
  let main_c_3 : IVec S_ 1 := constantI S_ 1 1#1
  let main_v12 : IVec S_ 1 := (fun x v => Host.reduce IntOp.andi x v reducesTo_S500000x16_S_d0_1 h_S_) main_v11 main_c_3
  let main_v13 : IVec S_ 1 := andi main_v8 main_v12
  let main_v14 : FVec F S32x128 .f32 := Host.absf main_arg6
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S100000x32 : Shape := ⟨2, ![100000, 32]⟩
abbrev S500000x16 : Shape := ⟨2, ![500000, 16]⟩
abbrev S2x1000000 : Shape := ⟨2, ![2, 1000000]⟩
abbrev S2x500000 : Shape := ⟨2, ![2, 500000]⟩
abbrev S32x128 : Shape := ⟨2, ![32, 128]⟩
abbrev S128 : Shape := ⟨1, ![128]⟩
abbrev S128x128 : Shape := ⟨2, ![128, 128]⟩
abbrev S16x128 : Shape := ⟨2, ![16, 128]⟩
abbrev S384x128 : Shape := ⟨2, ![384, 128]⟩
abbrev S128x2 : Shape := ⟨2, ![128, 2]⟩
abbrev S2 : Shape := ⟨1, ![2]⟩
abbrev S100000x128 : Shape := ⟨2, ![100000, 128]⟩
abbrev S5000x32 : Shape := ⟨2, ![5000, 32]⟩
abbrev S5000x128 : Shape := ⟨2, ![5000, 128]⟩
abbrev S1x128 : Shape := ⟨2, ![1, 128]⟩
abbrev S_ : Shape := ⟨0, ![]⟩
abbrev S1000000 : Shape := ⟨1, ![1000000]⟩
abbrev S1x1000000 : Shape := ⟨2, ![1, 1000000]⟩
abbrev S100000 : Shape := ⟨1, ![100000]⟩
abbrev S1000000x1 : Shape := ⟨2, ![1000000, 1]⟩
abbrev S100000x1 : Shape := ⟨2, ![100000, 1]⟩
abbrev S1000000x128 : Shape := ⟨2, ![1000000, 128]⟩
abbrev S4000x128 : Shape := ⟨2, ![4000, 128]⟩
abbrev S4000x1 : Shape := ⟨2, ![4000, 1]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S1 : Shape := ⟨1, ![1]⟩
abbrev S5000x16 : Shape := ⟨2, ![5000, 16]⟩
abbrev S500000x2 : Shape := ⟨2, ![500000, 2]⟩

abbrev nBuf : Space → Nat
  | .hbm => 173
  | .vmem => 72
  | .smem => 0
  | _ => 0

abbrev hbmTy0_0 (i : Nat) : BufTy := match i % 128 with
  | 0 => ⟨S100000x32, .f32⟩
  | 1 => ⟨S100000x32, .f32⟩
  | 2 => ⟨S500000x16, .f32⟩
  | 3 => ⟨S2x1000000, .i32⟩
  | 4 => ⟨S2x1000000, .i32⟩
  | 5 => ⟨S2x500000, .i32⟩
  | 6 => ⟨S32x128, .f32⟩
  | 7 => ⟨S128, .f32⟩
  | 8 => ⟨S32x128, .f32⟩
  | 9 => ⟨S128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S128x128, .f32⟩
  | 20 => ⟨S128, .f32⟩
  | 21 => ⟨S128x128, .f32⟩
  | 22 => ⟨S16x128, .f32⟩
  | 23 => ⟨S128, .f32⟩
  | 24 => ⟨S384x128, .f32⟩
  | 25 => ⟨S128, .f32⟩
  | 26 => ⟨S128x2, .f32⟩
  | 27 => ⟨S2, .f32⟩
  | 28 => ⟨S100000x128, .bf16⟩
  | 29 => ⟨S100000x128, .bf16⟩
  | 30 => ⟨S_, .f32⟩
  | 31 => ⟨S1000000, .f32⟩
  | 32 => ⟨S1x1000000, .i32⟩
  | 33 => ⟨S1000000, .i32⟩
  | 34 => ⟨S_, .f32⟩
  | 35 => ⟨S100000, .f32⟩
  | 36 => ⟨S1000000x1, .i32⟩
  | 37 => ⟨S100000, .f32⟩
  | 38 => ⟨S_, .f32⟩
  | 39 => ⟨S100000, .f32⟩
  | 40 => ⟨S100000, .f32⟩
  | 41 => ⟨S_, .f32⟩
  | 42 => ⟨S100000, .f32⟩
  | 43 => ⟨S100000, .f32⟩
  | 44 => ⟨S100000x1, .f32⟩
  | 45 => ⟨S_, .f32⟩
  | 46 => ⟨S1000000, .f32⟩
  | 47 => ⟨S1x1000000, .i32⟩
  | 48 => ⟨S1000000, .i32⟩
  | 49 => ⟨S_, .f32⟩
  | 50 => ⟨S100000, .f32⟩
  | 51 => ⟨S1000000x1, .i32⟩
  | 52 => ⟨S100000, .f32⟩
  | 53 => ⟨S_, .f32⟩
  | 54 => ⟨S100000, .f32⟩
  | 55 => ⟨S100000, .f32⟩
  | 56 => ⟨S_, .f32⟩
  | 57 => ⟨S100000, .f32⟩
  | 58 => ⟨S100000, .f32⟩
  | 59 => ⟨S100000x1, .f32⟩
  | 60 => ⟨S1x1000000, .i32⟩
  | 61 => ⟨S1000000, .i32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x128, .bf16⟩
  | 71 => ⟨S1000000x128, .f32⟩
  | 72 => ⟨S1x1000000, .i32⟩
  | 73 => ⟨S1000000, .i32⟩
  | 74 => ⟨S_, .f32⟩
  | 75 => ⟨S100000x128, .f32⟩
  | 76 => ⟨S1000000x1, .i32⟩
  | 77 => ⟨S100000x128, .f32⟩
  | 78 => ⟨S100000x128, .bf16⟩
  | 79 => ⟨S1x1000000, .i32⟩
  | 80 => ⟨S1000000, .i32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1000000x128, .bf16⟩
  | 90 => ⟨S1000000x128, .f32⟩
  | 91 => ⟨S1x1000000, .i32⟩
  | 92 => ⟨S1000000, .i32⟩
  | 93 => ⟨S_, .f32⟩
  | 94 => ⟨S100000x128, .f32⟩
  | 95 => ⟨S1000000x1, .i32⟩
  | 96 => ⟨S100000x128, .f32⟩
  | 97 => ⟨S100000x128, .bf16⟩
  | 98 => ⟨S1x1000000, .i32⟩
  | 99 => ⟨S1000000, .i32⟩
  | 100 => ⟨S_, .i32⟩
  | 101 => ⟨S1000000, .i32⟩
  | 102 => ⟨S1000000, .i1⟩
  | 103 => ⟨S_, .i32⟩
  | 104 => ⟨S1000000, .i32⟩
  | 105 => ⟨S1000000, .i32⟩
  | 106 => ⟨S1000000, .i32⟩
  | 107 => ⟨S1000000x1, .i32⟩
  | 108 => ⟨S1000000x128, .bf16⟩
  | 109 => ⟨S1000000x128, .f32⟩
  | 110 => ⟨S1x1000000, .i32⟩
  | 111 => ⟨S1000000, .i32⟩
  | 112 => ⟨S_, .f32⟩
  | 113 => ⟨S100000x128, .f32⟩
  | 114 => ⟨S1000000x1, .i32⟩
  | 115 => ⟨S100000x128, .f32⟩
  | 116 => ⟨S100000x128, .bf16⟩
  | 117 => ⟨S1x1000000, .i32⟩
  | 118 => ⟨S1000000, .i32⟩
  | 119 => ⟨S_, .i32⟩
  | 120 => ⟨S1000000, .i32⟩
  | 121 => ⟨S1000000, .i1⟩
  | 122 => ⟨S_, .i32⟩
  | 123 => ⟨S1000000, .i32⟩
  | 124 => ⟨S1000000, .i32⟩
  | 125 => ⟨S1000000, .i32⟩
  | 126 => ⟨S1000000x1, .i32⟩
  | 127 => ⟨S1000000x128, .bf16⟩
  | _ => ⟨S100000x32, .f32⟩

abbrev hbmTy0_1 (i : Nat) : BufTy := match i % 128 with
  | 0 => ⟨S1000000x128, .f32⟩
  | 1 => ⟨S1x1000000, .i32⟩
  | 2 => ⟨S1000000, .i32⟩
  | 3 => ⟨S_, .f32⟩
  | 4 => ⟨S100000x128, .f32⟩
  | 5 => ⟨S1000000x1, .i32⟩
  | 6 => ⟨S100000x128, .f32⟩
  | 7 => ⟨S100000x128, .bf16⟩
  | 8 => ⟨S1x500000, .i32⟩
  | 9 => ⟨S500000, .i32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S500000x128, .bf16⟩
  | 19 => ⟨S1x500000, .i32⟩
  | 20 => ⟨S500000, .i32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x128, .bf16⟩
  | 30 => ⟨S128x128, .f32⟩
  | 31 => ⟨S128x128, .f32⟩
  | 32 => ⟨S128x128, .f32⟩
  | 33 => ⟨S_, .f32⟩
  | 34 => ⟨S128x128, .f32⟩
  | 35 => ⟨S_, .i32⟩
  | 36 => ⟨S1, .i32⟩
  | 37 => ⟨S128x128, .f32⟩
  | 38 => ⟨S_, .f32⟩
  | 39 => ⟨S128, .f32⟩
  | 40 => ⟨S_, .i32⟩
  | 41 => ⟨S1, .i32⟩
  | 42 => ⟨S128, .f32⟩
  | 43 => ⟨S500000x128, .f32⟩
  | 44 => ⟨S500000x2, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S128, .f32⟩
  | .local _ .vmem, ⟨4, _⟩ => ⟨S5000x128, .bf16⟩
  | .local _ .vmem, ⟨5, _⟩ => ⟨S5000x128, .bf16⟩
  | .local _ .vmem, ⟨6, _⟩ => ⟨S5000x32, .f32⟩
  | .local _ .vmem, ⟨7, _⟩ => ⟨S5000x32, .f32⟩
  | .local _ .vmem, ⟨8, _⟩ => ⟨S32x128, .f32⟩
  | .local _ .vmem, ⟨9, _⟩ => ⟨S128, .f32⟩
  | .local _ .vmem, ⟨10, _⟩ => ⟨S5000x128, .bf16⟩
  | .local _ .vmem, ⟨11, _⟩ => ⟨S5000x128, .bf16⟩
  | .local _ .vmem, ⟨12, _⟩ => ⟨S4000x128, .f32⟩
  | .local _ .vmem, ⟨13, _⟩ => ⟨S4000x128, .f32⟩
  | .local _ .vmem, ⟨14, _⟩ => ⟨S4000x1, .f32⟩
  | .local _ .vmem, ⟨15, _⟩ => ⟨S4000x1, .f32⟩
  | .local _ .vmem, ⟨16, _⟩ => ⟨S4000x128, .bf16⟩
  | .local _ .vmem, ⟨17, _⟩ => ⟨S4000x128, .bf16⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S4000x128, .bf16⟩
  | .local _ .vmem, ⟨22, _⟩ => ⟨S4000x128, .bf16⟩
  | .local _ .vmem, ⟨23, _⟩ => ⟨S4000x128, .f32⟩
  | .local _ .vmem, ⟨24, _⟩ => ⟨S4000x128, .f32⟩
  | .local _ .vmem, ⟨25, _⟩ => ⟨S4000x1, .f32⟩
  | .local _ .vmem, ⟨26, _⟩ => ⟨S4000x1, .f32⟩
  | .local _ .vmem, ⟨27, _⟩ => ⟨S4000x128, .bf16⟩
  | .local _ .vmem, ⟨28, _⟩ => ⟨S4000x128, .bf16⟩
  | .local _ .vmem, ⟨29, _⟩ => ⟨S128x128, .f32⟩
  | .local _ .vmem, ⟨30, _⟩ => ⟨S128, .f32⟩
  | .local _ .vmem, ⟨31, _⟩ => ⟨S128x128, .f32⟩
  | .local _ .vmem, ⟨32, _⟩ => ⟨S4000x128, .bf16⟩
  | .local _ .vmem, ⟨33, _⟩ => ⟨S4000x128, .bf16⟩
  | .local _ .vmem, ⟨34, _⟩ => ⟨S4000x128, .f32⟩
  | .local _ .vmem, ⟨35, _⟩ => ⟨S4000x128, .f32⟩
  | .local _ .vmem, ⟨36, _⟩ => ⟨S4000x1, .f32⟩
  | .local _ .vmem, ⟨37, _⟩ => ⟨S4000x1, .f32⟩
  | .local _ .vmem, ⟨38, _⟩ => ⟨S4000x128, .bf16⟩
  | .local _ .vmem, ⟨39, _⟩ => ⟨S4000x128, .bf16⟩
  | .local _ .vmem, ⟨40, _⟩ => ⟨S128x128, .f32⟩
  | .local _ .vmem, ⟨41, _⟩ => ⟨S128, .f32⟩
  | .local _ .vmem, ⟨42, _⟩ => ⟨S128x128, .f32⟩
  | .local _ .vmem, ⟨43, _⟩ => ⟨S4000x128, .bf16⟩
  | .local _ .vmem, ⟨44, _⟩ => ⟨S4000x128, .bf16⟩
  | .local _ .vmem, ⟨45, _⟩ => ⟨S4000x128, .f32⟩
  | .local _ .vmem, ⟨46, _⟩ => ⟨S4000x128, .f32⟩
  | .local _ .vmem, ⟨47, _⟩ => ⟨S4000x1, .f32⟩
  | .local _ .vmem, ⟨48, _⟩ => ⟨S4000x1, .f32⟩
  | .local _ .vmem, ⟨49, _⟩ => ⟨S4000x128, .bf16⟩
  | .local _ .vmem, ⟨50, _⟩ => ⟨S4000x128, .bf16⟩
  | .local _ .vmem, ⟨51, _⟩ => ⟨S128x128, .f32⟩
  | .local _ .vmem, ⟨52, _⟩ => ⟨S128, .f32⟩
  | .local _ .vmem, ⟨53, _⟩ => ⟨S128x128, .f32⟩
  | .local _ .vmem, ⟨54, _⟩ => ⟨S4000x128, .bf16⟩
  | .local _ .vmem, ⟨55, _⟩ => ⟨S4000x128, .bf16⟩
  | .local _ .vmem, ⟨56, _⟩ => ⟨S5000x128, .bf16⟩
  | .local _ .vmem, ⟨57, _⟩ => ⟨S5000x128, .bf16⟩
  | .local _ .vmem, ⟨58, _⟩ => ⟨S5000x128, .bf16⟩
  | .local _ .vmem, ⟨59, _⟩ => ⟨S5000x128, .bf16⟩
  | .local _ .vmem, ⟨60, _⟩ => ⟨S5000x16, .f32⟩
  | .local _ .vmem, ⟨61, _⟩ => ⟨S5000x16, .f32⟩
  | .local _ .vmem, ⟨62, _⟩ => ⟨S16x128, .f32⟩
  | .local _ .vmem, ⟨63, _⟩ => ⟨S128, .f32⟩
  | .local _ .vmem, ⟨64, _⟩ => ⟨S128x128, .f32⟩
  | .local _ .vmem, ⟨65, _⟩ => ⟨S128x128, .f32⟩
  | .local _ .vmem, ⟨66, _⟩ => ⟨S128x128, .f32⟩
  | .local _ .vmem, ⟨67, _⟩ => ⟨S128, .f32⟩
  | .local _ .vmem, ⟨68, _⟩ => ⟨S128x128, .f32⟩
  | .local _ .vmem, ⟨69, _⟩ => ⟨S128, .f32⟩
  | .local _ .vmem, ⟨70, _⟩ => ⟨S5000x128, .f32⟩
  | .local _ .vmem, ⟨71, _⟩ => ⟨S5000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_cst_0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_cst_2 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_3 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_cst_4 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_cst_5 : Ref sig .tc := ⟨.hbm, 53, rfl⟩
abbrev main_v19 : Ref sig .tc := ⟨.hbm, 54, rfl⟩
abbrev main_v20 : Ref sig .tc := ⟨.hbm, 55, rfl⟩
abbrev main_cst_6 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_c : Ref sig .tc := ⟨.hbm, 62, rfl⟩
abbrev main_v26 : Ref sig .tc := ⟨.hbm, 63, rfl⟩
abbrev main_v27 : Ref sig .tc := ⟨.hbm, 64, rfl⟩
abbrev main_c_7 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_8 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_c_9 : Ref sig .tc := ⟨.hbm, 81, rfl⟩
abbrev main_v42 : Ref sig .tc := ⟨.hbm, 82, rfl⟩
abbrev main_v43 : Ref sig .tc := ⟨.hbm, 83, rfl⟩
abbrev main_c_10 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_11 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_c_12 : Ref sig .tc := ⟨.hbm, 100, rfl⟩
abbrev main_v58 : Ref sig .tc := ⟨.hbm, 101, rfl⟩
abbrev main_v59 : Ref sig .tc := ⟨.hbm, 102, rfl⟩
abbrev main_c_13 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_14 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_c_15 : Ref sig .tc := ⟨.hbm, 119, rfl⟩
abbrev main_v74 : Ref sig .tc := ⟨.hbm, 120, rfl⟩
abbrev main_v75 : Ref sig .tc := ⟨.hbm, 121, rfl⟩
abbrev main_c_16 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_17 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_c_18 : Ref sig .tc := ⟨.hbm, 138, rfl⟩
abbrev main_v90 : Ref sig .tc := ⟨.hbm, 139, rfl⟩
abbrev main_v91 : Ref sig .tc := ⟨.hbm, 140, rfl⟩
abbrev main_c_19 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_c_20 : Ref sig .tc := ⟨.hbm, 149, rfl⟩
abbrev main_v99 : Ref sig .tc := ⟨.hbm, 150, rfl⟩
abbrev main_v100 : Ref sig .tc := ⟨.hbm, 151, rfl⟩
abbrev main_c_21 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_22 : Ref sig .tc := ⟨.hbm, 161, rfl⟩
abbrev main_v109 : Ref sig .tc := ⟨.hbm, 162, rfl⟩
abbrev main_c_23 : Ref sig .tc := ⟨.hbm, 163, rfl⟩
abbrev main_v110 : Ref sig .tc := ⟨.hbm, 164, rfl⟩
abbrev main_v111 : Ref sig .tc := ⟨.hbm, 165, rfl⟩
abbrev main_cst_24 : Ref sig .tc := ⟨.hbm, 166, rfl⟩
abbrev main_v112 : Ref sig .tc := ⟨.hbm, 167, rfl⟩
abbrev main_c_25 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg6_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg6_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg6_0 : Ref sig .tc := ⟨.vmem, 65, rfl⟩
abbrev cc6_stg7_0 : Ref sig .tc := ⟨.vmem, 66, rfl⟩
abbrev cc6_stg8_0 : Ref sig .tc := ⟨.vmem, 67, rfl⟩
abbrev cc6_stg9_0 : Ref sig .tc := ⟨.vmem, 68, rfl⟩
abbrev cc6_stg10_0 : Ref sig .tc := ⟨.vmem, 69, rfl⟩
abbrev cc6_stg11_0 : Ref sig .tc := ⟨.vmem, 70, rfl⟩
abbrev cc6_stg11_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem6_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61
abbrev cc6_sem3_0 : DmaSem sig := 62
abbrev cc6_sem4_0 : DmaSem sig := 63
abbrev cc6_sem5_0 : DmaSem sig := 64
abbrev cc6_sem6_0 : DmaSem sig := 65
abbrev cc6_sem7_0 : DmaSem sig := 66
abbrev cc6_sem8_0 : DmaSem sig := 67
abbrev cc6_sem9_0 : DmaSem sig := 68
abbrev cc6_sem10_0 : DmaSem sig := 69
abbrev cc6_sem11_0 : DmaSem sig := 70
abbrev cc6_sem11_1 : DmaSem sig := 71

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S4000x128 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S16x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S128x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S128 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S5000x128 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

class Facts₀ : Prop where
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S1000000 : S_.BroadcastsInDim S1000000 (![] : Fin 0 → Fin S1000000.rank)
  slices_S2x1000000_S1x1000000_1_0 : S2x1000000.Slices ![1, 0] S1x1000000
  shapeCasts_S1x1000000_S1000000 : S1x1000000.ShapeCasts S1000000
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  slices_S2x1000000_S1x1000000_0_0 : S2x1000000.Slices ![0, 0] S1x1000000
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  slices_S384x128_S128x128_0_0 : S384x128.Slices ![0, 0] S128x128
  slices_S384x128_S128x128_128_0 : S384x128.Slices ![128, 0] S128x128
  slices_S384x128_S128x128_256_0 : S384x128.Slices ![256, 0] S128x128
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  inb_S5000x16_S5000x16_0_0 : ∀ a, (![0, 0] : Fin 2 → Nat) a + S5000x16.size a ≤ S5000x16.size a
  h_S5000x16 : 0 < S5000x16.numel
  inb_S16x128_S16x128_0_0 : ∀ a, (![0, 0] : Fin 2 → Nat) a + S16x128.size a ≤ S16x128.size a
  h_S16x128 : 0 < S16x128.numel
  shapeCasts_S5000x128_S5000x128 : S5000x128.ShapeCasts S5000x128
  shapeCasts_S128x128_S128x128 : S128x128.ShapeCasts S128x128
  shapeCasts_S128_S128 : S128.ShapeCasts S128
  slices_S500000x128_S500000x2_0_0 : S500000x128.Slices ![0, 0] S500000x2
  dot_S5000x32_S32x128_S5000x128_1_0_0_1_n_n_wf : DotDims.WF S5000x32 S32x128 S5000x128 [1] [0] [0] [1] [] []
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S4000x128_S128x128_S4000x128_1_0_0_1_n_n_wf : DotDims.WF S4000x128 S128x128 S4000x128 [1] [0] [0] [1] [] []
  gather_S100000x128_S500000x1_S500000x128_1_0_n_n_0_1_1128_wf : GatherDims.WF S100000x128 S500000x1 S500000x128 [1] [0] [] [0] [] 1 ![1, 128]
  scatter_S128x128_S1_S128x2_01_n_1_0_wf : ScatterDims.WF S128x128 S1 S128x2 [0, 1] [] [1] 0
  scatter_S128_S1_S2_0_n_0_0_wf : ScatterDims.WF S128 S1 S2 [0] [] [0] 0
  dot_S5000x16_S16x128_S5000x128_1_0_0_1_n_n_wf : DotDims.WF S5000x16 S16x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S32x128.size a
  hwx1_1 : ∀ i : grid1.Coords, EltTy.bits .f32 = 32 ∨ (Rect.block (s := S32x128) S32x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .bf16 = 32 ∨ (Rect.block (s := S100000x128) S5000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .bf16 = 32 ∨ (Rect.block (s := S100000x128) S4000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .bf16 = 32 ∨ (Rect.block (s := S100000x128) S4000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .bf16 = 32 ∨ (Rect.block (s := S100000x128) S4000x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S100000x128.size a
  hwx3_6 : ∀ i : grid3.Coords, EltTy.bits .bf16 = 32 ∨ (Rect.block (s := S100000x128) S4000x128.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S100000x1.size a
  hwx4_1 : ∀ i : grid4.Coords, EltTy.bits .f32 = 32 ∨ (Rect.block (s := S100000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .bf16 = 32 ∨ (Rect.block (s := S100000x128) S4000x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S100000x128.size a
  hwx4_6 : ∀ i : grid4.Coords, EltTy.bits .bf16 = 32 ∨ (Rect.block (s := S100000x128) S4000x128.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S100000x1.size a
  hwx5_1 : ∀ i : grid5.Coords, EltTy.bits .f32 = 32 ∨ (Rect.block (s := S100000x1) S4000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S100000x128.size a
  hwx5_2 : ∀ i : grid5.Coords, EltTy.bits .bf16 = 32 ∨ (Rect.block (s := S100000x128) S4000x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x128.size a ≤ S100000x128.size a
  hwx5_6 : ∀ i : grid5.Coords, EltTy.bits .bf16 = 32 ∨ (Rect.block (s := S100000x128) S4000x128.size (cc5_transform_6 i) (hinb5_6 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S500000x128.size a
  hwx6_0 : ∀ i : grid6.Coords, EltTy.bits .bf16 = 32 ∨ (Rect.block (s := S500000x128) S5000x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S500000x128.size a
  hwx6_1 : ∀ i : grid6.Coords, EltTy.bits .bf16 = 32 ∨ (Rect.block (s := S500000x128) S5000x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x16.size a ≤ S500000x16.size a
  hwx6_2 : ∀ i : grid6.Coords, EltTy.bits .f32 = 32 ∨ (Rect.block (s := S500000x16) S5000x16.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S16x128.size a ≤ S16x128.size a
  hwx6_3 : ∀ i : grid6.Coords, EltTy.bits .f32 = 32 ∨ (Rect.block (s := S16x128) S16x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128.size a ≤ S128.size a
  hwx6_4 : ∀ i : grid6.Coords, EltTy.bits .f32 = 32 ∨ (Rect.block (s := S128) S128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x128.size a ≤ S128x128.size a
  hwx6_6 : ∀ i : grid6.Coords, EltTy.bits .f32 = 32 ∨ (Rect.block (s := S128x128) S128x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x128.size a ≤ S128x128.size a
  hwx6_7 : ∀ i : grid6.Coords, EltTy.bits .f32 = 32 ∨ (Rect.block (s := S128x128) S128x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S128.size a ≤ S128.size a
  hwx6_8 : ∀ i : grid6.Coords, EltTy.bits .f32 = 32 ∨ (Rect.block (s := S128) S128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S128x128.size a ≤ S128x128.size a
  hwx6_9 : ∀ i : grid6.Coords, EltTy.bits .f32 = 32 ∨ (Rect.block (s := S128x128) S128x128.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S128.size a ≤ S128.size a
  hwx6_10 : ∀ i : grid6.Coords, EltTy.bits .f32 = 32 ∨ (Rect.block (s := S128) S128.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S5000x128.size a ≤ S500000x128.size a
  hwx6_11 : ∀ i : grid6.Coords, EltTy.bits .f32 = 32 ∨ (Rect.block (s := S500000x128) S5000x128.size (cc6_transform_11 i) (hinb6_11 i)).WholeWords (EltTy.packing .f32)

variable [Facts₀]

def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S128x128_S1_S128x2_01_n_1_0 : ScatterDims S128x128 S1 S128x2 where
  updateWindowDims := [0, 1]
  insertedWindowDims := []
  scatterDimsToOperandDims := [1]
  indexVectorDim := 0
  wf := scatter_S128x128_S1_S128x2_01_n_1_0_wf
def scatter_S128_S1_S2_0_n_0_0 : ScatterDims S128 S1 S2 where
  updateWindowDims := [0]
  insertedWindowDims := []
  scatterDimsToOperandDims := [0]
  indexVectorDim := 0
  wf := scatter_S128_S1_S2_0_n_0_0_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S32x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v54) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v55) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v70) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v39) S4000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg18) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v71) S4000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v86) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v23) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v55) S4000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg19) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg20) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg21) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v87) S4000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v96) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v105) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg2) S5000x16.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg22) S16x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg23) S128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v106) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v107) S128x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v108) S128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_arg25) S128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v111) S128x128.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v114) S128.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v115) S5000x128.size cc6_transform_11 reads6_11 true false 2 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

class Facts : Prop extends Facts₀ where

variable [Facts]
-- ==== ReferenceIdeal.lean ====
abbrev S100000x32 : Shape := ⟨2, ![100000, 32]⟩
abbrev S500000x16 : Shape := ⟨2, ![500000, 16]⟩
abbrev S2x1000000 : Shape := ⟨2, ![2, 1000000]⟩
abbrev S2x500000 : Shape := ⟨2, ![2, 500000]⟩
abbrev S32x128 : Shape := ⟨2, ![32, 128]⟩
abbrev S128 : Shape := ⟨1, ![128]⟩
abbrev S128x128 : Shape := ⟨2, ![128, 128]⟩
abbrev S16x128 : Shape := ⟨2, ![16, 128]⟩
abbrev S384x128 : Shape := ⟨2, ![384, 128]⟩
abbrev S128x2 : Shape := ⟨2, ![128, 2]⟩
abbrev S2 : Shape := ⟨1, ![2]⟩
abbrev S100000x128 : Shape := ⟨2, ![100000, 128]⟩
abbrev S1x128 : Shape := ⟨2, ![1, 128]⟩
abbrev S_ : Shape := ⟨0, ![]⟩
abbrev S1x1000000 : Shape := ⟨2, ![1, 1000000]⟩
abbrev S1000000 : Shape := ⟨1, ![1000000]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S500000x384 : Shape := ⟨2, ![500000, 384]⟩
abbrev S500000x2 : Shape := ⟨2, ![500000, 2]⟩
abbrev S1x2 : Shape := ⟨2, ![1, 2]⟩

abbrev nBuf : Space → Nat
  | .hbm => 243
  | .vmem => 0
  | .smem => 0
  | _ => 0

abbrev hbmTy0_0 (i : Nat) : BufTy := match i % 128 with
  | 0 => ⟨S100000x32, .f32⟩
  | 1 => ⟨S100000x32, .f32⟩
  | 2 => ⟨S500000x16, .f32⟩
  | 3 => ⟨S2x1000000, .i32⟩
  | 4 => ⟨S2x1000000, .i32⟩
  | 5 => ⟨S2x500000, .i32⟩
  | 6 => ⟨S32x128, .f32⟩
  | 7 => ⟨S128, .f32⟩
  | 8 => ⟨S32x128, .f32⟩
  | 9 => ⟨S128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S128x128, .f32⟩
  | 20 => ⟨S128, .f32⟩
  | 21 => ⟨S128x128, .f32⟩
  | 22 => ⟨S16x128, .f32⟩
  | 23 => ⟨S128, .f32⟩
  | 24 => ⟨S384x128, .f32⟩
  | 25 => ⟨S128, .f32⟩
  | 26 => ⟨S128x2, .f32⟩
  | 27 => ⟨S2, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S1x1000000, .i32⟩
  | 43 => ⟨S1000000, .i32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x128, .f32⟩
  | 53 => ⟨S1x1000000, .i32⟩
  | 54 => ⟨S1000000, .i32⟩
  | 55 => ⟨S_, .f32⟩
  | 56 => ⟨S100000x128, .f32⟩
  | 57 => ⟨S1000000x1, .i32⟩
  | 58 => ⟨S100000x128, .f32⟩
  | 59 => ⟨S_, .f32⟩
  | 60 => ⟨S1000000, .f32⟩
  | 61 => ⟨S1x1000000, .i32⟩
  | 62 => ⟨S1000000, .i32⟩
  | 63 => ⟨S_, .f32⟩
  | 64 => ⟨S100000, .f32⟩
  | 65 => ⟨S1000000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S1x1000000, .i32⟩
  | 83 => ⟨S1000000, .i32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x128, .f32⟩
  | 93 => ⟨S1x1000000, .i32⟩
  | 94 => ⟨S1000000, .i32⟩
  | 95 => ⟨S_, .f32⟩
  | 96 => ⟨S100000x128, .f32⟩
  | 97 => ⟨S1000000x1, .i32⟩
  | 98 => ⟨S100000x128, .f32⟩
  | 99 => ⟨S_, .f32⟩
  | 100 => ⟨S1000000, .f32⟩
  | 101 => ⟨S1x1000000, .i32⟩
  | 102 => ⟨S1000000, .i32⟩
  | 103 => ⟨S_, .f32⟩
  | 104 => ⟨S100000, .f32⟩
  | 105 => ⟨S1000000x1, .i32⟩
  | 106 => ⟨S100000, .f32⟩
  | 107 => ⟨S_, .f32⟩
  | 108 => ⟨S100000, .f32⟩
  | 109 => ⟨S100000, .f32⟩
  | 110 => ⟨S100000x1, .f32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S1x1000000, .i32⟩
  | 123 => ⟨S1000000, .i32⟩
  | 124 => ⟨S_, .i32⟩
  | 125 => ⟨S1000000, .i32⟩
  | 126 => ⟨S1000000, .i1⟩
  | 127 => ⟨S_, .i32⟩
  | _ => ⟨S100000x32, .f32⟩

abbrev hbmTy0_1 (i : Nat) : BufTy := match i % 128 with
  | 0 => ⟨S1000000, .i32⟩
  | 1 => ⟨S1000000, .i32⟩
  | 2 => ⟨S1000000, .i32⟩
  | 3 => ⟨S1000000x1, .i32⟩
  | 4 => ⟨S1000000x128, .f32⟩
  | 5 => ⟨S1x1000000, .i32⟩
  | 6 => ⟨S1000000, .i32⟩
  | 7 => ⟨S_, .f32⟩
  | 8 => ⟨S100000x128, .f32⟩
  | 9 => ⟨S1000000x1, .i32⟩
  | 10 => ⟨S100000x128, .f32⟩
  | 11 => ⟨S_, .f32⟩
  | 12 => ⟨S1000000, .f32⟩
  | 13 => ⟨S1x1000000, .i32⟩
  | 14 => ⟨S1000000, .i32⟩
  | 15 => ⟨S_, .f32⟩
  | 16 => ⟨S100000, .f32⟩
  | 17 => ⟨S1000000x1, .i32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S1x1000000, .i32⟩
  | 35 => ⟨S1000000, .i32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000x128, .f32⟩
  | 45 => ⟨S1x1000000, .i32⟩
  | 46 => ⟨S1000000, .i32⟩
  | 47 => ⟨S_, .f32⟩
  | 48 => ⟨S100000x128, .f32⟩
  | 49 => ⟨S1000000x1, .i32⟩
  | 50 => ⟨S100000x128, .f32⟩
  | 51 => ⟨S_, .f32⟩
  | 52 => ⟨S1000000, .f32⟩
  | 53 => ⟨S1x1000000, .i32⟩
  | 54 => ⟨S1000000, .i32⟩
  | 55 => ⟨S_, .f32⟩
  | 56 => ⟨S100000, .f32⟩
  | 57 => ⟨S1000000x1, .i32⟩
  | 58 => ⟨S100000, .f32⟩
  | 59 => ⟨S_, .f32⟩
  | 60 => ⟨S100000, .f32⟩
  | 61 => ⟨S100000, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S1x500000, .i32⟩
  | 75 => ⟨S500000, .i32⟩
  | 76 => ⟨S_, .i32⟩
  | 77 => ⟨S500000, .i32⟩
  | 78 => ⟨S500000, .i1⟩
  | 79 => ⟨S_, .i32⟩
  | 80 => ⟨S500000, .i32⟩
  | 81 => ⟨S500000, .i32⟩
  | 82 => ⟨S500000, .i32⟩
  | 83 => ⟨S500000x1, .i32⟩
  | 84 => ⟨S500000x128, .f32⟩
  | 85 => ⟨S1x500000, .i32⟩
  | 86 => ⟨S500000, .i32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x128, .f32⟩
  | 96 => ⟨S500000x128, .f32⟩
  | 97 => ⟨S1x128, .f32⟩
  | 98 => ⟨S500000x128, .f32⟩
  | 99 => ⟨S500000x128, .f32⟩
  | 100 => ⟨S_, .f32⟩
  | 101 => ⟨S500000x128, .f32⟩
  | 102 => ⟨S500000x128, .f32⟩
  | 103 => ⟨S500000x384, .f32⟩
  | 104 => ⟨S500000x128, .f32⟩
  | 105 => ⟨S1x128, .f32⟩
  | 106 => ⟨S500000x128, .f32⟩
  | 107 => ⟨S500000x128, .f32⟩
  | 108 => ⟨S_, .f32⟩
  | 109 => ⟨S500000x128, .f32⟩
  | 110 => ⟨S500000x128, .f32⟩
  | 111 => ⟨S500000x2, .f32⟩
  | 112 => ⟨S1x2, .f32⟩
  | 113 => ⟨S500000x2, .f32⟩
  | 114 => ⟨S500000x2, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_call0_cst : Ref sig .tc := ⟨.hbm, 32, rfl⟩
abbrev main_call0_v0 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call1_cst : Ref sig .tc := ⟨.hbm, 39, rfl⟩
abbrev main_call1_v0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_c : Ref sig .tc := ⟨.hbm, 44, rfl⟩
abbrev main_v12 : Ref sig .tc := ⟨.hbm, 45, rfl⟩
abbrev main_v13 : Ref sig .tc := ⟨.hbm, 46, rfl⟩
abbrev main_c_0 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_1 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_2 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_3 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call2_cst : Ref sig .tc := ⟨.hbm, 79, rfl⟩
abbrev main_call2_v0 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_c_4 : Ref sig .tc := ⟨.hbm, 84, rfl⟩
abbrev main_v44 : Ref sig .tc := ⟨.hbm, 85, rfl⟩
abbrev main_v45 : Ref sig .tc := ⟨.hbm, 86, rfl⟩
abbrev main_c_5 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_6 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_7 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_8 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_9 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_call3_cst : Ref sig .tc := ⟨.hbm, 119, rfl⟩
abbrev main_call3_v0 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_c_10 : Ref sig .tc := ⟨.hbm, 124, rfl⟩
abbrev main_v76 : Ref sig .tc := ⟨.hbm, 125, rfl⟩
abbrev main_v77 : Ref sig .tc := ⟨.hbm, 126, rfl⟩
abbrev main_c_11 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_12 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_cst_13 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_14 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_15 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_call4_cst : Ref sig .tc := ⟨.hbm, 159, rfl⟩
abbrev main_call4_v0 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_c_16 : Ref sig .tc := ⟨.hbm, 164, rfl⟩
abbrev main_v108 : Ref sig .tc := ⟨.hbm, 165, rfl⟩
abbrev main_v109 : Ref sig .tc := ⟨.hbm, 166, rfl⟩
abbrev main_c_17 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_cst_18 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_cst_19 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_cst_20 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_cst_21 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_call5_cst : Ref sig .tc := ⟨.hbm, 199, rfl⟩
abbrev main_call5_v0 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_c_22 : Ref sig .tc := ⟨.hbm, 204, rfl⟩
abbrev main_v140 : Ref sig .tc := ⟨.hbm, 205, rfl⟩
abbrev main_v141 : Ref sig .tc := ⟨.hbm, 206, rfl⟩
abbrev main_c_23 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_c_24 : Ref sig .tc := ⟨.hbm, 215, rfl⟩
abbrev main_v149 : Ref sig .tc := ⟨.hbm, 216, rfl⟩
abbrev main_v150 : Ref sig .tc := ⟨.hbm, 217, rfl⟩
abbrev main_c_25 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_call6_cst : Ref sig .tc := ⟨.hbm, 228, rfl⟩
abbrev main_call6_v0 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_call7_cst : Ref sig .tc := ⟨.hbm, 236, rfl⟩
abbrev main_call7_v0 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  concatenates_S500000x128_S500000x128_S500000x128_S500000x384_d1 : Shape.Concatenates [S500000x128, S500000x128, S500000x128] S500000x384 1
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  dot_S100000x32_S32x128_S100000x128_1_0_0_1_n_n_wf : DotDims.WF S100000x32 S32x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  dot_S500000x16_S16x128_S500000x128_1_0_0_1_n_n_wf : DotDims.WF S500000x16 S16x128 S500000x128 [1] [0] [0] [1] [] []
  dot_S500000x384_S384x128_S500000x128_1_0_0_1_n_n_wf : DotDims.WF S500000x384 S384x128 S500000x128 [1] [0] [0] [1] [] []
  dot_S500000x128_S128x2_S500000x2_1_0_0_1_n_n_wf : DotDims.WF S500000x128 S128x2 S500000x2 [1] [0] [0] [1] [] []

variable [Facts₀]

def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x16_S16x128_S500000x128_1_0_0_1_n_n : DotDims S500000x16 S16x128 S500000x128 where
  lhsContracting := [1]
  rhsContracting := [0]
  lhsNonContracting := [0]
  rhsNonContracting := [1]
  lhsBatch := []
  rhsBatch := []
  wf := dot_S500000x16_S16x128_S500000x128_1_0_0_1_n_n_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x2_S500000x2_1_0_0_1_n_n : DotDims S500000x128 S128x2 S500000x2 where
  lhsContracting := [1]
  rhsContracting := [0]
  lhsNonContracting := [0]
  rhsNonContracting := [1]
  lhsBatch := []
  rhsBatch := []
  wf := dot_S500000x128_S128x2_S500000x2_1_0_0_1_n_n_wf

class Facts : Prop extends Facts₀ where

variable [Facts]
-- ==== Proof.KernelRun.lean ====
/-
  The idealized kernel's run with its RESULT named: every weakly fair execution of the program ends with the result
  buffer holding what the last stretch of host operations leaves there (`W13`: the boundary contents after the
  seventh region and the final slice), and with the argument arrays as launched. The run is the launch of the
  thirteen segments (seven regions among six stretches of host operations) over the thread state "every unscoped
  buffer at the boundary's contents"; the final state is read at the result buffer and at each argument.
-/
import proofs.«117216_j44994077393231_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v116) = W13 m ρ c (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v116 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c),
       (h c _ (mem_uc main_arg22 (by decide))).trans (W13_main_arg22 m ρ c),
       (h c _ (mem_uc main_arg23 (by decide))).trans (W13_main_arg23 m ρ c),
       (h c _ (mem_uc main_arg24 (by decide))).trans (W13_main_arg24 m ρ c),
       (h c _ (mem_uc main_arg25 (by decide))).trans (W13_main_arg25 m ρ c),
       (h c _ (mem_uc main_arg26 (by decide))).trans (W13_main_arg26 m ρ c),
       (h c _ (mem_uc main_arg27 (by decide))).trans (W13_main_arg27 m ρ c)⟩)

end Cert.KernelIdeal.Result

end
-- ==== Proof.Kept.lean ====
/-
  Which buffers the segments leave alone. The program's run is a fold over thirteen segments (seven kernel regions among
  six stretches of host operations); `W j` is the contents of the TensorCore's buffers after segment `j`. A region
  changes only its output array (an input array ends as it was found); a stretch of host operations changes only
  the buffers its operations write. Each lemma here says that one buffer, at one boundary, still holds what it held
  at an earlier boundary: the arguments what was launched, an intermediate result what the segment that produced it
  left.
-/
import proofs.«117216_j44994077393231_2_alg».proof.Proof.Gen.KernelIdeal.Frame
import Idealize.ShloMosaic.Lib.StableHlo.Run
import Idealize.ShloMosaic.Lib.ValueIdx
import Idealize.ShloMosaic.PureOps.Ideal

set_option maxRecDepth 16384

noncomputable section

namespace Cert.KernelIdeal.Kept

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

theorem keep1_main_arg1 (c : Dev nD) : W1 m ρ c (Proc.devRef .tc main_arg1) = W0 m ρ c (Proc.devRef .tc main_arg1) :=
  (show W1 m ρ c (Proc.devRef .tc main_arg1) = W0 m ρ c (Proc.devRef .tc main_arg1) from
    W1_of_ne m ρ c main_arg1 (by decide))

theorem keep1_main_arg8 (c : Dev nD) : W1 m ρ c (Proc.devRef .tc main_arg8) = W0 m ρ c (Proc.devRef .tc main_arg8) :=
  (show W1 m ρ c (Proc.devRef .tc main_arg8) = W0 m ρ c (Proc.devRef .tc main_arg8) from
    W1_of_ne m ρ c main_arg8 (by decide))

theorem keep1_main_arg9 (c : Dev nD) : W1 m ρ c (Proc.devRef .tc main_arg9) = W0 m ρ c (Proc.devRef .tc main_arg9) :=
  (show W1 m ρ c (Proc.devRef .tc main_arg9) = W0 m ρ c (Proc.devRef .tc main_arg9) from
    W1_of_ne m ρ c main_arg9 (by decide))

theorem keep1_main_arg4 (c : Dev nD) : W1 m ρ c (Proc.devRef .tc main_arg4) = W0 m ρ c (Proc.devRef .tc main_arg4) :=
  (show W1 m ρ c (Proc.devRef .tc main_arg4) = W0 m ρ c (Proc.devRef .tc main_arg4) from
    W1_of_ne m ρ c main_arg4 (by decide))

theorem keep2_main_arg4 (c : Dev nD) : W2 m ρ c (Proc.devRef .tc main_arg4) = W0 m ρ c (Proc.devRef .tc main_arg4) :=
  (show W2 m ρ c (Proc.devRef .tc main_arg4) = W1 m ρ c (Proc.devRef .tc main_arg4) from
    W2_of_ne m ρ c main_arg4 (by decide)).trans (keep1_main_arg4 m ρ c)

theorem keep3_main_arg4 (c : Dev nD) : W3 m ρ c (Proc.devRef .tc main_arg4) = W0 m ρ c (Proc.devRef .tc main_arg4) :=
  (show W3 m ρ c (Proc.devRef .tc main_arg4) = W2 m ρ c (Proc.devRef .tc main_arg4) from
    StableHlo.after_of_forall_not_mem (b := Proc.devRef .tc main_arg4) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg4 m ρ c)

theorem keep4_main_arg4 (c : Dev nD) : W4 m ρ c (Proc.devRef .tc main_arg4) = W0 m ρ c (Proc.devRef .tc main_arg4) :=
  (show W4 m ρ c (Proc.devRef .tc main_arg4) = W3 m ρ c (Proc.devRef .tc main_arg4) from
    W4_of_ne m ρ c main_arg4 (by decide)).trans (keep3_main_arg4 m ρ c)

theorem keep5_main_arg4 (c : Dev nD) : W5 m ρ c (Proc.devRef .tc main_arg4) = W0 m ρ c (Proc.devRef .tc main_arg4) :=
  (show W5 m ρ c (Proc.devRef .tc main_arg4) = W4 m ρ c (Proc.devRef .tc main_arg4) from
    StableHlo.after_of_forall_not_mem (b := Proc.devRef .tc main_arg4) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg4 m ρ c)

theorem keep6_main_arg4 (c : Dev nD) : W6 m ρ c (Proc.devRef .tc main_arg4) = W0 m ρ c (Proc.devRef .tc main_arg4) :=
  (show W6 m ρ c (Proc.devRef .tc main_arg4) = W5 m ρ c (Proc.devRef .tc main_arg4) from
    W6_of_ne m ρ c main_arg4 (by decide)).trans (keep5_main_arg4 m ρ c)

theorem keep1_main_arg3 (c : Dev nD) : W1 m ρ c (Proc.devRef .tc main_arg3) = W0 m ρ c (Proc.devRef .tc main_arg3) :=
  (show W1 m ρ c (Proc.devRef .tc main_arg3) = W0 m ρ c (Proc.devRef .tc main_arg3) from
    W1_of_ne m ρ c main_arg3 (by decide))

theorem keep2_main_arg3 (c : Dev nD) : W2 m ρ c (Proc.devRef .tc main_arg3) = W0 m ρ c (Proc.devRef .tc main_arg3) :=
  (show W2 m ρ c (Proc.devRef .tc main_arg3) = W1 m ρ c (Proc.devRef .tc main_arg3) from
    W2_of_ne m ρ c main_arg3 (by decide)).trans (keep1_main_arg3 m ρ c)

theorem keep3_main_arg3 (c : Dev nD) : W3 m ρ c (Proc.devRef .tc main_arg3) = W0 m ρ c (Proc.devRef .tc main_arg3) :=
  (show W3 m ρ c (Proc.devRef .tc main_arg3) = W2 m ρ c (Proc.devRef .tc main_arg3) from
    StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg3 m ρ c)

theorem keep4_main_arg3 (c : Dev nD) : W4 m ρ c (Proc.devRef .tc main_arg3) = W0 m ρ c (Proc.devRef .tc main_arg3) :=
  (show W4 m ρ c (Proc.devRef .tc main_arg3) = W3 m ρ c (Proc.devRef .tc main_arg3) from
    W4_of_ne m ρ c main_arg3 (by decide)).trans (keep3_main_arg3 m ρ c)

theorem keep5_main_arg3 (c : Dev nD) : W5 m ρ c (Proc.devRef .tc main_arg3) = W0 m ρ c (Proc.devRef .tc main_arg3) :=
  (show W5 m ρ c (Proc.devRef .tc main_arg3) = W4 m ρ c (Proc.devRef .tc main_arg3) from
    StableHlo.after_of_forall_not_mem (b := Proc.devRef .tc main_arg3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg3 m ρ c)

theorem keep6_main_arg3 (c : Dev nD) : W6 m ρ c (Proc.devRef .tc main_arg3) = W0 m ρ c (Proc.devRef .tc main_arg3) :=
  (show W6 m ρ c (Proc.devRef .tc main_arg3) = W5 m ρ c (Proc.devRef .tc main_arg3) from
    W6_of_ne m ρ c main_arg3 (by decide)).trans (keep5_main_arg3 m ρ c)

theorem keep7_main_arg3 (c : Dev nD) : W7 m ρ c (Proc.devRef .tc main_arg3) = W0 m ρ c (Proc.devRef .tc main_arg3) :=
  (show W7 m ρ c (Proc.devRef .tc main_arg3) = W6 m ρ c (Proc.devRef .tc main_arg3) from
    StableHlo.after_of_forall_not_mem (b := Proc.devRef .tc main_arg3) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_arg3 m ρ c)

theorem keep8_main_arg3 (c : Dev nD) : W8 m ρ c (Proc.devRef .tc main_arg3) = W0 m ρ c (Proc.devRef .tc main_arg3) :=
  (show W8 m ρ c (Proc.devRef .tc main_arg3) = W7 m ρ c (Proc.devRef .tc main_arg3) from
    W8_of_ne m ρ c main_arg3 (by decide)).trans (keep7_main_arg3 m ρ c)

theorem keep1_main_arg10 (c : Dev nD) : W1 m ρ c (Proc.devRef .tc main_arg10) = W0 m ρ c (Proc.devRef .tc main_arg10) :=
  (show W1 m ρ c (Proc.devRef .tc main_arg10) = W0 m ρ c (Proc.devRef .tc main_arg10) from
    W1_of_ne m ρ c main_arg10 (by decide))

theorem keep2_main_arg10 (c : Dev nD) : W2 m ρ c (Proc.devRef .tc main_arg10) = W0 m ρ c (Proc.devRef .tc main_arg10) :=
  (show W2 m ρ c (Proc.devRef .tc main_arg10) = W1 m ρ c (Proc.devRef .tc main_arg10) from
    W2_of_ne m ρ c main_arg10 (by decide)).trans (keep1_main_arg10 m ρ c)

theorem keep3_main_arg10 (c : Dev nD) : W3 m ρ c (Proc.devRef .tc main_arg10) = W0 m ρ c (Proc.devRef .tc main_arg10) :=
  (show W3 m ρ c (Proc.devRef .tc main_arg10) = W2 m ρ c (Proc.devRef .tc main_arg10) from
    StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg10 m ρ c)

theorem keep1_main_arg11 (c : Dev nD) : W1 m ρ c (Proc.devRef .tc main_arg11) = W0 m ρ c (Proc.devRef .tc main_arg11) :=
  (show W1 m ρ c (Proc.devRef .tc main_arg11) = W0 m ρ c (Proc.devRef .tc main_arg11) from
    W1_of_ne m ρ c main_arg11 (by decide))

theorem keep2_main_arg11 (c : Dev nD) : W2 m ρ c (Proc.devRef .tc main_arg11) = W0 m ρ c (Proc.devRef .tc main_arg11) :=
  (show W2 m ρ c (Proc.devRef .tc main_arg11) = W1 m ρ c (Proc.devRef .tc main_arg11) from
    W2_of_ne m ρ c main_arg11 (by decide)).trans (keep1_main_arg11 m ρ c)

theorem keep3_main_arg11 (c : Dev nD) : W3 m ρ c (Proc.devRef .tc main_arg11) = W0 m ρ c (Proc.devRef .tc main_arg11) :=
  (show W3 m ρ c (Proc.devRef .tc main_arg11) = W2 m ρ c (Proc.devRef .tc main_arg11) from
    StableHlo.after_of_forall_not_mem (b := Proc.devRef .tc main_arg11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg11 m ρ c)

theorem keep1_main_arg12 (c : Dev nD) : W1 m ρ c (Proc.devRef .tc main_arg12) = W0 m ρ c (Proc.devRef .tc main_arg12) :=
  (show W1 m ρ c (Proc.devRef .tc main_arg12) = W0 m ρ c (Proc.devRef .tc main_arg12) from
    W1_of_ne m ρ c main_arg12 (by decide))

theorem keep2_main_arg12 (c : Dev nD) : W2 m ρ c (Proc.devRef .tc main_arg12) = W0 m ρ c (Proc.devRef .tc main_arg12) :=
  (show W2 m ρ c (Proc.devRef .tc main_arg12) = W1 m ρ c (Proc.devRef .tc main_arg12) from
    W2_of_ne m ρ c main_arg12 (by decide)).trans (keep1_main_arg12 m ρ c)

theorem keep3_main_arg12 (c : Dev nD) : W3 m ρ c (Proc.devRef .tc main_arg12) = W0 m ρ c (Proc.devRef .tc main_arg12) :=
  (show W3 m ρ c (Proc.devRef .tc main_arg12) = W2 m ρ c (Proc.devRef .tc main_arg12) from
    StableHlo.after_of_forall_not_mem (b := Proc.devRef .tc main_arg12) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg12 m ρ c)

theorem keep1_main_arg13 (c : Dev nD) : W1 m ρ c (Proc.devRef .tc main_arg13) = W0 m ρ c (Proc.devRef .tc main_arg13) :=
  (show W1 m ρ c (Proc.devRef .tc main_arg13) = W0 m ρ c (Proc.devRef .tc main_arg13) from
    W1_of_ne m ρ c main_arg13 (by decide))

theorem keep2_main_arg13 (c : Dev nD) : W2 m ρ c (Proc.devRef .tc main_arg13) = W0 m ρ c (Proc.devRef .tc main_arg13) :=
  (show W2 m ρ c (Proc.devRef .tc main_arg13) = W1 m ρ c (Proc.devRef .tc main_arg13) from
    W2_of_ne m ρ c main_arg13 (by decide)).trans (keep1_main_arg13 m ρ c)

theorem keep3_main_arg13 (c : Dev nD) : W3 m ρ c (Proc.devRef .tc main_arg13) = W0 m ρ c (Proc.devRef .tc main_arg13) :=
  (show W3 m ρ c (Proc.devRef .tc main_arg13) = W2 m ρ c (Proc.devRef .tc main_arg13) from
    StableHlo.after_of_forall_not_mem (b := Proc.devRef .tc main_arg13) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg13 m ρ c)

theorem keep4_main_arg13 (c : Dev nD) : W4 m ρ c (Proc.devRef .tc main_arg13) = W0 m ρ c (Proc.devRef .tc main_arg13) :=
  (show W4 m ρ c (Proc.devRef .tc main_arg13) = W3 m ρ c (Proc.devRef .tc main_arg13) from
    W4_of_ne m ρ c main_arg13 (by decide)).trans (keep3_main_arg13 m ρ c)

theorem keep5_main_arg13 (c : Dev nD) : W5 m ρ c (Proc.devRef .tc main_arg13) = W0 m ρ c (Proc.devRef .tc main_arg13) :=
  (show W5 m ρ c (Proc.devRef .tc main_arg13) = W4 m ρ c (Proc.devRef .tc main_arg13) from
    StableHlo.after_of_forall_not_mem (b := Proc.devRef .tc main_arg13) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg13 m ρ c)

theorem keep1_main_arg14 (c : Dev nD) : W1 m ρ c (Proc.devRef .tc main_arg14) = W0 m ρ c (Proc.devRef .tc main_arg14) :=
  (show W1 m ρ c (Proc.devRef .tc main_arg14) = W0 m ρ c (Proc.devRef .tc main_arg14) from
    W1_of_ne m ρ c main_arg14 (by decide))

theorem keep2_main_arg14 (c : Dev nD) : W2 m ρ c (Proc.devRef .tc main_arg14) = W0 m ρ c (Proc.devRef .tc main_arg14) :=
  (show W2 m ρ c (Proc.devRef .tc main_arg14) = W1 m ρ c (Proc.devRef .tc main_arg14) from
    W2_of_ne m ρ c main_arg14 (by decide)).trans (keep1_main_arg14 m ρ c)

theorem keep3_main_arg14 (c : Dev nD) : W3 m ρ c (Proc.devRef .tc main_arg14) = W0 m ρ c (Proc.devRef .tc main_arg14) :=
  (show W3 m ρ c (Proc.devRef .tc main_arg14) = W2 m ρ c (Proc.devRef .tc main_arg14) from
    StableHlo.after_of_forall_not_mem (b := Proc.devRef .tc main_arg14) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg14 m ρ c)

theorem keep4_main_arg14 (c : Dev nD) : W4 m ρ c (Proc.devRef .tc main_arg14) = W0 m ρ c (Proc.devRef .tc main_arg14) :=
  (show W4 m ρ c (Proc.devRef .tc main_arg14) = W3 m ρ c (Proc.devRef .tc main_arg14) from
    W4_of_ne m ρ c main_arg14 (by decide)).trans (keep3_main_arg14 m ρ c)

theorem keep5_main_arg14 (c : Dev nD) : W5 m ρ c (Proc.devRef .tc main_arg14) = W0 m ρ c (Proc.devRef .tc main_arg14) :=
  (show W5 m ρ c (Proc.devRef .tc main_arg14) = W4 m ρ c (Proc.devRef .tc main_arg14) from
    StableHlo.after_of_forall_not_mem (b := Proc.devRef .tc main_arg14) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg14 m ρ c)

theorem keep1_main_arg15 (c : Dev nD) : W1 m ρ c (Proc.devRef .tc main_arg15) = W0 m ρ c (Proc.devRef .tc main_arg15) :=
  (show W1 m ρ c (Proc.devRef .tc main_arg15) = W0 m ρ c (Proc.devRef .tc main_arg15) from
    W1_of_ne m ρ c main_arg15 (by decide))

theorem keep2_main_arg15 (c : Dev nD) : W2 m ρ c (Proc.devRef .tc main_arg15) = W0 m ρ c (Proc.devRef .tc main_arg15) :=
  (show W2 m ρ c (Proc.devRef .tc main_arg15) = W1 m ρ c (Proc.devRef .tc main_arg15) from
    W2_of_ne m ρ c main_arg15 (by decide)).trans (keep1_main_arg15 m ρ c)

theorem keep3_main_arg15 (c : Dev nD) : W3 m ρ c (Proc.devRef .tc main_arg15) = W0 m ρ c (Proc.devRef .tc main_arg15) :=
  (show W3 m ρ c (Proc.devRef .tc main_arg15) = W2 m ρ c (Proc.devRef .tc main_arg15) from
    StableHlo.after_of_forall_not_mem (b := Proc.devRef .tc main_arg15) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg15 m ρ c)

theorem keep4_main_arg15 (c : Dev nD) : W4 m ρ c (Proc.devRef .tc main_arg15) = W0 m ρ c (Proc.devRef .tc main_arg15) :=
  (show W4 m ρ c (Proc.devRef .tc main_arg15) = W3 m ρ c (Proc.devRef .tc main_arg15) from
    W4_of_ne m ρ c main_arg15 (by decide)).trans (keep3_main_arg15 m ρ c)

theorem keep5_main_arg15 (c : Dev nD) : W5 m ρ c (Proc.devRef .tc main_arg15) = W0 m ρ c (Proc.devRef .tc main_arg15) :=
  (show W5 m ρ c (Proc.devRef .tc main_arg15) = W4 m ρ c (Proc.devRef .tc main_arg15) from
    StableHlo.after_of_forall_not_mem (b := Proc.devRef .tc main_arg15) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg15 m ρ c)

theorem keep1_main_arg16 (c : Dev nD) : W1 m ρ c (Proc.devRef .tc main_arg16) = W0 m ρ c (Proc.devRef .tc main_arg16) :=
  (show W1 m ρ c (Proc.devRef .tc main_arg16) = W0 m ρ c (Proc.devRef .tc main_arg16) from
    W1_of_ne m ρ c main_arg16 (by decide))

theorem keep2_main_arg16 (c : Dev nD) : W2 m ρ c (Proc.devRef .tc main_arg16) = W0 m ρ c (Proc.devRef .tc main_arg16) :=
  (show W2 m ρ c (Proc.devRef .tc main_arg16) = W1 m ρ c (Proc.devRef .tc main_arg16) from
    W2_of_ne m ρ c main_arg16 (by decide)).trans (keep1_main_arg16 m ρ c)

theorem keep3_main_arg16 (c : Dev nD) : W3 m ρ c (Proc.devRef .tc main_arg16) = W0 m ρ c (Proc.devRef .tc main_arg16) :=
  (show W3 m ρ c (Proc.devRef .tc main_arg16) = W2 m ρ c (Proc.devRef .tc main_arg16) from
    StableHlo.after_of_forall_not_mem (b := Proc.devRef .tc main_arg16) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg16 m ρ c)

theorem keep4_main_arg16 (c : Dev nD) : W4 m ρ c (Proc.devRef .tc main_arg16) = W0 m ρ c (Proc.devRef .tc main_arg16) :=
  (show W4 m ρ c (Proc.devRef .tc main_arg16) = W3 m ρ c (Proc.devRef .tc main_arg16) from
    W4_of_ne m ρ c main_arg16 (by decide)).trans (keep3_main_arg16 m ρ c)

theorem keep5_main_arg16 (c : Dev nD) : W5 m ρ c (Proc.devRef .tc main_arg16) = W0 m ρ c (Proc.devRef .tc main_arg16) :=
  (show W5 m ρ c (Proc.devRef .tc main_arg16) = W4 m ρ c (Proc.devRef .tc main_arg16) from
    StableHlo.after_of_forall_not_mem (b := Proc.devRef .tc main_arg16) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg16 m ρ c)

theorem keep6_main_arg16 (c : Dev nD) : W6 m ρ c (Proc.devRef .tc main_arg16) = W0 m ρ c (Proc.devRef .tc main_arg16) :=
  (show W6 m ρ c (Proc.devRef .tc main_arg16) = W5 m ρ c (Proc.devRef .tc main_arg16) from
    W6_of_ne m ρ c main_arg16 (by decide)).trans (keep5_main_arg16 m ρ c)

theorem keep7_main_arg16 (c : Dev nD) : W7 m ρ c (Proc.devRef .tc main_arg16) = W0 m ρ c (Proc.devRef .tc main_arg16) :=
  (show W7 m ρ c (Proc.devRef .tc main_arg16) = W6 m ρ c (Proc.devRef .tc main_arg16) from
    StableHlo.after_of_forall_not_mem (b := Proc.devRef .tc main_arg16) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_arg16 m ρ c)

theorem keep1_main_arg17 (c : Dev nD) : W1 m ρ c (Proc.devRef .tc main_arg17) = W0 m ρ c (Proc.devRef .tc main_arg17) :=
  (show W1 m ρ c (Proc.devRef .tc main_arg17) = W0 m ρ c (Proc.devRef .tc main_arg17) from
    W1_of_ne m ρ c main_arg17 (by decide))

theorem keep2_main_arg17 (c : Dev nD) : W2 m ρ c (Proc.devRef .tc main_arg17) = W0 m ρ c (Proc.devRef .tc main_arg17) :=
  (show W2 m ρ c (Proc.devRef .tc main_arg17) = W1 m ρ c (Proc.devRef .tc main_arg17) from
    W2_of_ne m ρ c main_arg17 (by decide)).trans (keep1_main_arg17 m ρ c)

theorem keep3_main_arg17 (c : Dev nD) : W3 m ρ c (Proc.devRef .tc main_arg17) = W0 m ρ c (Proc.devRef .tc main_arg17) :=
  (show W3 m ρ c (Proc.devRef .tc main_arg17) = W2 m ρ c (Proc.devRef .tc main_arg17) from
    StableHlo.after_of_forall_not_mem (b := Proc.devRef .tc main_arg17) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg17 m ρ c)

theorem keep4_main_arg17 (c : Dev nD) : W4 m ρ c (Proc.devRef .tc main_arg17) = W0 m ρ c (Proc.devRef .tc main_arg17) :=
  (show W4 m ρ c (Proc.devRef .tc main_arg17) = W3 m ρ c (Proc.devRef .tc main_arg17) from
    W4_of_ne m ρ c main_arg17 (by decide)).trans (keep3_main_arg17 m ρ c)

theorem keep5_main_arg17 (c : Dev nD) : W5 m ρ c (Proc.devRef .tc main_arg17) = W0 m ρ c (Proc.devRef .tc main_arg17) :=
  (show W5 m ρ c (Proc.devRef .tc main_arg17) = W4 m ρ c (Proc.devRef .tc main_arg17) from
    StableHlo.after_of_forall_not_mem (b := Proc.devRef .tc main_arg17) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg17 m ρ c)

theorem keep6_main_arg17 (c : Dev nD) : W6 m ρ c (Proc.devRef .tc main_arg17) = W0 m ρ c (Proc.devRef .tc main_arg17) :=
  (show W6 m ρ c (Proc.devRef .tc main_arg17) = W5 m ρ c (Proc.devRef .tc main_arg17) from
    W6_of_ne m ρ c main_arg17 (by decide)).trans (keep5_main_arg17 m ρ c)

theorem keep7_main_arg17 (c : Dev nD) : W7 m ρ c (Proc.devRef .tc main_arg17) = W0 m ρ c (Proc.devRef .tc main_arg17) :=
  (show W7 m ρ c (Proc.devRef .tc main_arg17) = W6 m ρ c (Proc.devRef .tc main_arg17) from
    StableHlo.after_of_forall_not_mem (b := Proc.devRef .tc main_arg17) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_arg17 m ρ c)

theorem keep1_main_arg18 (c : Dev nD) : W1 m ρ c (Proc.devRef .tc main_arg18) = W0 m ρ c (Proc.devRef .tc main_arg18) :=
  (show W1 m ρ c (Proc.devRef .tc main_arg18) = W0 m ρ c (Proc.devRef .tc main_arg18) from
    W1_of_ne m ρ c main_arg18 (by decide))

theorem keep2_main_arg18 (c : Dev nD) : W2 m ρ c (Proc.devRef .tc main_arg18) = W0 m ρ c (Proc.devRef .tc main_arg18) :=
  (show W2 m ρ c (Proc.devRef .tc main_arg18) = W1 m ρ c (Proc.devRef .tc main_arg18) from
    W2_of_ne m ρ c main_arg18 (by decide)).trans (keep1_main_arg18 m ρ c)

theorem keep3_main_arg18 (c : Dev nD) : W3 m ρ c (Proc.devRef .tc main_arg18) = W0 m ρ c (Proc.devRef .tc main_arg18) :=
  (show W3 m ρ c (Proc.devRef .tc main_arg18) = W2 m ρ c (Proc.devRef .tc main_arg18) from
    StableHlo.after_of_forall_not_mem (b := Proc.devRef .tc main_arg18) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg18 m ρ c)

theorem keep4_main_arg18 (c : Dev nD) : W4 m ρ c (Proc.devRef .tc main_arg18) = W0 m ρ c (Proc.devRef .tc main_arg18) :=
  (show W4 m ρ c (Proc.devRef .tc main_arg18) = W3 m ρ c (Proc.devRef .tc main_arg18) from
    W4_of_ne m ρ c main_arg18 (by decide)).trans (keep3_main_arg18 m ρ c)

theorem keep5_main_arg18 (c : Dev nD) : W5 m ρ c (Proc.devRef .tc main_arg18) = W0 m ρ c (Proc.devRef .tc main_arg18) :=
  (show W5 m ρ c (Proc.devRef .tc main_arg18) = W4 m ρ c (Proc.devRef .tc main_arg18) from
    StableHlo.after_of_forall_not_mem (b := Proc.devRef .tc main_arg18) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg18 m ρ c)

theorem keep6_main_arg18 (c : Dev nD) : W6 m ρ c (Proc.devRef .tc main_arg18) = W0 m ρ c (Proc.devRef .tc main_arg18) :=
  (show W6 m ρ c (Proc.devRef .tc main_arg18) = W5 m ρ c (Proc.devRef .tc main_arg18) from
    W6_of_ne m ρ c main_arg18 (by decide)).trans (keep5_main_arg18 m ρ c)

theorem keep7_main_arg18 (c : Dev nD) : W7 m ρ c (Proc.devRef .tc main_arg18) = W0 m ρ c (Proc.devRef .tc main_arg18) :=
  (show W7 m ρ c (Proc.devRef .tc main_arg18) = W6 m ρ c (Proc.devRef .tc main_arg18) from
    StableHlo.after_of_forall_not_mem (b := Proc.devRef .tc main_arg18) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_arg18 m ρ c)

theorem keep1_main_arg19 (c : Dev nD) : W1 m ρ c (Proc.devRef .tc main_arg19) = W0 m ρ c (Proc.devRef .tc main_arg19) :=
  (show W1 m ρ c (Proc.devRef .tc main_arg19) = W0 m ρ c (Proc.devRef .tc main_arg19) from
    W1_of_ne m ρ c main_arg19 (by decide))

theorem keep2_main_arg19 (c : Dev nD) : W2 m ρ c (Proc.devRef .tc main_arg19) = W0 m ρ c (Proc.devRef .tc main_arg19) :=
  (show W2 m ρ c (Proc.devRef .tc main_arg19) = W1 m ρ c (Proc.devRef .tc main_arg19) from
    W2_of_ne m ρ c main_arg19 (by decide)).trans (keep1_main_arg19 m ρ c)

theorem keep3_main_arg19 (c : Dev nD) : W3 m ρ c (Proc.devRef .tc main_arg19) = W0 m ρ c (Proc.devRef .tc main_arg19) :=
  (show W3 m ρ c (Proc.devRef .tc main_arg19) = W2 m ρ c (Proc.devRef .tc main_arg19) from
    StableHlo.after_of_forall_not_mem (b := Proc.devRef .tc main_arg19) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg19 m ρ c)

theorem keep4_main_arg19 (c : Dev nD) : W4 m ρ c (Proc.devRef .tc main_arg19) = W0 m ρ c (Proc.devRef .tc main_arg19) :=
  (show W4 m ρ c (Proc.devRef .tc main_arg19) = W3 m ρ c (Proc.devRef .tc main_arg19) from
    W4_of_ne m ρ c main_arg19 (by decide)).trans (keep3_main_arg19 m ρ c)

theorem keep5_main_arg19 (c : Dev nD) : W5 m ρ c (Proc.devRef .tc main_arg19) = W0 m ρ c (Proc.devRef .tc main_arg19) :=
  (show W5 m ρ c (Proc.devRef .tc main_arg19) = W4 m ρ c (Proc.devRef .tc main_arg19) from
    StableHlo.after_of_forall_not_mem (b := Proc.devRef .tc main_arg19) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg19 m ρ c)

theorem keep6_main_arg19 (c : Dev nD) : W6 m ρ c (Proc.devRef .tc main_arg19) = W0 m ρ c (Proc.devRef .tc main_arg19) :=
  (show W6 m ρ c (Proc.devRef .tc main_arg19) = W5 m ρ c (Proc.devRef .tc main_arg19) from
    W6_of_ne m ρ c main_arg19 (by decide)).trans (keep5_main_arg19 m ρ c)

theorem keep7_main_arg19 (c : Dev nD) : W7 m ρ c (Proc.devRef .tc main_arg19) = W0 m ρ c (Proc.devRef .tc main_arg19) :=
  (show W7 m ρ c (Proc.devRef .tc main_arg19) = W6 m ρ c (Proc.devRef .tc main_arg19) from
    StableHlo.after_of_forall_not_mem (b := Proc.devRef .tc main_arg19) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_arg19 m ρ c)

theorem keep8_main_arg19 (c : Dev nD) : W8 m ρ c (Proc.devRef .tc main_arg19) = W0 m ρ c (Proc.devRef .tc main_arg19) :=
  (show W8 m ρ c (Proc.devRef .tc main_arg19) = W7 m ρ c (Proc.devRef .tc main_arg19) from
    W8_of_ne m ρ c main_arg19 (by decide)).trans (keep7_main_arg19 m ρ c)

theorem keep9_main_arg19 (c : Dev nD) : W9 m ρ c (Proc.devRef .tc main_arg19) = W0 m ρ c (Proc.devRef .tc main_arg19) :=
  (show W9 m ρ c (Proc.devRef .tc main_arg19) = W8 m ρ c (Proc.devRef .tc main_arg19) from
    StableHlo.after_of_forall_not_mem (b := Proc.devRef .tc main_arg19) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_main_arg19 m ρ c)

theorem keep1_main_arg20 (c : Dev nD) : W1 m ρ c (Proc.devRef .tc main_arg20) = W0 m ρ c (Proc.devRef .tc main_arg20) :=
  (show W1 m ρ c (Proc.devRef .tc main_arg20) = W0 m ρ c (Proc.devRef .tc main_arg20) from
    W1_of_ne m ρ c main_arg20 (by decide))

theorem keep2_main_arg20 (c : Dev nD) : W2 m ρ c (Proc.devRef .tc main_arg20) = W0 m ρ c (Proc.devRef .tc main_arg20) :=
  (show W2 m ρ c (Proc.devRef .tc main_arg20) = W1 m ρ c (Proc.devRef .tc main_arg20) from
    W2_of_ne m ρ c main_arg20 (by decide)).trans (keep1_main_arg20 m ρ c)

theorem keep3_main_arg20 (c : Dev nD) : W3 m ρ c (Proc.devRef .tc main_arg20) = W0 m ρ c (Proc.devRef .tc main_arg20) :=
  (show W3 m ρ c (Proc.devRef .tc main_arg20) = W2 m ρ c (Proc.devRef .tc main_arg20) from
    StableHlo.after_of_forall_not_mem (b := Proc.devRef .tc main_arg20) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg20 m ρ c)

theorem keep4_main_arg20 (c : Dev nD) : W4 m ρ c (Proc.devRef .tc main_arg20) = W0 m ρ c (Proc.devRef .tc main_arg20) :=
  (show W4 m ρ c (Proc.devRef .tc main_arg20) = W3 m ρ c (Proc.devRef .tc main_arg20) from
    W4_of_ne m ρ c main_arg20 (by decide)).trans (keep3_main_arg20 m ρ c)

theorem keep5_main_arg20 (c : Dev nD) : W5 m ρ c (Proc.devRef .tc main_arg20) = W0 m ρ c (Proc.devRef .tc main_arg20) :=
  (show W5 m ρ c (Proc.devRef .tc main_arg20) = W4 m ρ c (Proc.devRef .tc main_arg20) from
    StableHlo.after_of_forall_not_mem (b := Proc.devRef .tc main_arg20) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg20 m ρ c)

theorem keep6_main_arg20 (c : Dev nD) : W6 m ρ c (Proc.devRef .tc main_arg20) = W0 m ρ c (Proc.devRef .tc main_arg20) :=
  (show W6 m ρ c (Proc.devRef .tc main_arg20) = W5 m ρ c (Proc.devRef .tc main_arg20) from
    W6_of_ne m ρ c main_arg20 (by decide)).trans (keep5_main_arg20 m ρ c)

theorem keep7_main_arg20 (c : Dev nD) : W7 m ρ c (Proc.devRef .tc main_arg20) = W0 m ρ c (Proc.devRef .tc main_arg20) :=
  (show W7 m ρ c (Proc.devRef .tc main_arg20) = W6 m ρ c (Proc.devRef .tc main_arg20) from
    StableHlo.after_of_forall_not_mem (b := Proc.devRef .tc main_arg20) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_arg20 m ρ c)

theorem keep8_main_arg20 (c : Dev nD) : W8 m ρ c (Proc.devRef .tc main_arg20) = W0 m ρ c (Proc.devRef .tc main_arg20) :=
  (show W8 m ρ c (Proc.devRef .tc main_arg20) = W7 m ρ c (Proc.devRef .tc main_arg20) from
    W8_of_ne m ρ c main_arg20 (by decide)).trans (keep7_main_arg20 m ρ c)

theorem keep9_main_arg20 (c : Dev nD) : W9 m ρ c (Proc.devRef .tc main_arg20) = W0 m ρ c (Proc.devRef .tc main_arg20) :=
  (show W9 m ρ c (Proc.devRef .tc main_arg20) = W8 m ρ c (Proc.devRef .tc main_arg20) from
    StableHlo.after_of_forall_not_mem (b := Proc.devRef .tc main_arg20) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_main_arg20 m ρ c)

theorem keep1_main_arg21 (c : Dev nD) : W1 m ρ c (Proc.devRef .tc main_arg21) = W0 m ρ c (Proc.devRef .tc main_arg21) :=
  (show W1 m ρ c (Proc.devRef .tc main_arg21) = W0 m ρ c (Proc.devRef .tc main_arg21) from
    W1_of_ne m ρ c main_arg21 (by decide))

theorem keep2_main_arg21 (c : Dev nD) : W2 m ρ c (Proc.devRef .tc main_arg21) = W0 m ρ c (Proc.devRef .tc main_arg21) :=
  (show W2 m ρ c (Proc.devRef .tc main_arg21) = W1 m ρ c (Proc.devRef .tc main_arg21) from
    W2_of_ne m ρ c main_arg21 (by decide)).trans (keep1_main_arg21 m ρ c)

theorem keep3_main_arg21 (c : Dev nD) : W3 m ρ c (Proc.devRef .tc main_arg21) = W0 m ρ c (Proc.devRef .tc main_arg21) :=
  (show W3 m ρ c (Proc.devRef .tc main_arg21) = W2 m ρ c (Proc.devRef .tc main_arg21) from
    StableHlo.after_of_forall_not_mem (b := Proc.devRef .tc main_arg21) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg21 m ρ c)

theorem keep4_main_arg21 (c : Dev nD) : W4 m ρ c (Proc.devRef .tc main_arg21) = W0 m ρ c (Proc.devRef .tc main_arg21) :=
  (show W4 m ρ c (Proc.devRef .tc main_arg21) = W3 m ρ c (Proc.devRef .tc main_arg21) from
    W4_of_ne m ρ c main_arg21 (by decide)).trans (keep3_main_arg21 m ρ c)

theorem keep5_main_arg21 (c : Dev nD) : W5 m ρ c (Proc.devRef .tc main_arg21) = W0 m ρ c (Proc.devRef .tc main_arg21) :=
  (show W5 m ρ c (Proc.devRef .tc main_arg21) = W4 m ρ c (Proc.devRef .tc main_arg21) from
    StableHlo.after_of_forall_not_mem (b := Proc.devRef .tc main_arg21) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg21 m ρ c)

theorem keep6_main_arg21 (c : Dev nD) : W6 m ρ c (Proc.devRef .tc main_arg21) = W0 m ρ c (Proc.devRef .tc main_arg21) :=
  (show W6 m ρ c (Proc.devRef .tc main_arg21) = W5 m ρ c (Proc.devRef .tc main_arg21) from
    W6_of_ne m ρ c main_arg21 (by decide)).trans (keep5_main_arg21 m ρ c)

theorem keep7_main_arg21 (c : Dev nD) : W7 m ρ c (Proc.devRef .tc main_arg21) = W0 m ρ c (Proc.devRef .tc main_arg21) :=
  (show W7 m ρ c (Proc.devRef .tc main_arg21) = W6 m ρ c (Proc.devRef .tc main_arg21) from
    StableHlo.after_of_forall_not_mem (b := Proc.devRef .tc main_arg21) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_arg21 m ρ c)

theorem keep8_main_arg21 (c : Dev nD) : W8 m ρ c (Proc.devRef .tc main_arg21) = W0 m ρ c (Proc.devRef .tc main_arg21) :=
  (show W8 m ρ c (Proc.devRef .tc main_arg21) = W7 m ρ c (Proc.devRef .tc main_arg21) from
    W8_of_ne m ρ c main_arg21 (by decide)).trans (keep7_main_arg21 m ρ c)

theorem keep9_main_arg21 (c : Dev nD) : W9 m ρ c (Proc.devRef .tc main_arg21) = W0 m ρ c (Proc.devRef .tc main_arg21) :=
  (show W9 m ρ c (Proc.devRef .tc main_arg21) = W8 m ρ c (Proc.devRef .tc main_arg21) from
    StableHlo.after_of_forall_not_mem (b := Proc.devRef .tc main_arg21) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_main_arg21 m ρ c)

theorem keep1_main_arg5 (c : Dev nD) : W1 m ρ c (Proc.devRef .tc main_arg5) = W0 m ρ c (Proc.devRef .tc main_arg5) :=
  (show W1 m ρ c (Proc.devRef .tc main_arg5) = W0 m ρ c (Proc.devRef .tc main_arg5) from
    W1_of_ne m ρ c main_arg5 (by decide))

theorem keep2_main_arg5 (c : Dev nD) : W2 m ρ c (Proc.devRef .tc main_arg5) = W0 m ρ c (Proc.devRef .tc main_arg5) :=
  (show W2 m ρ c (Proc.devRef .tc main_arg5) = W1 m ρ c (Proc.devRef .tc main_arg5) from
    W2_of_ne m ρ c main_arg5 (by decide)).trans (keep1_main_arg5 m ρ c)

theorem keep3_main_arg5 (c : Dev nD) : W3 m ρ c (Proc.devRef .tc main_arg5) = W0 m ρ c (Proc.devRef .tc main_arg5) :=
  (show W3 m ρ c (Proc.devRef .tc main_arg5) = W2 m ρ c (Proc.devRef .tc main_arg5) from
    StableHlo.after_of_forall_not_mem (b := Proc.devRef .tc main_arg5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg5 m ρ c)

theorem keep4_main_arg5 (c : Dev nD) : W4 m ρ c (Proc.devRef .tc main_arg5) = W0 m ρ c (Proc.devRef .tc main_arg5) :=
  (show W4 m ρ c (Proc.devRef .tc main_arg5) = W3 m ρ c (Proc.devRef .tc main_arg5) from
    W4_of_ne m ρ c main_arg5 (by decide)).trans (keep3_main_arg5 m ρ c)

theorem keep5_main_arg5 (c : Dev nD) : W5 m ρ c (Proc.devRef .tc main_arg5) = W0 m ρ c (Proc.devRef .tc main_arg5) :=
  (show W5 m ρ c (Proc.devRef .tc main_arg5) = W4 m ρ c (Proc.devRef .tc main_arg5) from
    StableHlo.after_of_forall_not_mem (b := Proc.devRef .tc main_arg5) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg5 m ρ c)

theorem keep6_main_arg5 (c : Dev nD) : W6 m ρ c (Proc.devRef .tc main_arg5) = W0 m ρ c (Proc.devRef .tc main_arg5) :=
  (show W6 m ρ c (Proc.devRef .tc main_arg5) = W5 m ρ c (Proc.devRef .tc main_arg5) from
    W6_of_ne m ρ c main_arg5 (by decide)).trans (keep5_main_arg5 m ρ c)

theorem keep7_main_arg5 (c : Dev nD) : W7 m ρ c (Proc.devRef .tc main_arg5) = W0 m ρ c (Proc.devRef .tc main_arg5) :=
  (show W7 m ρ c (Proc.devRef .tc main_arg5) = W6 m ρ c (Proc.devRef .tc main_arg5) from
    StableHlo.after_of_forall_not_mem (b := Proc.devRef .tc main_arg5) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_arg5 m ρ c)

theorem keep8_main_arg5 (c : Dev nD) : W8 m ρ c (Proc.devRef .tc main_arg5) = W0 m ρ c (Proc.devRef .tc main_arg5) :=
  (show W8 m ρ c (Proc.devRef .tc main_arg5) = W7 m ρ c (Proc.devRef .tc main_arg5) from
    W8_of_ne m ρ c main_arg5 (by decide)).trans (keep7_main_arg5 m ρ c)

theorem keep9_main_arg5 (c : Dev nD) : W9 m ρ c (Proc.devRef .tc main_arg5) = W0 m ρ c (Proc.devRef .tc main_arg5) :=
  (show W9 m ρ c (Proc.devRef .tc main_arg5) = W8 m ρ c (Proc.devRef .tc main_arg5) from
    StableHlo.after_of_forall_not_mem (b := Proc.devRef .tc main_arg5) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_main_arg5 m ρ c)

theorem keep10_main_arg5 (c : Dev nD) : W10 m ρ c (Proc.devRef .tc main_arg5) = W0 m ρ c (Proc.devRef .tc main_arg5) :=
  (show W10 m ρ c (Proc.devRef .tc main_arg5) = W9 m ρ c (Proc.devRef .tc main_arg5) from
    W10_of_ne m ρ c main_arg5 (by decide)).trans (keep9_main_arg5 m ρ c)

theorem keep1_main_arg24 (c : Dev nD) : W1 m ρ c (Proc.devRef .tc main_arg24) = W0 m ρ c (Proc.devRef .tc main_arg24) :=
  (show W1 m ρ c (Proc.devRef .tc main_arg24) = W0 m ρ c (Proc.devRef .tc main_arg24) from
    W1_of_ne m ρ c main_arg24 (by decide))

theorem keep2_main_arg24 (c : Dev nD) : W2 m ρ c (Proc.devRef .tc main_arg24) = W0 m ρ c (Proc.devRef .tc main_arg24) :=
  (show W2 m ρ c (Proc.devRef .tc main_arg24) = W1 m ρ c (Proc.devRef .tc main_arg24) from
    W2_of_ne m ρ c main_arg24 (by decide)).trans (keep1_main_arg24 m ρ c)

theorem keep3_main_arg24 (c : Dev nD) : W3 m ρ c (Proc.devRef .tc main_arg24) = W0 m ρ c (Proc.devRef .tc main_arg24) :=
  (show W3 m ρ c (Proc.devRef .tc main_arg24) = W2 m ρ c (Proc.devRef .tc main_arg24) from
    StableHlo.after_of_forall_not_mem (b := Proc.devRef .tc main_arg24) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg24 m ρ c)

theorem keep4_main_arg24 (c : Dev nD) : W4 m ρ c (Proc.devRef .tc main_arg24) = W0 m ρ c (Proc.devRef .tc main_arg24) :=
  (show W4 m ρ c (Proc.devRef .tc main_arg24) = W3 m ρ c (Proc.devRef .tc main_arg24) from
    W4_of_ne m ρ c main_arg24 (by decide)).trans (keep3_main_arg24 m ρ c)

theorem keep5_main_arg24 (c : Dev nD) : W5 m ρ c (Proc.devRef .tc main_arg24) = W0 m ρ c (Proc.devRef .tc main_arg24) :=
  (show W5 m ρ c (Proc.devRef .tc main_arg24) = W4 m ρ c (Proc.devRef .tc main_arg24) from
    StableHlo.after_of_forall_not_mem (b := Proc.devRef .tc main_arg24) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg24 m ρ c)

theorem keep6_main_arg24 (c : Dev nD) : W6 m ρ c (Proc.devRef .tc main_arg24) = W0 m ρ c (Proc.devRef .tc main_arg24) :=
  (show W6 m ρ c (Proc.devRef .tc main_arg24) = W5 m ρ c (Proc.devRef .tc main_arg24) from
    W6_of_ne m ρ c main_arg24 (by decide)).trans (keep5_main_arg24 m ρ c)

theorem keep7_main_arg24 (c : Dev nD) : W7 m ρ c (Proc.devRef .tc main_arg24) = W0 m ρ c (Proc.devRef .tc main_arg24) :=
  (show W7 m ρ c (Proc.devRef .tc main_arg24) = W6 m ρ c (Proc.devRef .tc main_arg24) from
    StableHlo.after_of_forall_not_mem (b := Proc.devRef .tc main_arg24) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_arg24 m ρ c)

theorem keep8_main_arg24 (c : Dev nD) : W8 m ρ c (Proc.devRef .tc main_arg24) = W0 m ρ c (Proc.devRef .tc main_arg24) :=
  (show W8 m ρ c (Proc.devRef .tc main_arg24) = W7 m ρ c (Proc.devRef .tc main_arg24) from
    W8_of_ne m ρ c main_arg24 (by decide)).trans (keep7_main_arg24 m ρ c)

theorem keep9_main_arg24 (c : Dev nD) : W9 m ρ c (Proc.devRef .tc main_arg24) = W0 m ρ c (Proc.devRef .tc main_arg24) :=
  (show W9 m ρ c (Proc.devRef .tc main_arg24) = W8 m ρ c (Proc.devRef .tc main_arg24) from
    StableHlo.after_of_forall_not_mem (b := Proc.devRef .tc main_arg24) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_main_arg24 m ρ c)

theorem keep10_main_arg24 (c : Dev nD) : W10 m ρ c (Proc.devRef .tc main_arg24) = W0 m ρ c (Proc.devRef .tc main_arg24) :=
  (show W10 m ρ c (Proc.devRef .tc main_arg24) = W9 m ρ c (Proc.devRef .tc main_arg24) from
    W10_of_ne m ρ c main_arg24 (by decide)).trans (keep9_main_arg24 m ρ c)

theorem keep1_main_arg26 (c : Dev nD) : W1 m ρ c (Proc.devRef .tc main_arg26) = W0 m ρ c (Proc.devRef .tc main_arg26) :=
  (show W1 m ρ c (Proc.devRef .tc main_arg26) = W0 m ρ c (Proc.devRef .tc main_arg26) from
    W1_of_ne m ρ c main_arg26 (by decide))

theorem keep2_main_arg26 (c : Dev nD) : W2 m ρ c (Proc.devRef .tc main_arg26) = W0 m ρ c (Proc.devRef .tc main_arg26) :=
  (show W2 m ρ c (Proc.devRef .tc main_arg26) = W1 m ρ c (Proc.devRef .tc main_arg26) from
    W2_of_ne m ρ c main_arg26 (by decide)).trans (keep1_main_arg26 m ρ c)

theorem keep3_main_arg26 (c : Dev nD) : W3 m ρ c (Proc.devRef .tc main_arg26) = W0 m ρ c (Proc.devRef .tc main_arg26) :=
  (show W3 m ρ c (Proc.devRef .tc main_arg26) = W2 m ρ c (Proc.devRef .tc main_arg26) from
    StableHlo.after_of_forall_not_mem (b := Proc.devRef .tc main_arg26) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg26 m ρ c)

theorem keep4_main_arg26 (c : Dev nD) : W4 m ρ c (Proc.devRef .tc main_arg26) = W0 m ρ c (Proc.devRef .tc main_arg26) :=
  (show W4 m ρ c (Proc.devRef .tc main_arg26) = W3 m ρ c (Proc.devRef .tc main_arg26) from
    W4_of_ne m ρ c main_arg26 (by decide)).trans (keep3_main_arg26 m ρ c)

theorem keep5_main_arg26 (c : Dev nD) : W5 m ρ c (Proc.devRef .tc main_arg26) = W0 m ρ c (Proc.devRef .tc main_arg26) :=
  (show W5 m ρ c (Proc.devRef .tc main_arg26) = W4 m ρ c (Proc.devRef .tc main_arg26) from
    StableHlo.after_of_forall_not_mem (b := Proc.devRef .tc main_arg26) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg26 m ρ c)

theorem keep6_main_arg26 (c : Dev nD) : W6 m ρ c (Proc.devRef .tc main_arg26) = W0 m ρ c (Proc.devRef .tc main_arg26) :=
  (show W6 m ρ c (Proc.devRef .tc main_arg26) = W5 m ρ c (Proc.devRef .tc main_arg26) from
    W6_of_ne m ρ c main_arg26 (by decide)).trans (keep5_main_arg26 m ρ c)

theorem keep7_main_arg26 (c : Dev nD) : W7 m ρ c (Proc.devRef .tc main_arg26) = W0 m ρ c (Proc.devRef .tc main_arg26) :=
  (show W7 m ρ c (Proc.devRef .tc main_arg26) = W6 m ρ c (Proc.devRef .tc main_arg26) from
    StableHlo.after_of_forall_not_mem (b := Proc.devRef .tc main_arg26) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_arg26 m ρ c)

theorem keep8_main_arg26 (c : Dev nD) : W8 m ρ c (Proc.devRef .tc main_arg26) = W0 m ρ c (Proc.devRef .tc main_arg26) :=
  (show W8 m ρ c (Proc.devRef .tc main_arg26) = W7 m ρ c (Proc.devRef .tc main_arg26) from
    W8_of_ne m ρ c main_arg26 (by decide)).trans (keep7_main_arg26 m ρ c)

theorem keep9_main_arg26 (c : Dev nD) : W9 m ρ c (Proc.devRef .tc main_arg26) = W0 m ρ c (Proc.devRef .tc main_arg26) :=
  (show W9 m ρ c (Proc.devRef .tc main_arg26) = W8 m ρ c (Proc.devRef .tc main_arg26) from
    StableHlo.after_of_forall_not_mem (b := Proc.devRef .tc main_arg26) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_main_arg26 m ρ c)

theorem keep10_main_arg26 (c : Dev nD) : W10 m ρ c (Proc.devRef .tc main_arg26) = W0 m ρ c (Proc.devRef .tc main_arg26) :=
  (show W10 m ρ c (Proc.devRef .tc main_arg26) = W9 m ρ c (Proc.devRef .tc main_arg26) from
    W10_of_ne m ρ c main_arg26 (by decide)).trans (keep9_main_arg26 m ρ c)

theorem keep1_main_arg27 (c : Dev nD) : W1 m ρ c (Proc.devRef .tc main_arg27) = W0 m ρ c (Proc.devRef .tc main_arg27) :=
  (show W1 m ρ c (Proc.devRef .tc main_arg27) = W0 m ρ c (Proc.devRef .tc main_arg27) from
    W1_of_ne m ρ c main_arg27 (by decide))

theorem keep2_main_arg27 (c : Dev nD) : W2 m ρ c (Proc.devRef .tc main_arg27) = W0 m ρ c (Proc.devRef .tc main_arg27) :=
  (show W2 m ρ c (Proc.devRef .tc main_arg27) = W1 m ρ c (Proc.devRef .tc main_arg27) from
    W2_of_ne m ρ c main_arg27 (by decide)).trans (keep1_main_arg27 m ρ c)

theorem keep3_main_arg27 (c : Dev nD) : W3 m ρ c (Proc.devRef .tc main_arg27) = W0 m ρ c (Proc.devRef .tc main_arg27) :=
  (show W3 m ρ c (Proc.devRef .tc main_arg27) = W2 m ρ c (Proc.devRef .tc main_arg27) from
    StableHlo.after_of_forall_not_mem (b := Proc.devRef .tc main_arg27) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg27 m ρ c)

theorem keep4_main_arg27 (c : Dev nD) : W4 m ρ c (Proc.devRef .tc main_arg27) = W0 m ρ c (Proc.devRef .tc main_arg27) :=
  (show W4 m ρ c (Proc.devRef .tc main_arg27) = W3 m ρ c (Proc.devRef .tc main_arg27) from
    W4_of_ne m ρ c main_arg27 (by decide)).trans (keep3_main_arg27 m ρ c)

theorem keep5_main_arg27 (c : Dev nD) : W5 m ρ c (Proc.devRef .tc main_arg27) = W0 m ρ c (Proc.devRef .tc main_arg27) :=
  (show W5 m ρ c (Proc.devRef .tc main_arg27) = W4 m ρ c (Proc.devRef .tc main_arg27) from
    StableHlo.after_of_forall_not_mem (b := Proc.devRef .tc main_arg27) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg27 m ρ c)

theorem keep6_main_arg27 (c : Dev nD) : W6 m ρ c (Proc.devRef .tc main_arg27) = W0 m ρ c (Proc.devRef .tc main_arg27) :=
  (show W6 m ρ c (Proc.devRef .tc main_arg27) = W5 m ρ c (Proc.devRef .tc main_arg27) from
    W6_of_ne m ρ c main_arg27 (by decide)).trans (keep5_main_arg27 m ρ c)

theorem keep7_main_arg27 (c : Dev nD) : W7 m ρ c (Proc.devRef .tc main_arg27) = W0 m ρ c (Proc.devRef .tc main_arg27) :=
  (show W7 m ρ c (Proc.devRef .tc main_arg27) = W6 m ρ c (Proc.devRef .tc main_arg27) from
    StableHlo.after_of_forall_not_mem (b := Proc.devRef .tc main_arg27) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_arg27 m ρ c)

theorem keep8_main_arg27 (c : Dev nD) : W8 m ρ c (Proc.devRef .tc main_arg27) = W0 m ρ c (Proc.devRef .tc main_arg27) :=
  (show W8 m ρ c (Proc.devRef .tc main_arg27) = W7 m ρ c (Proc.devRef .tc main_arg27) from
    W8_of_ne m ρ c main_arg27 (by decide)).trans (keep7_main_arg27 m ρ c)

theorem keep9_main_arg27 (c : Dev nD) : W9 m ρ c (Proc.devRef .tc main_arg27) = W0 m ρ c (Proc.devRef .tc main_arg27) :=
  (show W9 m ρ c (Proc.devRef .tc main_arg27) = W8 m ρ c (Proc.devRef .tc main_arg27) from
    StableHlo.after_of_forall_not_mem (b := Proc.devRef .tc main_arg27) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_main_arg27 m ρ c)

theorem keep10_main_arg27 (c : Dev nD) : W10 m ρ c (Proc.devRef .tc main_arg27) = W0 m ρ c (Proc.devRef .tc main_arg27) :=
  (show W10 m ρ c (Proc.devRef .tc main_arg27) = W9 m ρ c (Proc.devRef .tc main_arg27) from
    W10_of_ne m ρ c main_arg27 (by decide)).trans (keep9_main_arg27 m ρ c)

theorem keep1_main_arg2 (c : Dev nD) : W1 m ρ c (Proc.devRef .tc main_arg2) = W0 m ρ c (Proc.devRef .tc main_arg2) :=
  (show W1 m ρ c (Proc.devRef .tc main_arg2) = W0 m ρ c (Proc.devRef .tc main_arg2) from
    W1_of_ne m ρ c main_arg2 (by decide))

theorem keep2_main_arg2 (c : Dev nD) : W2 m ρ c (Proc.devRef .tc main_arg2) = W0 m ρ c (Proc.devRef .tc main_arg2) :=
  (show W2 m ρ c (Proc.devRef .tc main_arg2) = W1 m ρ c (Proc.devRef .tc main_arg2) from
    W2_of_ne m ρ c main_arg2 (by decide)).trans (keep1_main_arg2 m ρ c)

theorem keep3_main_arg2 (c : Dev nD) : W3 m ρ c (Proc.devRef .tc main_arg2) = W0 m ρ c (Proc.devRef .tc main_arg2) :=
  (show W3 m ρ c (Proc.devRef .tc main_arg2) = W2 m ρ c (Proc.devRef .tc main_arg2) from
    StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg2 m ρ c)

theorem keep4_main_arg2 (c : Dev nD) : W4 m ρ c (Proc.devRef .tc main_arg2) = W0 m ρ c (Proc.devRef .tc main_arg2) :=
  (show W4 m ρ c (Proc.devRef .tc main_arg2) = W3 m ρ c (Proc.devRef .tc main_arg2) from
    W4_of_ne m ρ c main_arg2 (by decide)).trans (keep3_main_arg2 m ρ c)

theorem keep5_main_arg2 (c : Dev nD) : W5 m ρ c (Proc.devRef .tc main_arg2) = W0 m ρ c (Proc.devRef .tc main_arg2) :=
  (show W5 m ρ c (Proc.devRef .tc main_arg2) = W4 m ρ c (Proc.devRef .tc main_arg2) from
    StableHlo.after_of_forall_not_mem (b := Proc.devRef .tc main_arg2) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg2 m ρ c)

theorem keep6_main_arg2 (c : Dev nD) : W6 m ρ c (Proc.devRef .tc main_arg2) = W0 m ρ c (Proc.devRef .tc main_arg2) :=
  (show W6 m ρ c (Proc.devRef .tc main_arg2) = W5 m ρ c (Proc.devRef .tc main_arg2) from
    W6_of_ne m ρ c main_arg2 (by decide)).trans (keep5_main_arg2 m ρ c)

theorem keep7_main_arg2 (c : Dev nD) : W7 m ρ c (Proc.devRef .tc main_arg2) = W0 m ρ c (Proc.devRef .tc main_arg2) :=
  (show W7 m ρ c (Proc.devRef .tc main_arg2) = W6 m ρ c (Proc.devRef .tc main_arg2) from
    StableHlo.after_of_forall_not_mem (b := Proc.devRef .tc main_arg2) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_arg2 m ρ c)

theorem keep8_main_arg2 (c : Dev nD) : W8 m ρ c (Proc.devRef .tc main_arg2) = W0 m ρ c (Proc.devRef .tc main_arg2) :=
  (show W8 m ρ c (Proc.devRef .tc main_arg2) = W7 m ρ c (Proc.devRef .tc main_arg2) from
    W8_of_ne m ρ c main_arg2 (by decide)).trans (keep7_main_arg2 m ρ c)

theorem keep9_main_arg2 (c : Dev nD) : W9 m ρ c (Proc.devRef .tc main_arg2) = W0 m ρ c (Proc.devRef .tc main_arg2) :=
  (show W9 m ρ c (Proc.devRef .tc main_arg2) = W8 m ρ c (Proc.devRef .tc main_arg2) from
    StableHlo.after_of_forall_not_mem (b := Proc.devRef .tc main_arg2) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_main_arg2 m ρ c)

theorem keep10_main_arg2 (c : Dev nD) : W10 m ρ c (Proc.devRef .tc main_arg2) = W0 m ρ c (Proc.devRef .tc main_arg2) :=
  (show W10 m ρ c (Proc.devRef .tc main_arg2) = W9 m ρ c (Proc.devRef .tc main_arg2) from
    W10_of_ne m ρ c main_arg2 (by decide)).trans (keep9_main_arg2 m ρ c)

theorem keep11_main_arg2 (c : Dev nD) : W11 m ρ c (Proc.devRef .tc main_arg2) = W0 m ρ c (Proc.devRef .tc main_arg2) :=
  (show W11 m ρ c (Proc.devRef .tc main_arg2) = W10 m ρ c (Proc.devRef .tc main_arg2) from
    StableHlo.after_of_forall_not_mem (b := Proc.devRef .tc main_arg2) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep10_main_arg2 m ρ c)

theorem keep1_main_arg22 (c : Dev nD) : W1 m ρ c (Proc.devRef .tc main_arg22) = W0 m ρ c (Proc.devRef .tc main_arg22) :=
  (show W1 m ρ c (Proc.devRef .tc main_arg22) = W0 m ρ c (Proc.devRef .tc main_arg22) from
    W1_of_ne m ρ c main_arg22 (by decide))

theorem keep2_main_arg22 (c : Dev nD) : W2 m ρ c (Proc.devRef .tc main_arg22) = W0 m ρ c (Proc.devRef .tc main_arg22) :=
  (show W2 m ρ c (Proc.devRef .tc main_arg22) = W1 m ρ c (Proc.devRef .tc main_arg22) from
    W2_of_ne m ρ c main_arg22 (by decide)).trans (keep1_main_arg22 m ρ c)

theorem keep3_main_arg22 (c : Dev nD) : W3 m ρ c (Proc.devRef .tc main_arg22) = W0 m ρ c (Proc.devRef .tc main_arg22) :=
  (show W3 m ρ c (Proc.devRef .tc main_arg22) = W2 m ρ c (Proc.devRef .tc main_arg22) from
    StableHlo.after_of_forall_not_mem (b := Proc.devRef .tc main_arg22) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg22 m ρ c)

theorem keep4_main_arg22 (c : Dev nD) : W4 m ρ c (Proc.devRef .tc main_arg22) = W0 m ρ c (Proc.devRef .tc main_arg22) :=
  (show W4 m ρ c (Proc.devRef .tc main_arg22) = W3 m ρ c (Proc.devRef .tc main_arg22) from
    W4_of_ne m ρ c main_arg22 (by decide)).trans (keep3_main_arg22 m ρ c)

theorem keep5_main_arg22 (c : Dev nD) : W5 m ρ c (Proc.devRef .tc main_arg22) = W0 m ρ c (Proc.devRef .tc main_arg22) :=
  (show W5 m ρ c (Proc.devRef .tc main_arg22) = W4 m ρ c (Proc.devRef .tc main_arg22) from
    StableHlo.after_of_forall_not_mem (b := Proc.devRef .tc main_arg22) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg22 m ρ c)

theorem keep6_main_arg22 (c : Dev nD) : W6 m ρ c (Proc.devRef .tc main_arg22) = W0 m ρ c (Proc.devRef .tc main_arg22) :=
  (show W6 m ρ c (Proc.devRef .tc main_arg22) = W5 m ρ c (Proc.devRef .tc main_arg22) from
    W6_of_ne m ρ c main_arg22 (by decide)).trans (keep5_main_arg22 m ρ c)

theorem keep7_main_arg22 (c : Dev nD) : W7 m ρ c (Proc.devRef .tc main_arg22) = W0 m ρ c (Proc.devRef .tc main_arg22) :=
  (show W7 m ρ c (Proc.devRef .tc main_arg22) = W6 m ρ c (Proc.devRef .tc main_arg22) from
    StableHlo.after_of_forall_not_mem (b := Proc.devRef .tc main_arg22) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_arg22 m ρ c)

theorem keep8_main_arg22 (c : Dev nD) : W8 m ρ c (Proc.devRef .tc main_arg22) = W0 m ρ c (Proc.devRef .tc main_arg22) :=
  (show W8 m ρ c (Proc.devRef .tc main_arg22) = W7 m ρ c (Proc.devRef .tc main_arg22) from
    W8_of_ne m ρ c main_arg22 (by decide)).trans (keep7_main_arg22 m ρ c)

theorem keep9_main_arg22 (c : Dev nD) : W9 m ρ c (Proc.devRef .tc main_arg22) = W0 m ρ c (Proc.devRef .tc main_arg22) :=
  (show W9 m ρ c (Proc.devRef .tc main_arg22) = W8 m ρ c (Proc.devRef .tc main_arg22) from
    StableHlo.after_of_forall_not_mem (b := Proc.devRef .tc main_arg22) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_main_arg22 m ρ c)

theorem keep10_main_arg22 (c : Dev nD) : W10 m ρ c (Proc.devRef .tc main_arg22) = W0 m ρ c (Proc.devRef .tc main_arg22) :=
  (show W10 m ρ c (Proc.devRef .tc main_arg22) = W9 m ρ c (Proc.devRef .tc main_arg22) from
    W10_of_ne m ρ c main_arg22 (by decide)).trans (keep9_main_arg22 m ρ c)

theorem keep11_main_arg22 (c : Dev nD) : W11 m ρ c (Proc.devRef .tc main_arg22) = W0 m ρ c (Proc.devRef .tc main_arg22) :=
  (show W11 m ρ c (Proc.devRef .tc main_arg22) = W10 m ρ c (Proc.devRef .tc main_arg22) from
    StableHlo.after_of_forall_not_mem (b := Proc.devRef .tc main_arg22) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep10_main_arg22 m ρ c)

theorem keep1_main_arg23 (c : Dev nD) : W1 m ρ c (Proc.devRef .tc main_arg23) = W0 m ρ c (Proc.devRef .tc main_arg23) :=
  (show W1 m ρ c (Proc.devRef .tc main_arg23) = W0 m ρ c (Proc.devRef .tc main_arg23) from
    W1_of_ne m ρ c main_arg23 (by decide))

theorem keep2_main_arg23 (c : Dev nD) : W2 m ρ c (Proc.devRef .tc main_arg23) = W0 m ρ c (Proc.devRef .tc main_arg23) :=
  (show W2 m ρ c (Proc.devRef .tc main_arg23) = W1 m ρ c (Proc.devRef .tc main_arg23) from
    W2_of_ne m ρ c main_arg23 (by decide)).trans (keep1_main_arg23 m ρ c)

theorem keep3_main_arg23 (c : Dev nD) : W3 m ρ c (Proc.devRef .tc main_arg23) = W0 m ρ c (Proc.devRef .tc main_arg23) :=
  (show W3 m ρ c (Proc.devRef .tc main_arg23) = W2 m ρ c (Proc.devRef .tc main_arg23) from
    StableHlo.after_of_forall_not_mem (b := Proc.devRef .tc main_arg23) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg23 m ρ c)

theorem keep4_main_arg23 (c : Dev nD) : W4 m ρ c (Proc.devRef .tc main_arg23) = W0 m ρ c (Proc.devRef .tc main_arg23) :=
  (show W4 m ρ c (Proc.devRef .tc main_arg23) = W3 m ρ c (Proc.devRef .tc main_arg23) from
    W4_of_ne m ρ c main_arg23 (by decide)).trans (keep3_main_arg23 m ρ c)

theorem keep5_main_arg23 (c : Dev nD) : W5 m ρ c (Proc.devRef .tc main_arg23) = W0 m ρ c (Proc.devRef .tc main_arg23) :=
  (show W5 m ρ c (Proc.devRef .tc main_arg23) = W4 m ρ c (Proc.devRef .tc main_arg23) from
    StableHlo.after_of_forall_not_mem (b := Proc.devRef .tc main_arg23) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg23 m ρ c)

theorem keep6_main_arg23 (c : Dev nD) : W6 m ρ c (Proc.devRef .tc main_arg23) = W0 m ρ c (Proc.devRef .tc main_arg23) :=
  (show W6 m ρ c (Proc.devRef .tc main_arg23) = W5 m ρ c (Proc.devRef .tc main_arg23) from
    W6_of_ne m ρ c main_arg23 (by decide)).trans (keep5_main_arg23 m ρ c)

theorem keep7_main_arg23 (c : Dev nD) : W7 m ρ c (Proc.devRef .tc main_arg23) = W0 m ρ c (Proc.devRef .tc main_arg23) :=
  (show W7 m ρ c (Proc.devRef .tc main_arg23) = W6 m ρ c (Proc.devRef .tc main_arg23) from
    StableHlo.after_of_forall_not_mem (b := Proc.devRef .tc main_arg23) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_arg23 m ρ c)

theorem keep8_main_arg23 (c : Dev nD) : W8 m ρ c (Proc.devRef .tc main_arg23) = W0 m ρ c (Proc.devRef .tc main_arg23) :=
  (show W8 m ρ c (Proc.devRef .tc main_arg23) = W7 m ρ c (Proc.devRef .tc main_arg23) from
    W8_of_ne m ρ c main_arg23 (by decide)).trans (keep7_main_arg23 m ρ c)

theorem keep9_main_arg23 (c : Dev nD) : W9 m ρ c (Proc.devRef .tc main_arg23) = W0 m ρ c (Proc.devRef .tc main_arg23) :=
  (show W9 m ρ c (Proc.devRef .tc main_arg23) = W8 m ρ c (Proc.devRef .tc main_arg23) from
    StableHlo.after_of_forall_not_mem (b := Proc.devRef .tc main_arg23) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_main_arg23 m ρ c)

theorem keep10_main_arg23 (c : Dev nD) : W10 m ρ c (Proc.devRef .tc main_arg23) = W0 m ρ c (Proc.devRef .tc main_arg23) :=
  (show W10 m ρ c (Proc.devRef .tc main_arg23) = W9 m ρ c (Proc.devRef .tc main_arg23) from
    W10_of_ne m ρ c main_arg23 (by decide)).trans (keep9_main_arg23 m ρ c)

theorem keep11_main_arg23 (c : Dev nD) : W11 m ρ c (Proc.devRef .tc main_arg23) = W0 m ρ c (Proc.devRef .tc main_arg23) :=
  (show W11 m ρ c (Proc.devRef .tc main_arg23) = W10 m ρ c (Proc.devRef .tc main_arg23) from
    StableHlo.after_of_forall_not_mem (b := Proc.devRef .tc main_arg23) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep10_main_arg23 m ρ c)

theorem keep1_main_arg25 (c : Dev nD) : W1 m ρ c (Proc.devRef .tc main_arg25) = W0 m ρ c (Proc.devRef .tc main_arg25) :=
  (show W1 m ρ c (Proc.devRef .tc main_arg25) = W0 m ρ c (Proc.devRef .tc main_arg25) from
    W1_of_ne m ρ c main_arg25 (by decide))

theorem keep2_main_arg25 (c : Dev nD) : W2 m ρ c (Proc.devRef .tc main_arg25) = W0 m ρ c (Proc.devRef .tc main_arg25) :=
  (show W2 m ρ c (Proc.devRef .tc main_arg25) = W1 m ρ c (Proc.devRef .tc main_arg25) from
    W2_of_ne m ρ c main_arg25 (by decide)).trans (keep1_main_arg25 m ρ c)

theorem keep3_main_arg25 (c : Dev nD) : W3 m ρ c (Proc.devRef .tc main_arg25) = W0 m ρ c (Proc.devRef .tc main_arg25) :=
  (show W3 m ρ c (Proc.devRef .tc main_arg25) = W2 m ρ c (Proc.devRef .tc main_arg25) from
    StableHlo.after_of_forall_not_mem (b := Proc.devRef .tc main_arg25) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_arg25 m ρ c)

theorem keep4_main_arg25 (c : Dev nD) : W4 m ρ c (Proc.devRef .tc main_arg25) = W0 m ρ c (Proc.devRef .tc main_arg25) :=
  (show W4 m ρ c (Proc.devRef .tc main_arg25) = W3 m ρ c (Proc.devRef .tc main_arg25) from
    W4_of_ne m ρ c main_arg25 (by decide)).trans (keep3_main_arg25 m ρ c)

theorem keep5_main_arg25 (c : Dev nD) : W5 m ρ c (Proc.devRef .tc main_arg25) = W0 m ρ c (Proc.devRef .tc main_arg25) :=
  (show W5 m ρ c (Proc.devRef .tc main_arg25) = W4 m ρ c (Proc.devRef .tc main_arg25) from
    StableHlo.after_of_forall_not_mem (b := Proc.devRef .tc main_arg25) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_arg25 m ρ c)

theorem keep6_main_arg25 (c : Dev nD) : W6 m ρ c (Proc.devRef .tc main_arg25) = W0 m ρ c (Proc.devRef .tc main_arg25) :=
  (show W6 m ρ c (Proc.devRef .tc main_arg25) = W5 m ρ c (Proc.devRef .tc main_arg25) from
    W6_of_ne m ρ c main_arg25 (by decide)).trans (keep5_main_arg25 m ρ c)

theorem keep7_main_arg25 (c : Dev nD) : W7 m ρ c (Proc.devRef .tc main_arg25) = W0 m ρ c (Proc.devRef .tc main_arg25) :=
  (show W7 m ρ c (Proc.devRef .tc main_arg25) = W6 m ρ c (Proc.devRef .tc main_arg25) from
    StableHlo.after_of_forall_not_mem (b := Proc.devRef .tc main_arg25) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_arg25 m ρ c)

theorem keep8_main_arg25 (c : Dev nD) : W8 m ρ c (Proc.devRef .tc main_arg25) = W0 m ρ c (Proc.devRef .tc main_arg25) :=
  (show W8 m ρ c (Proc.devRef .tc main_arg25) = W7 m ρ c (Proc.devRef .tc main_arg25) from
    W8_of_ne m ρ c main_arg25 (by decide)).trans (keep7_main_arg25 m ρ c)

theorem keep9_main_arg25 (c : Dev nD) : W9 m ρ c (Proc.devRef .tc main_arg25) = W0 m ρ c (Proc.devRef .tc main_arg25) :=
  (show W9 m ρ c (Proc.devRef .tc main_arg25) = W8 m ρ c (Proc.devRef .tc main_arg25) from
    StableHlo.after_of_forall_not_mem (b := Proc.devRef .tc main_arg25) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_main_arg25 m ρ c)

theorem keep10_main_arg25 (c : Dev nD) : W10 m ρ c (Proc.devRef .tc main_arg25) = W0 m ρ c (Proc.devRef .tc main_arg25) :=
  (show W10 m ρ c (Proc.devRef .tc main_arg25) = W9 m ρ c (Proc.devRef .tc main_arg25) from
    W10_of_ne m ρ c main_arg25 (by decide)).trans (keep9_main_arg25 m ρ c)

theorem keep11_main_arg25 (c : Dev nD) : W11 m ρ c (Proc.devRef .tc main_arg25) = W0 m ρ c (Proc.devRef .tc main_arg25) :=
  (show W11 m ρ c (Proc.devRef .tc main_arg25) = W10 m ρ c (Proc.devRef .tc main_arg25) from
    StableHlo.after_of_forall_not_mem (b := Proc.devRef .tc main_arg25) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep10_main_arg25 m ρ c)

theorem keep2_main_v0 (c : Dev nD) : W2 m ρ c (Proc.devRef .tc main_v0) = W1 m ρ c (Proc.devRef .tc main_v0) :=
  (show W2 m ρ c (Proc.devRef .tc main_v0) = W1 m ρ c (Proc.devRef .tc main_v0) from
    W2_of_ne m ρ c main_v0 (by decide))

theorem keep3_main_v0 (c : Dev nD) : W3 m ρ c (Proc.devRef .tc main_v0) = W1 m ρ c (Proc.devRef .tc main_v0) :=
  (show W3 m ρ c (Proc.devRef .tc main_v0) = W2 m ρ c (Proc.devRef .tc main_v0) from
    StableHlo.after_of_forall_not_mem (b := Proc.devRef .tc main_v0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep2_main_v0 m ρ c)

theorem keep4_main_v0 (c : Dev nD) : W4 m ρ c (Proc.devRef .tc main_v0) = W1 m ρ c (Proc.devRef .tc main_v0) :=
  (show W4 m ρ c (Proc.devRef .tc main_v0) = W3 m ρ c (Proc.devRef .tc main_v0) from
    (W4_arr m ρ c 2).trans (((dat2 (V3 m ρ) c).arrAt_in 2 rfl _).trans (A_eq2 (V3 m ρ) c 2))).trans (keep3_main_v0 m ρ c)

theorem keep3_main_v1 (c : Dev nD) : W3 m ρ c (Proc.devRef .tc main_v1) = W2 m ρ c (Proc.devRef .tc main_v1) :=
  (show W3 m ρ c (Proc.devRef .tc main_v1) = W2 m ρ c (Proc.devRef .tc main_v1) from
    StableHlo.after_of_forall_not_mem (b := Proc.devRef .tc main_v1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep4_main_v1 (c : Dev nD) : W4 m ρ c (Proc.devRef .tc main_v1) = W2 m ρ c (Proc.devRef .tc main_v1) :=
  (show W4 m ρ c (Proc.devRef .tc main_v1) = W3 m ρ c (Proc.devRef .tc main_v1) from
    W4_of_ne m ρ c main_v1 (by decide)).trans (keep3_main_v1 m ρ c)

theorem keep5_main_v1 (c : Dev nD) : W5 m ρ c (Proc.devRef .tc main_v1) = W2 m ρ c (Proc.devRef .tc main_v1) :=
  (show W5 m ρ c (Proc.devRef .tc main_v1) = W4 m ρ c (Proc.devRef .tc main_v1) from
    StableHlo.after_of_forall_not_mem (b := Proc.devRef .tc main_v1) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_v1 m ρ c)

theorem keep4_main_v12 (c : Dev nD) : W4 m ρ c (Proc.devRef .tc main_v12) = W3 m ρ c (Proc.devRef .tc main_v12) :=
  (show W4 m ρ c (Proc.devRef .tc main_v12) = W3 m ρ c (Proc.devRef .tc main_v12) from
    (W4_arr m ρ c 1).trans (((dat2 (V3 m ρ) c).arrAt_in 1 rfl _).trans (A_eq2 (V3 m ρ) c 1)))

theorem keep5_main_v12 (c : Dev nD) : W5 m ρ c (Proc.devRef .tc main_v12) = W3 m ρ c (Proc.devRef .tc main_v12) :=
  (show W5 m ρ c (Proc.devRef .tc main_v12) = W4 m ρ c (Proc.devRef .tc main_v12) from
    StableHlo.after_of_forall_not_mem (b := Proc.devRef .tc main_v12) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_v12 m ρ c)

theorem keep6_main_v12 (c : Dev nD) : W6 m ρ c (Proc.devRef .tc main_v12) = W3 m ρ c (Proc.devRef .tc main_v12) :=
  (show W6 m ρ c (Proc.devRef .tc main_v12) = W5 m ρ c (Proc.devRef .tc main_v12) from
    W6_of_ne m ρ c main_v12 (by decide)).trans (keep5_main_v12 m ρ c)

theorem keep7_main_v12 (c : Dev nD) : W7 m ρ c (Proc.devRef .tc main_v12) = W3 m ρ c (Proc.devRef .tc main_v12) :=
  (show W7 m ρ c (Proc.devRef .tc main_v12) = W6 m ρ c (Proc.devRef .tc main_v12) from
    StableHlo.after_of_forall_not_mem (b := Proc.devRef .tc main_v12) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_v12 m ρ c)

theorem keep4_main_v23 (c : Dev nD) : W4 m ρ c (Proc.devRef .tc main_v23) = W3 m ρ c (Proc.devRef .tc main_v23) :=
  (show W4 m ρ c (Proc.devRef .tc main_v23) = W3 m ρ c (Proc.devRef .tc main_v23) from
    W4_of_ne m ρ c main_v23 (by decide))

theorem keep5_main_v23 (c : Dev nD) : W5 m ρ c (Proc.devRef .tc main_v23) = W3 m ρ c (Proc.devRef .tc main_v23) :=
  (show W5 m ρ c (Proc.devRef .tc main_v23) = W4 m ρ c (Proc.devRef .tc main_v23) from
    StableHlo.after_of_forall_not_mem (b := Proc.devRef .tc main_v23) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep4_main_v23 m ρ c)

theorem keep6_main_v23 (c : Dev nD) : W6 m ρ c (Proc.devRef .tc main_v23) = W3 m ρ c (Proc.devRef .tc main_v23) :=
  (show W6 m ρ c (Proc.devRef .tc main_v23) = W5 m ρ c (Proc.devRef .tc main_v23) from
    (W6_arr m ρ c 1).trans (((dat3 (V5 m ρ) c).arrAt_in 1 rfl _).trans (A_eq3 (V5 m ρ) c 1))).trans (keep5_main_v23 m ρ c)

theorem keep7_main_v23 (c : Dev nD) : W7 m ρ c (Proc.devRef .tc main_v23) = W3 m ρ c (Proc.devRef .tc main_v23) :=
  (show W7 m ρ c (Proc.devRef .tc main_v23) = W6 m ρ c (Proc.devRef .tc main_v23) from
    StableHlo.after_of_forall_not_mem (b := Proc.devRef .tc main_v23) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_v23 m ρ c)

theorem keep8_main_v23 (c : Dev nD) : W8 m ρ c (Proc.devRef .tc main_v23) = W3 m ρ c (Proc.devRef .tc main_v23) :=
  (show W8 m ρ c (Proc.devRef .tc main_v23) = W7 m ρ c (Proc.devRef .tc main_v23) from
    W8_of_ne m ρ c main_v23 (by decide)).trans (keep7_main_v23 m ρ c)

theorem keep9_main_v23 (c : Dev nD) : W9 m ρ c (Proc.devRef .tc main_v23) = W3 m ρ c (Proc.devRef .tc main_v23) :=
  (show W9 m ρ c (Proc.devRef .tc main_v23) = W8 m ρ c (Proc.devRef .tc main_v23) from
    StableHlo.after_of_forall_not_mem (b := Proc.devRef .tc main_v23) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_main_v23 m ρ c)

theorem keep5_main_v39 (c : Dev nD) : W5 m ρ c (Proc.devRef .tc main_v39) = W4 m ρ c (Proc.devRef .tc main_v39) :=
  (show W5 m ρ c (Proc.devRef .tc main_v39) = W4 m ρ c (Proc.devRef .tc main_v39) from
    StableHlo.after_of_forall_not_mem (b := Proc.devRef .tc main_v39) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep6_main_v39 (c : Dev nD) : W6 m ρ c (Proc.devRef .tc main_v39) = W4 m ρ c (Proc.devRef .tc main_v39) :=
  (show W6 m ρ c (Proc.devRef .tc main_v39) = W5 m ρ c (Proc.devRef .tc main_v39) from
    W6_of_ne m ρ c main_v39 (by decide)).trans (keep5_main_v39 m ρ c)

theorem keep7_main_v39 (c : Dev nD) : W7 m ρ c (Proc.devRef .tc main_v39) = W4 m ρ c (Proc.devRef .tc main_v39) :=
  (show W7 m ρ c (Proc.devRef .tc main_v39) = W6 m ρ c (Proc.devRef .tc main_v39) from
    StableHlo.after_of_forall_not_mem (b := Proc.devRef .tc main_v39) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_main_v39 m ρ c)

theorem keep8_main_v39 (c : Dev nD) : W8 m ρ c (Proc.devRef .tc main_v39) = W4 m ρ c (Proc.devRef .tc main_v39) :=
  (show W8 m ρ c (Proc.devRef .tc main_v39) = W7 m ρ c (Proc.devRef .tc main_v39) from
    (W8_arr m ρ c 2).trans (((dat4 (V7 m ρ) c).arrAt_in 2 rfl _).trans (A_eq4 (V7 m ρ) c 2))).trans (keep7_main_v39 m ρ c)

theorem keep7_main_v55 (c : Dev nD) : W7 m ρ c (Proc.devRef .tc main_v55) = W6 m ρ c (Proc.devRef .tc main_v55) :=
  (show W7 m ρ c (Proc.devRef .tc main_v55) = W6 m ρ c (Proc.devRef .tc main_v55) from
    StableHlo.after_of_forall_not_mem (b := Proc.devRef .tc main_v55) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep8_main_v55 (c : Dev nD) : W8 m ρ c (Proc.devRef .tc main_v55) = W6 m ρ c (Proc.devRef .tc main_v55) :=
  (show W8 m ρ c (Proc.devRef .tc main_v55) = W7 m ρ c (Proc.devRef .tc main_v55) from
    W8_of_ne m ρ c main_v55 (by decide)).trans (keep7_main_v55 m ρ c)

theorem keep9_main_v55 (c : Dev nD) : W9 m ρ c (Proc.devRef .tc main_v55) = W6 m ρ c (Proc.devRef .tc main_v55) :=
  (show W9 m ρ c (Proc.devRef .tc main_v55) = W8 m ρ c (Proc.devRef .tc main_v55) from
    StableHlo.after_of_forall_not_mem (b := Proc.devRef .tc main_v55) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_main_v55 m ρ c)

theorem keep9_main_v71 (c : Dev nD) : W9 m ρ c (Proc.devRef .tc main_v71) = W8 m ρ c (Proc.devRef .tc main_v71) :=
  (show W9 m ρ c (Proc.devRef .tc main_v71) = W8 m ρ c (Proc.devRef .tc main_v71) from
    StableHlo.after_of_forall_not_mem (b := Proc.devRef .tc main_v71) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep10_main_v71 (c : Dev nD) : W10 m ρ c (Proc.devRef .tc main_v71) = W8 m ρ c (Proc.devRef .tc main_v71) :=
  (show W10 m ρ c (Proc.devRef .tc main_v71) = W9 m ρ c (Proc.devRef .tc main_v71) from
    W10_of_ne m ρ c main_v71 (by decide)).trans (keep9_main_v71 m ρ c)

end Cert.KernelIdeal.Kept

end
-- ==== Proof.Spec.lean ====
/-
  The mathematics of the network, one function per layer, index by index over the extended reals.

  * `linRelu`  : rows of `x` times `w`, plus the bias, positive part.
  * `sageRef`  : the mean-aggregation layer as the reference spells it: the aggregate DIVIDED by the clamped
                  in-degree, times `wl`, plus bias, plus the root term, positive part.
  * `sageKer`  : the same layer as the kernel spells it: the aggregate TIMES a precomputed reciprocal, the two
                  products added first and the bias last.
  * `sageKer_eq_sageRef` : the two agree as soon as the reciprocal column is `1 / c` for a NONZERO `c`; on the
                  extended reals `a / c = a * c⁻¹` for every `a` once `c ≠ 0`, and sums may be regrouped freely,
                  so no finiteness is needed.
  * `edgeFeat`, `hidKer`, `hidRef`, `headKer`, `headRef` : the edge classifier. The reference multiplies the
                  concatenation `[src | dst | ee]` (384 columns) by `W1`; the kernel adds three 128-column
                  products against the three row blocks of `W1`. A sum over 384 = 128 + 128 + 128 indices is
                  the sum of the three block sums.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- arrays of extended reals over literal shapes -/
abbrev Arr2 (a b : Nat) : Type := (⟨2, ![a, b]⟩ : Shape).Idx → EReal
abbrev Arr1 (a : Nat) : Type := (⟨1, ![a]⟩ : Shape).Idx → EReal

/-- the word of `+0.0`, kept unevaluated: both programs spell the same word -/
abbrev z32 : EReal := Ideal.ofBits .f32 0x00000000#32
/-- the word of `1.0` -/
abbrev one32 : EReal := Ideal.ofBits .f32 0x3F800000#32

theorem one32_eq : one32 = 1 := by
  simp [one32, Ideal.ofBits, Ideal.ieee, -EReal.coe_mul]; norm_num

/-- `max c 1` is never zero. -/
theorem max_one32_ne_zero (c : EReal) : max c one32 ≠ 0 := by
  rw [one32_eq]
  intro h
  have h1 : (1 : EReal) ≤ max c 1 := le_max_right _ _
  rw [h] at h1
  exact absurd h1 (by norm_num)

/-- On the extended reals, for a nonzero divisor, dividing is multiplying by the reciprocal `1 / c`. -/
theorem mul_div_one (a c : EReal) (hc : c ≠ 0) : a * Ideal.div one32 c = Ideal.div a c := by
  unfold Ideal.div
  rw [if_neg hc, if_neg hc, one32_eq, one_mul]

/-! ## The node layers -/

def linRelu (x : Arr2 100000 32) (w : Arr2 32 128) (b : Arr1 128) : Arr2 100000 128 := fun i =>
  max ((∑ k : Fin 32, x (ix2 (i 0) k) * w (ix2 k (i 1))) + b (ix1 (i 1))) z32

def sageRef (agg : Arr2 100000 128) (cm : Arr1 100000) (xd : Arr2 100000 128) (wl : Arr2 128 128) (bl : Arr1 128)
    (wr : Arr2 128 128) : Arr2 100000 128 := fun i =>
  max (((∑ k : Fin 128, Ideal.div (agg (ix2 (i 0) k)) (cm (ix1 (i 0))) * wl (ix2 k (i 1))) + bl (ix1 (i 1)))
        + ∑ k : Fin 128, xd (ix2 (i 0) k) * wr (ix2 k (i 1))) z32

def sageKer (agg : Arr2 100000 128) (inv : Arr2 100000 1) (xd : Arr2 100000 128) (wl : Arr2 128 128) (bl : Arr1 128)
    (wr : Arr2 128 128) : Arr2 100000 128 := fun i =>
  max (((∑ k : Fin 128, (agg (ix2 (i 0) k) * inv (ix2 (i 0) 0)) * wl (ix2 k (i 1)))
        + ∑ k : Fin 128, xd (ix2 (i 0) k) * wr (ix2 k (i 1))) + bl (ix1 (i 1))) z32

theorem sageKer_eq_sageRef (agg : Arr2 100000 128) (inv : Arr2 100000 1) (cm : Arr1 100000) (xd : Arr2 100000 128)
    (wl : Arr2 128 128) (bl : Arr1 128) (wr : Arr2 128 128)
    (hc : ∀ r : Fin 100000, cm (ix1 r) ≠ 0)
    (hinv : ∀ r : Fin 100000, inv (ix2 r 0) = Ideal.div one32 (cm (ix1 r))) :
    sageKer agg inv xd wl bl wr = sageRef agg cm xd wl bl wr := by
  funext i
  unfold sageKer sageRef
  congr 1
  have e : ∀ k : Fin 128, (agg (ix2 (i 0) k) * inv (ix2 (i 0) 0)) * wl (ix2 k (i 1))
      = Ideal.div (agg (ix2 (i 0) k)) (cm (ix1 (i 0))) * wl (ix2 k (i 1)) := fun k => by
    rw [hinv (i 0), mul_div_one _ _ (hc (i 0))]
  rw [Finset.sum_congr rfl (fun k _ => e k)]
  exact add_right_comm _ _ _

/-! ## The edge classifier -/

def edgeFeat (ea : Arr2 500000 16) (we : Arr2 16 128) (be : Arr1 128) : Arr2 500000 128 := fun i =>
  max ((∑ k : Fin 16, ea (ix2 (i 0) k) * we (ix2 k (i 1))) + be (ix1 (i 1))) z32

/-- the hidden layer as the kernel adds it up: three products, then the bias -/
def hidKer (src dst ee : Arr2 500000 128) (w1a w1b w1c : Arr2 128 128) (b1 : Arr1 128) : Arr2 500000 128 := fun i =>
  max (((((∑ k : Fin 128, src (ix2 (i 0) k) * w1a (ix2 k (i 1)))
          + ∑ k : Fin 128, dst (ix2 (i 0) k) * w1b (ix2 k (i 1)))
          + ∑ k : Fin 128, ee (ix2 (i 0) k) * w1c (ix2 k (i 1)))) + b1 (ix1 (i 1))) z32

/-- the hidden layer as the reference adds it up: one product over the 384 joined columns -/
def hidRef (rep : Arr2 500000 384) (w1 : Arr2 384 128) (b1 : Arr1 128) : Arr2 500000 128 := fun i =>
  max ((∑ k : Fin 384, rep (ix2 (i 0) k) * w1 (ix2 k (i 1))) + b1 (ix1 (i 1))) z32

/-- the output layer over `n` output columns (2 in the reference, 128 padded ones in the kernel) -/
def headOut {n : Nat} (h : Arr2 500000 128) (w2 : Arr2 128 n) (b2 : Arr1 n) : Arr2 500000 n := fun i =>
  (∑ k : Fin 128, h (ix2 (i 0) k) * w2 (ix2 k (i 1))) + b2 (ix1 (i 1))

/-- A sum over 384 indices is the sum of its three blocks of 128. -/
theorem sum_384 (f : Fin 384 → EReal) :
    ∑ k : Fin 384, f k = ((∑ k : Fin 128, f ⟨k.val, by omega⟩) + ∑ k : Fin 128, f ⟨k.val + 128, by omega⟩)
      + ∑ k : Fin 128, f ⟨k.val + 256, by omega⟩ := by
  have h1 := Fin.sum_univ_add (M := EReal) (a := 256) (b := 128) (fun k => f (k.cast (by norm_num)))
  have h2 := Fin.sum_univ_add (M := EReal) (a := 128) (b := 128) (fun k => f ⟨k.val, by omega⟩)
  have e0 : ∑ k : Fin 384, f k = ∑ k : Fin (256 + 128), f (k.cast (by norm_num)) :=
    (Fintype.sum_equiv (finCongr (by norm_num : 256 + 128 = 384)) _ _ (fun k => rfl)).symm
  rw [e0, h1]
  have e1 : ∑ k : Fin 256, f ((Fin.castAdd 128 k).cast (by norm_num)) = ∑ k : Fin (128 + 128), f ⟨k.val, by omega⟩ :=
    Fintype.sum_equiv (finCongr (by norm_num : 256 = 128 + 128)) _ _ (fun k => rfl)
  rw [e1, h2]
  rfl

/-- If the joined operand reads `src`, `dst`, `ee` on its three column blocks and `w1a`, `w1b`, `w1c` are the three
    row blocks of `w1`, the two hidden layers are one function. -/
theorem hidKer_eq_hidRef (src dst ee : Arr2 500000 128) (w1a w1b w1c : Arr2 128 128) (b1 : Arr1 128)
    (rep : Arr2 500000 384) (w1 : Arr2 384 128)
    (hs : ∀ (r : Fin 500000) (k : Fin 128), rep (ix2 r ⟨k.val, by omega⟩) = src (ix2 r k))
    (hd : ∀ (r : Fin 500000) (k : Fin 128), rep (ix2 r ⟨k.val + 128, by omega⟩) = dst (ix2 r k))
    (he : ∀ (r : Fin 500000) (k : Fin 128), rep (ix2 r ⟨k.val + 256, by omega⟩) = ee (ix2 r k))
    (ha : ∀ (k : Fin 128) (q : Fin 128), w1 (ix2 ⟨k.val, by omega⟩ q) = w1a (ix2 k q))
    (hb : ∀ (k : Fin 128) (q : Fin 128), w1 (ix2 ⟨k.val + 128, by omega⟩ q) = w1b (ix2 k q))
    (hcc : ∀ (k : Fin 128) (q : Fin 128), w1 (ix2 ⟨k.val + 256, by omega⟩ q) = w1c (ix2 k q)) :
    hidKer src dst ee w1a w1b w1c b1 = hidRef rep w1 b1 := by
  funext i
  obtain ⟨r, q, rfl⟩ : ∃ (r : Fin 500000) (q : Fin 128), i = ix2 r q := ⟨i 0, i 1, eq_ix2 i⟩
  show max (((((∑ k : Fin 128, src (ix2 r k) * w1a (ix2 k q))
          + ∑ k : Fin 128, dst (ix2 r k) * w1b (ix2 k q))
          + ∑ k : Fin 128, ee (ix2 r k) * w1c (ix2 k q))) + b1 (ix1 q)) z32
      = max ((∑ k : Fin 384, rep (ix2 r k) * w1 (ix2 k q)) + b1 (ix1 q)) z32
  rw [sum_384]
  simp only [hs, hd, he, ha, hb, hcc]

end Cert.Spec

end
-- ==== Proof.MatmulRead.lean ====
/-
  A `tpu.matmul` into a zero accumulator, read at an entry: for each of the four plain products of the kernels
  (rows × contraction times contraction × columns, one contracted axis) the entry at row `p`, column `q` is the sum
  over the contracted coordinate `k` of the left operand at `(p, k)` times the right operand at `(k, q)`. The
  contraction index of one axis is re-indexed by its one coordinate.
-/
import proofs.«117216_j44994077393231_2_alg».proof.Proof.Gen.KernelIdeal
import Idealize.ShloMosaic.PureOps.Ideal.Laws
import Idealize.ShloMosaic.Lib.ValueIdx

noncomputable section

namespace Cert.KernelIdeal.MatmulRead

open Cert.KernelIdeal Idealize.ShloMosaic Idealize.ShloMosaic.ValueIdx

/-! ## [5000, 32] × [32, 128] -/

theorem lrow_5000_32 (i : S5000x128.Idx) (c : dot_S5000x32_S32x128_S5000x128_1_0_0_1_n_n.contr.Idx) : (dot_S5000x32_S32x128_S5000x128_1_0_0_1_n_n.lhsIdx i c 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl

theorem rcol_5000_32 (i : S5000x128.Idx) (c : dot_S5000x32_S32x128_S5000x128_1_0_0_1_n_n.contr.Idx) : (dot_S5000x32_S32x128_S5000x128_1_0_0_1_n_n.rhsIdx i c 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

theorem mm_5000_32 {φ₁ φ₂ : FTy} (lhs : FVec Ideal S5000x32 φ₁) (rhs : FVec Ideal S32x128 φ₂) (p : Fin 5000) (q : Fin 128) :
    FloatOps.matmul dot_S5000x32_S32x128_S5000x128_1_0_0_1_n_n none lhs rhs (constant S5000x128 .f32 0x00000000#32) (ix2 p q)
      = ∑ k : Fin 32, lhs (ix2 p k) * rhs (ix2 k q) := by
  rw [Ideal.matmul_constant_zero_apply, ← Equiv.sum_comp (contrEquiv1 dot_S5000x32_S32x128_S5000x128_1_0_0_1_n_n 32 rfl rfl).symm]
  refine Finset.sum_congr rfl fun k _ => ?_
  have hk := contrEquiv1_symm_val dot_S5000x32_S32x128_S5000x128_1_0_0_1_n_n 32 rfl rfl k
  have el : dot_S5000x32_S32x128_S5000x128_1_0_0_1_n_n.lhsIdx (ix2 p q) ((contrEquiv1 dot_S5000x32_S32x128_S5000x128_1_0_0_1_n_n 32 rfl rfl).symm k) = ix2 p k := funext fun a => Fin.ext (by
    match a with
    | ⟨0, _⟩ => exact lrow_5000_32 _ _
    | ⟨1, _⟩ => exact (dot_S5000x32_S32x128_S5000x128_1_0_0_1_n_n.lhsIdx_val_of_single rfl _ _).trans hk)
  have er : dot_S5000x32_S32x128_S5000x128_1_0_0_1_n_n.rhsIdx (ix2 p q) ((contrEquiv1 dot_S5000x32_S32x128_S5000x128_1_0_0_1_n_n 32 rfl rfl).symm k) = ix2 k q := funext fun a => Fin.ext (by
    match a with
    | ⟨0, _⟩ => exact (dot_S5000x32_S32x128_S5000x128_1_0_0_1_n_n.rhsIdx_val_of_single rfl _ _).trans hk
    | ⟨1, _⟩ => exact rcol_5000_32 _ _)
  rw [el, er]

/-! ## [4000, 128] × [128, 128] -/

theorem lrow_4000_128 (i : S4000x128.Idx) (c : dot_S4000x128_S128x128_S4000x128_1_0_0_1_n_n.contr.Idx) : (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

theorem rcol_4000_128 (i : S4000x128.Idx) (c : dot_S4000x128_S128x128_S4000x128_1_0_0_1_n_n.contr.Idx) : (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

theorem mm_4000_128 {φ₁ φ₂ : FTy} (lhs : FVec Ideal S4000x128 φ₁) (rhs : FVec Ideal S128x128 φ₂) (p : Fin 4000) (q : Fin 128) :
    FloatOps.matmul dot_S4000x128_S128x128_S4000x128_1_0_0_1_n_n none lhs rhs (constant S4000x128 .f32 0x00000000#32) (ix2 p q)
      = ∑ k : Fin 128, lhs (ix2 p k) * rhs (ix2 k q) := by
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lrow_4000_128 _ _
    | ⟨1, _⟩ => exact (dot_S4000x128_S128x128_S4000x128_1_0_0_1_n_n.lhsIdx_val_of_single rfl _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (dot_S4000x128_S128x128_S4000x128_1_0_0_1_n_n.rhsIdx_val_of_single rfl _ _).trans hk
    | ⟨1, _⟩ => exact rcol_4000_128 _ _)
  rw [el, er]

/-! ## [5000, 16] × [16, 128] -/

theorem lrow_5000_16 (i : S5000x128.Idx) (c : dot_S5000x16_S16x128_S5000x128_1_0_0_1_n_n.contr.Idx) : (dot_S5000x16_S16x128_S5000x128_1_0_0_1_n_n.lhsIdx i c 0).val = (i 0).val := by
  unfold DotDims.lhsIdx
  rw [dif_neg (show ¬(0 : Fin S5000x16.rank) ∈ dot_S5000x16_S16x128_S5000x128_1_0_0_1_n_n.lhsBatch by decide), dif_pos (show (0 : Fin S5000x16.rank) ∈ dot_S5000x16_S16x128_S5000x128_1_0_0_1_n_n.lhsNonContracting by decide)]
  rfl

theorem rcol_5000_16 (i : S5000x128.Idx) (c : dot_S5000x16_S16x128_S5000x128_1_0_0_1_n_n.contr.Idx) : (dot_S5000x16_S16x128_S5000x128_1_0_0_1_n_n.rhsIdx i c 1).val = (i 1).val := by
  unfold DotDims.rhsIdx
  rw [dif_neg (show ¬(1 : Fin S16x128.rank) ∈ dot_S5000x16_S16x128_S5000x128_1_0_0_1_n_n.rhsBatch by decide), dif_pos (show (1 : Fin S16x128.rank) ∈ dot_S5000x16_S16x128_S5000x128_1_0_0_1_n_n.rhsNonContracting by decide)]
  rfl

theorem mm_5000_16 {φ₁ φ₂ : FTy} (lhs : FVec Ideal S5000x16 φ₁) (rhs : FVec Ideal S16x128 φ₂) (p : Fin 5000) (q : Fin 128) :
    FloatOps.matmul dot_S5000x16_S16x128_S5000x128_1_0_0_1_n_n none lhs rhs (constant S5000x128 .f32 0x00000000#32) (ix2 p q)
      = ∑ k : Fin 16, lhs (ix2 p k) * rhs (ix2 k q) := by
  rw [Ideal.matmul_constant_zero_apply, ← Equiv.sum_comp (contrEquiv1 dot_S5000x16_S16x128_S5000x128_1_0_0_1_n_n 16 rfl rfl).symm]
  refine Finset.sum_congr rfl fun k _ => ?_
  have hk := contrEquiv1_symm_val dot_S5000x16_S16x128_S5000x128_1_0_0_1_n_n 16 rfl rfl k
  have el : dot_S5000x16_S16x128_S5000x128_1_0_0_1_n_n.lhsIdx (ix2 p q) ((contrEquiv1 dot_S5000x16_S16x128_S5000x128_1_0_0_1_n_n 16 rfl rfl).symm k) = ix2 p k := funext fun a => Fin.ext (by
    match a with
    | ⟨0, _⟩ => exact lrow_5000_16 _ _
    | ⟨1, _⟩ => exact (dot_S5000x16_S16x128_S5000x128_1_0_0_1_n_n.lhsIdx_val_of_single rfl _ _).trans hk)
  have er : dot_S5000x16_S16x128_S5000x128_1_0_0_1_n_n.rhsIdx (ix2 p q) ((contrEquiv1 dot_S5000x16_S16x128_S5000x128_1_0_0_1_n_n 16 rfl rfl).symm k) = ix2 k q := funext fun a => Fin.ext (by
    match a with
    | ⟨0, _⟩ => exact (dot_S5000x16_S16x128_S5000x128_1_0_0_1_n_n.rhsIdx_val_of_single rfl _ _).trans hk
    | ⟨1, _⟩ => exact rcol_5000_16 _ _)
  rw [el, er]

/-! ## [5000, 128] × [128, 128] -/

theorem lrow_5000_128 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem rcol_5000_128 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem mm_5000_128 {φ₁ φ₂ : FTy} (lhs : FVec Ideal S5000x128 φ₁) (rhs : FVec Ideal S128x128 φ₂) (p : Fin 5000) (q : Fin 128) :
    FloatOps.matmul dot_S5000x128_S128x128_S5000x128_1_0_0_1_n_n none lhs rhs (constant S5000x128 .f32 0x00000000#32) (ix2 p q)
      = ∑ k : Fin 128, lhs (ix2 p k) * rhs (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lrow_5000_128 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rcol_5000_128 _ _)
  rw [el, er]

end Cert.KernelIdeal.MatmulRead

end
-- ==== Proof.Region0.lean ====
/-
  Region 0 (an input projection): the output array after the region is `linRelu` of the three arrays the region
  finds — for every row `r` and column `q`, the positive part of `∑ₖ x[r,k]·w[k,q] + b[q]`.
  The grid has 20 points; point `t` reads rows `5000·t … 5000·t+4999` of `x`, the whole of `w` and `b`, and
  writes the same rows of the output, so the 20 blocks tile the 100000 rows.
-/
import proofs.«117216_j44994077393231_2_alg».proof.Proof.Gen.KernelIdeal.Frame
import proofs.«117216_j44994077393231_2_alg».proof.Proof.Spec
import proofs.«117216_j44994077393231_2_alg».proof.Proof.MatmulRead
import Idealize.ShloMosaic.Lib.Pipeline.Value
import Idealize.ShloMosaic.Lib.ValueIdx
import Idealize.ShloMosaic.Lib.ValueLayout

set_option maxRecDepth 16384

noncomputable section

namespace Cert.KernelIdeal.Reg0

open Cert.KernelIdeal Cert.KernelIdeal.Gen Cert.KernelIdeal.MatmulRead Cert.Spec
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-- The bias row `[128] → [1,128] → [5000,128]` read at an entry is the bias at the column. -/
theorem bias_apply (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_apply _ _ (ix2 p q) (ix2 (0 : Fin 1) q) (fun a => by
    match a with
    | ⟨0, _⟩ => rfl
    | ⟨1, _⟩ => rfl)]
  exact shapeCast_apply b _ (ix2 (0 : Fin 1) q) (ix1 q) (by
    rw [Shape.rowMajor_val_one, Shape.rowMajor_val_two]
    show q.val = (0 : Fin 1).val * 128 + q.val
    simp)

/-- The body's arithmetic at an entry of the block. -/
theorem pay_apply (x : Vec Ideal S5000x32 .f32) (w : Vec Ideal S32x128 .f32) (b : Vec Ideal S128 .f32) (p : Fin 5000) (q : Fin 128) :
    k0_pay1 (F := Ideal) x w b (ix2 p q) = max ((∑ k : Fin 32, x (ix2 p k) * w (ix2 k q)) + b (ix1 q)) z32 := by
  unfold k0_pay1
  rw [truncf_apply, maximumf_apply, addf_apply, bias_apply]
  refine congrArg₂ max (congrArg (· + b (ix1 q)) ?_) rfl
  exact mm_5000_32 _ _ p q

/-- The same, with the block's entries named as entries of whole arrays. -/
theorem block_entry (x : Vec Ideal S5000x32 .f32) (w : Vec Ideal S32x128 .f32) (b : Vec Ideal S128 .f32)
    (X : Arr2 100000 32) (W : Arr2 32 128) (B : Arr1 128) (i : (⟨2, ![100000, 128]⟩ : Shape).Idx) (p : Fin 5000) (q : Fin 128)
    (hx : ∀ k : Fin 32, x (ix2 p k) = X (ix2 (i 0) k)) (hw : ∀ k : Fin 32, w (ix2 k q) = W (ix2 k (i 1)))
    (hb : b (ix1 q) = B (ix1 (i 1))) :
    k0_pay1 (F := Ideal) x w b (ix2 p q) = linRelu X W B i := by
  rw [pay_apply]
  unfold linRelu
  rw [hb, Finset.sum_congr rfl (fun k _ => by rw [hx k, hw k])]

variable (V : (c : Dev nD) → (b : Ref sig .tc) → Buf (Elt Ideal) ((c : Thread nD τ).loc b))

/-- The index maps over the grid: the row windows sit at block `t`, the weight and the bias at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- What point `t` writes back is block `t` of `linRelu` of the arrays as the region finds them. -/
theorem flushed_eq (c : Dev nD) (t : Fin cfg0.N) :
    (dat0 V c).flushed 3 t
      = ((cfg0.win 3).blk t).view.read (Elt Ideal) (linRelu (V c main_arg0) (V c main_arg6) (V c main_arg7)) := by
  show (cfg0.win 3).cut (grid0.coords t) ((dat0 V c).after 3 t) = _
  rw [after0_3]
  unfold out0_3
  rw [View.canon_unit_zero hz2]
  simp only [View.ld_unit_zero (S := S5000x32) hz2, View.ld_unit_zero (S := S32x128) hz2, View.ld_unit_zero (S := S128) hz1]
  obtain ⟨e0, e1, e2, e3, e4, e5, e6⟩ := idx_facts t
  funext j
  obtain ⟨p, q, rfl⟩ : ∃ (p : Fin 5000) (q : Fin 128), j = ix2 p q := ⟨j 0, j 1, eq_ix2 j⟩
  refine block_entry _ _ _ _ _ _ (((cfg0.win 3).blk t).view.emb (ix2 p q)) p q ?_ ?_ ?_
  · intro k
    show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 32 + 1 * k.val = k.val; omega
  · intro k
    show V c main_arg6 (((cfg0.win 1).blk t).view.emb (ix2 k q)) = V c main_arg6 _
    refine congrArg (V c main_arg6) (funext fun a => Fin.ext ?_)
    match a with
    | ⟨0, _⟩ => show win0_1.index t (0 : Fin 2) * 32 + 1 * k.val = k.val; omega
    | ⟨1, _⟩ => show win0_1.index t (1 : Fin 2) * 128 + 1 * q.val = win0_3.index t (1 : Fin 2) * 128 + 1 * q.val; omega
  · show V c main_arg7 (((cfg0.win 2).blk t).view.emb (ix1 q)) = V c main_arg7 _
    refine congrArg (V c main_arg7) (funext fun a => Fin.ext ?_)
    match a with
    | ⟨0, _⟩ => show win0_2.index t (0 : Fin 1) * 128 + 1 * q.val = win0_3.index t (1 : Fin 2) * 128 + 1 * q.val; omega

/-- An index of the output array is in point `t`'s block iff its row is in rows `5000·t … 5000·t + 4999`. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- The 20 row blocks tile the array: row `r` is in the block of point `r / 5000`. -/
theorem cover (i : S100000x128.Idx) :
    ∃ t : Fin cfg0.N, (cfg0.win 3).flush t = true ∧ i ∈ ((cfg0.win 3).blk t).view.set := by
  have hN : grid0.N = 20 := N_0
  have hi0 : (i 0).val < 100000 := (i 0).isLt
  have hi1 : (i 1).val < 128 := (i 1).isLt
  let t : Fin cfg0.N := ⟨(i 0).val / 5000, by show (i 0).val / 5000 < grid0.N; rw [hN]; omega⟩
  obtain ⟨e0, e1, e2, e3, e4, e5, e6⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region. -/
theorem arr_out (c : Dev nD) :
    (dat0 V c).arrAt 3 cfg0.N = linRelu (V c main_arg0) (V c main_arg6) (V c main_arg7) :=
  (dat0 V c).arrAt_eq_of_cover 3 _ (fun t _ => flushed_eq V c t) cover

end Cert.KernelIdeal.Reg0

end
-- ==== Proof.Region1.lean ====
/-
  Region 1 (an input projection): the output array after the region is `linRelu` of the three arrays the region
  finds — for every row `r` and column `q`, the positive part of `∑ₖ x[r,k]·w[k,q] + b[q]`.
  The grid has 20 points; point `t` reads rows `5000·t … 5000·t+4999` of `x`, the whole of `w` and `b`, and
  writes the same rows of the output, so the 20 blocks tile the 100000 rows.
-/
import proofs.«117216_j44994077393231_2_alg».proof.Proof.Gen.KernelIdeal.Frame
import proofs.«117216_j44994077393231_2_alg».proof.Proof.Spec
import proofs.«117216_j44994077393231_2_alg».proof.Proof.MatmulRead
import Idealize.ShloMosaic.Lib.Pipeline.Value
import Idealize.ShloMosaic.Lib.ValueIdx
import Idealize.ShloMosaic.Lib.ValueLayout

set_option maxRecDepth 16384

noncomputable section

namespace Cert.KernelIdeal.Reg1

open Cert.KernelIdeal Cert.KernelIdeal.Gen Cert.KernelIdeal.MatmulRead Cert.Spec
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-- The bias row `[128] → [1,128] → [5000,128]` read at an entry is the bias at the column. -/
theorem bias_apply (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_apply _ _ (ix2 p q) (ix2 (0 : Fin 1) q) (fun a => by
    match a with
    | ⟨0, _⟩ => rfl
    | ⟨1, _⟩ => rfl)]
  exact shapeCast_apply b _ (ix2 (0 : Fin 1) q) (ix1 q) (by
    rw [Shape.rowMajor_val_one, Shape.rowMajor_val_two]
    show q.val = (0 : Fin 1).val * 128 + q.val
    simp)

/-- The body's arithmetic at an entry of the block. -/
theorem pay_apply (x : Vec Ideal S5000x32 .f32) (w : Vec Ideal S32x128 .f32) (b : Vec Ideal S128 .f32) (p : Fin 5000) (q : Fin 128) :
    k1_pay1 (F := Ideal) x w b (ix2 p q) = max ((∑ k : Fin 32, x (ix2 p k) * w (ix2 k q)) + b (ix1 q)) z32 := by
  unfold k1_pay1
  rw [truncf_apply, maximumf_apply, addf_apply, bias_apply]
  refine congrArg₂ max (congrArg (· + b (ix1 q)) ?_) rfl
  exact mm_5000_32 _ _ p q

/-- The same, with the block's entries named as entries of whole arrays. -/
theorem block_entry (x : Vec Ideal S5000x32 .f32) (w : Vec Ideal S32x128 .f32) (b : Vec Ideal S128 .f32)
    (X : Arr2 100000 32) (W : Arr2 32 128) (B : Arr1 128) (i : (⟨2, ![100000, 128]⟩ : Shape).Idx) (p : Fin 5000) (q : Fin 128)
    (hx : ∀ k : Fin 32, x (ix2 p k) = X (ix2 (i 0) k)) (hw : ∀ k : Fin 32, w (ix2 k q) = W (ix2 k (i 1)))
    (hb : b (ix1 q) = B (ix1 (i 1))) :
    k1_pay1 (F := Ideal) x w b (ix2 p q) = linRelu X W B i := by
  rw [pay_apply]
  unfold linRelu
  rw [hb, Finset.sum_congr rfl (fun k _ => by rw [hx k, hw k])]

variable (V : (c : Dev nD) → (b : Ref sig .tc) → Buf (Elt Ideal) ((c : Thread nD τ).loc b))

/-- The index maps over the grid: the row windows sit at block `t`, the weight and the bias at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- What point `t` writes back is block `t` of `linRelu` of the arrays as the region finds them. -/
theorem flushed_eq (c : Dev nD) (t : Fin cfg1.N) :
    (dat1 V c).flushed 3 t
      = ((cfg1.win 3).blk t).view.read (Elt Ideal) (linRelu (V c main_arg1) (V c main_arg8) (V c main_arg9)) := by
  show (cfg1.win 3).cut (grid1.coords t) ((dat1 V c).after 3 t) = _
  rw [after1_3]
  unfold out1_3
  rw [View.canon_unit_zero hz2]
  simp only [View.ld_unit_zero (S := S5000x32) hz2, View.ld_unit_zero (S := S32x128) hz2, View.ld_unit_zero (S := S128) hz1]
  obtain ⟨e0, e1, e2, e3, e4, e5, e6⟩ := idx_facts t
  funext j
  obtain ⟨p, q, rfl⟩ : ∃ (p : Fin 5000) (q : Fin 128), j = ix2 p q := ⟨j 0, j 1, eq_ix2 j⟩
  refine block_entry _ _ _ _ _ _ (((cfg1.win 3).blk t).view.emb (ix2 p q)) p q ?_ ?_ ?_
  · intro k
    show V c main_arg1 (((cfg1.win 0).blk t).view.emb (ix2 p k)) = V c main_arg1 _
    refine congrArg (V c main_arg1) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 32 + 1 * k.val = k.val; omega
  · intro k
    show V c main_arg8 (((cfg1.win 1).blk t).view.emb (ix2 k q)) = V c main_arg8 _
    refine congrArg (V c main_arg8) (funext fun a => Fin.ext ?_)
    match a with
    | ⟨0, _⟩ => show win1_1.index t (0 : Fin 2) * 32 + 1 * k.val = k.val; omega
    | ⟨1, _⟩ => show win1_1.index t (1 : Fin 2) * 128 + 1 * q.val = win1_3.index t (1 : Fin 2) * 128 + 1 * q.val; omega
  · show V c main_arg9 (((cfg1.win 2).blk t).view.emb (ix1 q)) = V c main_arg9 _
    refine congrArg (V c main_arg9) (funext fun a => Fin.ext ?_)
    match a with
    | ⟨0, _⟩ => show win1_2.index t (0 : Fin 1) * 128 + 1 * q.val = win1_3.index t (1 : Fin 2) * 128 + 1 * q.val; omega

/-- An index of the output array is in point `t`'s block iff its row is in rows `5000·t … 5000·t + 4999`. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v1).slice (win1_3.rect t)).set ↔ _
  rw [View.set_slice_whole, Rect.mem_set_unit]
  exact Iff.rfl

/-- The 20 row blocks tile the array: row `r` is in the block of point `r / 5000`. -/
theorem cover (i : S100000x128.Idx) :
    ∃ t : Fin cfg1.N, (cfg1.win 3).flush t = true ∧ i ∈ ((cfg1.win 3).blk t).view.set := by
  have hN : grid1.N = 20 := N_1
  have hi0 : (i 0).val < 100000 := (i 0).isLt
  have hi1 : (i 1).val < 128 := (i 1).isLt
  let t : Fin cfg1.N := ⟨(i 0).val / 5000, by show (i 0).val / 5000 < grid1.N; rw [hN]; omega⟩
  obtain ⟨e0, e1, e2, e3, e4, e5, e6⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the region. -/
theorem arr_out (c : Dev nD) :
    (dat1 V c).arrAt 3 cfg1.N = linRelu (V c main_arg1) (V c main_arg8) (V c main_arg9) :=
  (dat1 V c).arrAt_eq_of_cover 3 _ (fun t _ => flushed_eq V c t) cover

end Cert.KernelIdeal.Reg1

end
-- ==== Proof.Region2.lean ====
/-
  Region 2 (a mean-aggregation layer): the output array after the region is `sageKer` of the six arrays the region
  finds — for every row `r` and column `q`, the positive part of
  `(∑ₖ (agg[r,k]·inv[r,0])·wl[k,q] + ∑ₖ xd[r,k]·wr[k,q]) + bl[q]`.
  The grid has 25 points; point `t` reads rows `4000·t … 4000·t+3999` of the aggregate, of the reciprocal-count column
  and of the root features, the whole of the two weights and the bias, and writes the same rows of the output, so the
  25 blocks tile the 100000 rows.
-/
import proofs.«117216_j44994077393231_2_alg».proof.Proof.Gen.KernelIdeal.Frame
import proofs.«117216_j44994077393231_2_alg».proof.Proof.Spec
import proofs.«117216_j44994077393231_2_alg».proof.Proof.MatmulRead
import Idealize.ShloMosaic.Lib.Pipeline.Value
import Idealize.ShloMosaic.Lib.ValueIdx
import Idealize.ShloMosaic.Lib.ValueLayout

set_option maxRecDepth 16384

noncomputable section

namespace Cert.KernelIdeal.Reg2

open Cert.KernelIdeal Cert.KernelIdeal.Gen Cert.KernelIdeal.MatmulRead Cert.Spec
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-- The bias row `[128] → [1,128] → [4000,128]` read at an entry is the bias at the column. -/
theorem bias_apply (b : Vec Ideal S128 .f32) (p : Fin 4000) (q : Fin 128) :
    broadcastTo S4000x128 (shapeCast S1x128 b shapeCasts_S128_S1x128) broadcasts_S1x128_S4000x128 (ix2 p q) = b (ix1 q) := by
  rw [broadcastTo_apply _ _ (ix2 p q) (ix2 (0 : Fin 1) q) (fun a => by
    match a with
    | ⟨0, _⟩ => rfl
    | ⟨1, _⟩ => rfl)]
  exact shapeCast_apply b _ (ix2 (0 : Fin 1) q) (ix1 q) (by
    rw [Shape.rowMajor_val_one, Shape.rowMajor_val_two]
    show q.val = (0 : Fin 1).val * 128 + q.val
    simp)

/-- The aggregate times the reciprocal-count column (broadcast along the row) at an entry. -/
theorem mean_apply (agg : Vec Ideal S4000x128 .f32) (inv : Vec Ideal S4000x1 .f32) (p : Fin 4000) (k : Fin 128) :
    mulf (F := Ideal) (s := S4000x128) (φ := .f32) (shapeCast S4000x128 agg shapeCasts_S4000x128_S4000x128)
      (broadcastTo S4000x128 (shapeCast S4000x1 inv shapeCasts_S4000x1_S4000x1) broadcasts_S4000x1_S4000x128) (ix2 p k)
      = agg (ix2 p k) * inv (ix2 p (0 : Fin 1)) := by
  rw [mulf_apply, shapeCast_self, shapeCast_self, broadcastTo_apply _ _ (ix2 p k) (ix2 p (0 : Fin 1)) (fun a => by
    match a with
    | ⟨0, _⟩ => rfl
    | ⟨1, _⟩ => rfl)]

/-- The body's arithmetic at an entry of the block. -/
theorem pay_apply (agg : Vec Ideal S4000x128 .f32) (inv : Vec Ideal S4000x1 .f32) (wl : Vec Ideal S128x128 .f32)
    (xd : Vec Ideal S4000x128 .bf16) (wr : Vec Ideal S128x128 .f32) (bl : Vec Ideal S128 .f32) (p : Fin 4000) (q : Fin 128) :
    k2_pay1 (F := Ideal) agg inv wl xd wr bl (ix2 p q)
      = max (((∑ k : Fin 128, (agg (ix2 p k) * inv (ix2 p (0 : Fin 1))) * wl (ix2 k q))
          + ∑ k : Fin 128, xd (ix2 p k) * wr (ix2 k q)) + bl (ix1 q)) z32 := by
  unfold k2_pay1
  rw [truncf_apply, maximumf_apply, addf_apply, addf_apply, bias_apply]
  refine congrArg₂ max (congrArg (· + bl (ix1 q)) (congrArg₂ (· + ·) ?_ ?_)) rfl
  · refine (mm_4000_128 _ _ p q).trans (Finset.sum_congr rfl fun k _ => ?_)
    rw [truncf_apply, truncf_apply, mean_apply]
  · refine (mm_4000_128 _ _ p q).trans (Finset.sum_congr rfl fun k _ => ?_)
    rw [truncf_apply, shapeCast_self]

/-- The same, with the block's entries named as entries of whole arrays. -/
theorem block_entry (agg : Vec Ideal S4000x128 .f32) (inv : Vec Ideal S4000x1 .f32) (wl : Vec Ideal S128x128 .f32)
    (xd : Vec Ideal S4000x128 .bf16) (wr : Vec Ideal S128x128 .f32) (bl : Vec Ideal S128 .f32)
    (AGG : Arr2 100000 128) (INV : Arr2 100000 1) (XD : Arr2 100000 128) (WL : Arr2 128 128) (BL : Arr1 128) (WR : Arr2 128 128)
    (i : (⟨2, ![100000, 128]⟩ : Shape).Idx) (p : Fin 4000) (q : Fin 128)
    (h1 : ∀ k : Fin 128, agg (ix2 p k) = AGG (ix2 (i 0) k)) (h2 : inv (ix2 p (0 : Fin 1)) = INV (ix2 (i 0) (0 : Fin 1)))
    (h3 : ∀ k : Fin 128, xd (ix2 p k) = XD (ix2 (i 0) k)) (h4 : ∀ k : Fin 128, wl (ix2 k q) = WL (ix2 k (i 1)))
    (h5 : bl (ix1 q) = BL (ix1 (i 1))) (h6 : ∀ k : Fin 128, wr (ix2 k q) = WR (ix2 k (i 1))) :
    k2_pay1 (F := Ideal) agg inv wl xd wr bl (ix2 p q) = sageKer AGG INV XD WL BL WR i := by
  rw [pay_apply]
  unfold sageKer
  simp only [h1, h2, h3, h4, h5, h6]

variable (V : (c : Dev nD) → (b : Ref sig .tc) → Buf (Elt Ideal) ((c : Thread nD τ).loc b))

/-- The index maps over the grid: the three row windows and the output sit at block `t`, the weights and the bias at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0 ∧ win2_4.index t (0 : Fin 1) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point `t` writes back is block `t` of `sageKer` of the arrays as the region finds them. -/
theorem flushed_eq (c : Dev nD) (t : Fin cfg2.N) :
    (dat2 V c).flushed 6 t
      = ((cfg2.win 6).blk t).view.read (Elt Ideal)
          (sageKer (V c main_v38) (V c main_v12) (V c main_v0) (V c main_arg10) (V c main_arg11) (V c main_arg12)) := by
  show (cfg2.win 6).cut (grid2.coords t) ((dat2 V c).after 6 t) = _
  rw [after2_6]
  unfold out2_6
  rw [View.canon_unit_zero hz2]
  simp only [View.ld_unit_zero (S := S4000x128) hz2, View.ld_unit_zero (S := S4000x1) hz2, View.ld_unit_zero (S := S128x128) hz2, View.ld_unit_zero (S := S128) hz1]
  obtain ⟨e0, e1, e2, e3, e4, e5, e6, e7, e8, e9, e10, e11, e12⟩ := idx_facts t
  funext j
  obtain ⟨p, q, rfl⟩ : ∃ (p : Fin 4000) (q : Fin 128), j = ix2 p q := ⟨j 0, j 1, eq_ix2 j⟩
  refine block_entry _ _ _ _ _ _ _ _ _ _ _ _ (((cfg2.win 6).blk t).view.emb (ix2 p q)) p q ?_ ?_ ?_ ?_ ?_ ?_
  · intro k
    show V c main_v38 (((cfg2.win 0).blk t).view.emb (ix2 p k)) = V c main_v38 _
    refine congrArg (V c main_v38) (funext fun a => Fin.ext ?_)
    match a with
    | ⟨0, _⟩ => show win2_0.index t (0 : Fin 2) * 4000 + 1 * p.val = win2_6.index t (0 : Fin 2) * 4000 + 1 * p.val; omega
    | ⟨1, _⟩ => show win2_0.index t (1 : Fin 2) * 128 + 1 * k.val = k.val; omega
  · show V c main_v12 (((cfg2.win 1).blk t).view.emb (ix2 p (0 : Fin 1))) = V c main_v12 _
    refine congrArg (V c main_v12) (funext fun a => Fin.ext ?_)
    match a with
    | ⟨0, _⟩ => show win2_1.index t (0 : Fin 2) * 4000 + 1 * p.val = win2_6.index t (0 : Fin 2) * 4000 + 1 * p.val; omega
    | ⟨1, _⟩ => show win2_1.index t (1 : Fin 2) * 1 + 1 * 0 = 0; omega
  · intro k
    show V c main_v0 (((cfg2.win 2).blk t).view.emb (ix2 p k)) = V c main_v0 _
    refine congrArg (V c main_v0) (funext fun a => Fin.ext ?_)
    match a with
    | ⟨0, _⟩ => show win2_2.index t (0 : Fin 2) * 4000 + 1 * p.val = win2_6.index t (0 : Fin 2) * 4000 + 1 * p.val; omega
    | ⟨1, _⟩ => show win2_2.index t (1 : Fin 2) * 128 + 1 * k.val = k.val; omega
  · intro k
    show V c main_arg10 (((cfg2.win 3).blk t).view.emb (ix2 k q)) = V c main_arg10 _
    refine congrArg (V c main_arg10) (funext fun a => Fin.ext ?_)
    match a with
    | ⟨0, _⟩ => show win2_3.index t (0 : Fin 2) * 128 + 1 * k.val = k.val; omega
    | ⟨1, _⟩ => show win2_3.index t (1 : Fin 2) * 128 + 1 * q.val = win2_6.index t (1 : Fin 2) * 128 + 1 * q.val; omega
  · show V c main_arg11 (((cfg2.win 4).blk t).view.emb (ix1 q)) = V c main_arg11 _
    refine congrArg (V c main_arg11) (funext fun a => Fin.ext ?_)
    match a with
    | ⟨0, _⟩ => show win2_4.index t (0 : Fin 1) * 128 + 1 * q.val = win2_6.index t (1 : Fin 2) * 128 + 1 * q.val; omega
  · intro k
    show V c main_arg12 (((cfg2.win 5).blk t).view.emb (ix2 k q)) = V c main_arg12 _
    refine congrArg (V c main_arg12) (funext fun a => Fin.ext ?_)
    match a with
    | ⟨0, _⟩ => show win2_5.index t (0 : Fin 2) * 128 + 1 * k.val = k.val; omega
    | ⟨1, _⟩ => show win2_5.index t (1 : Fin 2) * 128 + 1 * q.val = win2_6.index t (1 : Fin 2) * 128 + 1 * q.val; omega

/-- An index of the output array is in point `t`'s block iff its row is in rows `4000·t … 4000·t + 3999`. -/
theorem mem_blk (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v39).slice (win2_6.rect t)).set ↔ _
  rw [View.set_slice_whole, Rect.mem_set_unit]
  exact Iff.rfl

/-- The 25 row blocks tile the array: row `r` is in the block of point `r / 4000`. -/
theorem cover (i : S100000x128.Idx) :
    ∃ t : Fin cfg2.N, (cfg2.win 6).flush t = true ∧ i ∈ ((cfg2.win 6).blk t).view.set := by
  have hN : grid2.N = 25 := N_2
  have hi0 : (i 0).val < 100000 := (i 0).isLt
  have hi1 : (i 1).val < 128 := (i 1).isLt
  let t : Fin cfg2.N := ⟨(i 0).val / 4000, by show (i 0).val / 4000 < grid2.N; rw [hN]; omega⟩
  obtain ⟨e0, e1, e2, e3, e4, e5, e6, e7, e8, e9, e10, e11, e12⟩ := idx_facts t
  have ht : t.val = (i 0).val / 4000 := rfl
  refine ⟨t, flush2_6 t, ?_⟩
  rw [mem_blk]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 128 ≤ (i 1).val ∧ (i 1).val < win2_6.index t (1 : Fin 2) * 128 + 128; omega

/-- The output array after the region. -/
theorem arr_out (c : Dev nD) :
    (dat2 V c).arrAt 6 cfg2.N
      = sageKer (V c main_v38) (V c main_v12) (V c main_v0) (V c main_arg10) (V c main_arg11) (V c main_arg12) :=
  (dat2 V c).arrAt_eq_of_cover 6 _ (fun t _ => flushed_eq V c t) cover

end Cert.KernelIdeal.Reg2

end
-- ==== Proof.RefLayers1.lean ====
/-
  The reference program's two input projections: each stage is `linRelu` of a feature matrix, a weight matrix and a
  bias, over the extended reals. At an index `(r, q)` the stage is a sum over the 32 input columns plus a broadcast
  bias, positive part; the composed index maps of the matrix product and of the broadcast are the coordinates
  `(r, k)`, `(k, q)` and `q`.
-/
import proofs.«117216_j44994077393231_2_alg».proof.Proof.Gen.ReferenceIdeal.Read
import proofs.«117216_j44994077393231_2_alg».proof.Proof.Spec

noncomputable section

namespace Cert.RefLayers

open Idealize.ShloMosaic Idealize.ShloMosaic.ValueIdx
open Cert.ReferenceIdeal Cert.ReferenceIdeal.Read Cert.Spec

variable (x0 x1 : (⟨S100000x32, .f32⟩ : BufTy).Contents (Elt Ideal)) (x2 : (⟨S500000x16, .f32⟩ : BufTy).Contents (Elt Ideal))
  (x3 x4 : (⟨S2x1000000, .i32⟩ : BufTy).Contents (Elt Ideal)) (x5 : (⟨S2x500000, .i32⟩ : BufTy).Contents (Elt Ideal))
  (x6 : (⟨S32x128, .f32⟩ : BufTy).Contents (Elt Ideal)) (x7 : (⟨S128, .f32⟩ : BufTy).Contents (Elt Ideal))
  (x8 : (⟨S32x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal)) (x12 : (⟨S128x128, .f32⟩ : BufTy).Contents (Elt Ideal))
  (x13 : (⟨S128x128, .f32⟩ : BufTy).Contents (Elt Ideal)) (x14 : (⟨S128, .f32⟩ : BufTy).Contents (Elt Ideal)) (x15 : (⟨S128x128, .f32⟩ : BufTy).Contents (Elt Ideal))
  (x16 : (⟨S128x128, .f32⟩ : BufTy).Contents (Elt Ideal)) (x17 : (⟨S128, .f32⟩ : BufTy).Contents (Elt Ideal)) (x18 : (⟨S128x128, .f32⟩ : BufTy).Contents (Elt Ideal))
  (x19 : (⟨S128x128, .f32⟩ : BufTy).Contents (Elt Ideal)) (x20 : (⟨S128, .f32⟩ : BufTy).Contents (Elt Ideal)) (x21 : (⟨S128x128, .f32⟩ : BufTy).Contents (Elt Ideal))
  (x22 : (⟨S16x128, .f32⟩ : BufTy).Contents (Elt Ideal)) (x23 : (⟨S128, .f32⟩ : BufTy).Contents (Elt Ideal))
  (x24 : (⟨S384x128, .f32⟩ : BufTy).Contents (Elt Ideal)) (x25 : (⟨S128, .f32⟩ : BufTy).Contents (Elt Ideal))
  (x26 : (⟨S128x2, .f32⟩ : BufTy).Contents (Elt Ideal)) (x27 : (⟨S2, .f32⟩ : BufTy).Contents (Elt Ideal))

/-! ## The input projections -/

/-- The first input projection: rows of the first feature matrix times its weights, plus the bias, positive part. -/
theorem v4_eq : val_main_v4 (F := Ideal) x0 x6 x7 = linRelu x0 x6 x7 := by
  funext i
  obtain ⟨r, q, rfl⟩ : ∃ (r : Fin 100000) (q : Fin 128), i = ix2 r q := ⟨i 0, i 1, eq_ix2 i⟩
  show val_main_v4 (F := Ideal) x0 x6 x7 (ix2 r q)
      = max ((∑ k : Fin 32, x0 (ix2 r k) * x6 (ix2 k q)) + x7 (ix1 q)) z32
  have el : ∀ k : Fin 32, lidx_main_v0 (ix2 r q) k = ix2 r k := fun k =>
    funext fun a => Fin.ext (by match a with | ⟨0, _⟩ => rfl | ⟨1, _⟩ => rfl)
  have er : ∀ k : Fin 32, ridx_main_v0 (ix2 r q) k = ix2 k q := fun k =>
    funext fun a => Fin.ext (by match a with | ⟨0, _⟩ => rfl | ⟨1, _⟩ => rfl)
  have eb : idx_main_v1 (idx_main_v2 (ix2 r q)) = ix1 q :=
    funext fun a => Fin.ext (by match a with | ⟨0, _⟩ => rfl)
  rw [val_main_v4_apply, val_main_v3_apply, val_main_v0_apply, val_main_v2_apply,
    val_main_v1_apply, val_main_call0_v0_apply, val_main_call0_cst_apply]
  simp only [el, er, eb, Ideal.addf_def, Ideal.maximumf_def, Ideal.ofBits_def]

/-- The second input projection. -/
theorem v9_eq : val_main_v9 (F := Ideal) x1 x8 x9 = linRelu x1 x8 x9 := by
  funext i
  obtain ⟨r, q, rfl⟩ : ∃ (r : Fin 100000) (q : Fin 128), i = ix2 r q := ⟨i 0, i 1, eq_ix2 i⟩
  show val_main_v9 (F := Ideal) x1 x8 x9 (ix2 r q)
      = max ((∑ k : Fin 32, x1 (ix2 r k) * x8 (ix2 k q)) + x9 (ix1 q)) z32
  have el : ∀ k : Fin 32, lidx_main_v5 (ix2 r q) k = ix2 r k := fun k =>
    funext fun a => Fin.ext (by match a with | ⟨0, _⟩ => rfl | ⟨1, _⟩ => rfl)
  have er : ∀ k : Fin 32, ridx_main_v5 (ix2 r q) k = ix2 k q := fun k =>
    funext fun a => Fin.ext (by match a with | ⟨0, _⟩ => rfl | ⟨1, _⟩ => rfl)
  have eb : idx_main_v6 (idx_main_v7 (ix2 r q)) = ix1 q :=
    funext fun a => Fin.ext (by match a with | ⟨0, _⟩ => rfl)
  rw [val_main_v9_apply, val_main_v8_apply, val_main_v5_apply, val_main_v7_apply,
    val_main_v6_apply, val_main_call1_v0_apply, val_main_call1_cst_apply]
  simp only [el, er, eb, Ideal.addf_def, Ideal.maximumf_def, Ideal.ofBits_def]

end Cert.RefLayers

end
-- ==== Proof.RefLayers2.lean ====
/-
  The reference program's first mean-aggregation layer (first node type): its stage is `sageRef` of its neighbour aggregate, its clamped
  in-degree column, its root features and its three weights, over the extended reals. The aggregate and the in-degree
  column (each a sum over the edge list) enter only as two given arrays, and the identity holds whatever they are.
  At an index `(r, q)` the composed index maps of the two matrix products and of the two broadcasts are the
  coordinates `(r, k)`, `(k, q)`, `q` and `r`.
-/
import proofs.«117216_j44994077393231_2_alg».proof.Proof.Gen.ReferenceIdeal.Read
import proofs.«117216_j44994077393231_2_alg».proof.Proof.Spec

noncomputable section

namespace Cert.RefLayers

open Idealize.ShloMosaic Idealize.ShloMosaic.ValueIdx
open Cert.ReferenceIdeal Cert.ReferenceIdeal.Read Cert.Spec

variable (x0 x1 : (⟨S100000x32, .f32⟩ : BufTy).Contents (Elt Ideal)) (x2 : (⟨S500000x16, .f32⟩ : BufTy).Contents (Elt Ideal))
  (x3 x4 : (⟨S2x1000000, .i32⟩ : BufTy).Contents (Elt Ideal)) (x5 : (⟨S2x500000, .i32⟩ : BufTy).Contents (Elt Ideal))
  (x6 : (⟨S32x128, .f32⟩ : BufTy).Contents (Elt Ideal)) (x7 : (⟨S128, .f32⟩ : BufTy).Contents (Elt Ideal))
  (x8 : (⟨S32x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal)) (x12 : (⟨S128x128, .f32⟩ : BufTy).Contents (Elt Ideal))
  (x13 : (⟨S128x128, .f32⟩ : BufTy).Contents (Elt Ideal)) (x14 : (⟨S128, .f32⟩ : BufTy).Contents (Elt Ideal)) (x15 : (⟨S128x128, .f32⟩ : BufTy).Contents (Elt Ideal))
  (x16 : (⟨S128x128, .f32⟩ : BufTy).Contents (Elt Ideal)) (x17 : (⟨S128, .f32⟩ : BufTy).Contents (Elt Ideal)) (x18 : (⟨S128x128, .f32⟩ : BufTy).Contents (Elt Ideal))
  (x19 : (⟨S128x128, .f32⟩ : BufTy).Contents (Elt Ideal)) (x20 : (⟨S128, .f32⟩ : BufTy).Contents (Elt Ideal)) (x21 : (⟨S128x128, .f32⟩ : BufTy).Contents (Elt Ideal))
  (x22 : (⟨S16x128, .f32⟩ : BufTy).Contents (Elt Ideal)) (x23 : (⟨S128, .f32⟩ : BufTy).Contents (Elt Ideal))
  (x24 : (⟨S384x128, .f32⟩ : BufTy).Contents (Elt Ideal)) (x25 : (⟨S128, .f32⟩ : BufTy).Contents (Elt Ideal))
  (x26 : (⟨S128x2, .f32⟩ : BufTy).Contents (Elt Ideal)) (x27 : (⟨S2, .f32⟩ : BufTy).Contents (Elt Ideal))

/-! ## The first mean-aggregation layer -/

/-- First layer, first node type: the aggregate over the second edge list divided by the clamped in-degree, times `x10`, plus `x11`, plus the root features times `x12`, positive part. -/
theorem v41_eq : val_main_v41 (F := Ideal) x0 x1 x4 x6 x7 x8 x9 x10 x11 x12
    = sageRef (val_main_v23 (F := Ideal) x1 x4 x8 x9) (val_main_v31 (F := Ideal) x4)
        (val_main_v4 (F := Ideal) x0 x6 x7) x10 x11 x12 := by
  funext i
  obtain ⟨r, q, rfl⟩ : ∃ (r : Fin 100000) (q : Fin 128), i = ix2 r q := ⟨i 0, i 1, eq_ix2 i⟩
  show val_main_v41 (F := Ideal) x0 x1 x4 x6 x7 x8 x9 x10 x11 x12 (ix2 r q)
      = max (((∑ k : Fin 128, Ideal.div (val_main_v23 (F := Ideal) x1 x4 x8 x9 (ix2 r k))
                (val_main_v31 (F := Ideal) x4 (ix1 r)) * x10 (ix2 k q)) + x11 (ix1 q))
          + ∑ k : Fin 128, val_main_v4 (F := Ideal) x0 x6 x7 (ix2 r k) * x12 (ix2 k q)) z32
  have el : ∀ k : Fin 128, lidx_main_v35 (ix2 r q) k = ix2 r k := fun k =>
    funext fun a => Fin.ext (by match a with | ⟨0, _⟩ => rfl | ⟨1, _⟩ => rfl)
  have er : ∀ k : Fin 128, ridx_main_v35 (ix2 r q) k = ix2 k q := fun k =>
    funext fun a => Fin.ext (by match a with | ⟨0, _⟩ => rfl | ⟨1, _⟩ => rfl)
  have el' : ∀ k : Fin 128, lidx_main_v39 (ix2 r q) k = ix2 r k := fun k =>
    funext fun a => Fin.ext (by match a with | ⟨0, _⟩ => rfl | ⟨1, _⟩ => rfl)
  have er' : ∀ k : Fin 128, ridx_main_v39 (ix2 r q) k = ix2 k q := fun k =>
    funext fun a => Fin.ext (by match a with | ⟨0, _⟩ => rfl | ⟨1, _⟩ => rfl)
  have eb : idx_main_v36 (idx_main_v37 (ix2 r q)) = ix1 q :=
    funext fun a => Fin.ext (by match a with | ⟨0, _⟩ => rfl)
  have ec : ∀ k : Fin 128, idx_main_v32 (idx_main_v33 (ix2 r k)) = ix1 r := fun k =>
    funext fun a => Fin.ext (by match a with | ⟨0, _⟩ => rfl)
  have hs : ∀ k : Fin 128, val_main_v34 (F := Ideal) x1 x4 x8 x9 (ix2 r k)
      = Ideal.div (val_main_v23 (F := Ideal) x1 x4 x8 x9 (ix2 r k)) (val_main_v31 (F := Ideal) x4 (ix1 r)) := fun k => by
    rw [val_main_v34_apply, val_main_v33_apply, val_main_v32_apply, ec k, Ideal.hostDivf_def]
  rw [val_main_v41_apply, val_main_v40_apply, val_main_v38_apply, val_main_v35_apply,
    val_main_v37_apply, val_main_v36_apply, val_main_v39_apply, val_main_call2_v0_apply,
    val_main_call2_cst_apply]
  simp only [el, er, el', er', hs, eb, Ideal.addf_def, Ideal.maximumf_def, Ideal.ofBits_def]

end Cert.RefLayers

end
-- ==== Proof.InvRead.lean ====
/-
  The reciprocal column the kernel program computes on the host, read at a row.

  From a count array `cnt : [100000]` the program forms `cm = max(cnt, 1.0)` (the word of `1.0` broadcast), then
  `1.0 / cm` elementwise, then broadcasts the quotient to a `[100000, 1]` column. Over the extended reals every one
  of these operations reads through at an index: the column at `(r, 0)` is `1 / cm r`, and `cm r = max (cnt r) 1`
  is never zero (it is at least 1).
-/
import proofs.«117216_j44994077393231_2_alg».proof.Proof.Gen.KernelIdeal
import proofs.«117216_j44994077393231_2_alg».proof.Proof.Spec
import Idealize.ShloMosaic.Lib.ValueIdx
import Idealize.ShloMosaic.Lib.Pipeline.Value

noncomputable section

namespace Cert.KernelIdeal.InvRead

open Idealize.ShloMosaic Idealize.ShloMosaic.ValueIdx Cert.KernelIdeal Cert.KernelIdeal.Facts₀

variable [Facts₀]

/-- The clamped count at a row: the larger of the count and `1.0`. -/
theorem cm_apply (cnt : (⟨S100000, .f32⟩ : BufTy).Contents (Elt Ideal)) (r : Fin 100000) :
    maximumf (F := Ideal) cnt (broadcastInDim S100000 ![] bcast_S_S100000 (constant (F := Ideal) S_ .f32 0x3F800000#32)) (ix1 r)
      = max (cnt (ix1 r)) Cert.Spec.one32 := rfl

/-- The clamped count is never zero. -/
theorem cm_ne (cnt : (⟨S100000, .f32⟩ : BufTy).Contents (Elt Ideal)) (r : Fin 100000) :
    maximumf (F := Ideal) cnt (broadcastInDim S100000 ![] bcast_S_S100000 (constant (F := Ideal) S_ .f32 0x3F800000#32)) (ix1 r) ≠ 0 := by
  rw [cm_apply]
  exact Cert.Spec.max_one32_ne_zero _

/-- The reciprocal column at `(r, 0)` is `1 / cm r`. -/
theorem inv_read (cnt : (⟨S100000, .f32⟩ : BufTy).Contents (Elt Ideal)) (r : Fin 100000) :
    broadcastInDim S100000x1 ![0] bcast_S100000_S100000x1_0
        (Host.divf (F := Ideal) (broadcastInDim S100000 ![] bcast_S_S100000 (constant (F := Ideal) S_ .f32 0x3F800000#32))
          (maximumf (F := Ideal) cnt (broadcastInDim S100000 ![] bcast_S_S100000 (constant (F := Ideal) S_ .f32 0x3F800000#32))))
        (ix2 r (0 : Fin 1))
      = Ideal.div Cert.Spec.one32
          (maximumf (F := Ideal) cnt (broadcastInDim S100000 ![] bcast_S_S100000 (constant (F := Ideal) S_ .f32 0x3F800000#32)) (ix1 r)) := by
  refine (broadcastInDim_apply _ bcast_S100000_S100000x1_0 _ (ix2 r (0 : Fin 1)) (ix1 r) (fun a => ?_)).trans ?_
  · match a with
    | ⟨0, _⟩ =>
      show r.val = if (100000 : Nat) = 1 then 0 else r.val
      rw [if_neg (by omega)]
  · rfl

end Cert.KernelIdeal.InvRead

end
-- ==== Proof.Stages1.lean ====
/-
  The first four boundaries of the kernel program's run, read as the reference's stages of the launched arguments.
  After region 0 and region 1 the two projected feature arrays are the reference's two projections. The first stretch
  of host operations computes, from the edge lists alone, the two reciprocal in-degree columns `1 / max(count, 1)`,
  and the first neighbour aggregate (rows of the merchant features gathered along the edge list, summed into their
  destination rows): the same gather and the same scatter-add of the same arrays as the reference's. After region 2
  the user features of the first layer are the reference's: the kernel's `aggregate · (1 / c)` is the reference's
  `aggregate / c` because the clamped count `c` is never zero.
-/
import proofs.«117216_j44994077393231_2_alg».proof.Proof.Kept
import proofs.«117216_j44994077393231_2_alg».proof.Proof.Region0
import proofs.«117216_j44994077393231_2_alg».proof.Proof.Region1
import proofs.«117216_j44994077393231_2_alg».proof.Proof.Region2
import proofs.«117216_j44994077393231_2_alg».proof.Proof.Spec
import proofs.«117216_j44994077393231_2_alg».proof.Proof.RefLayers1
import proofs.«117216_j44994077393231_2_alg».proof.Proof.RefLayers2
import proofs.«117216_j44994077393231_2_alg».proof.Proof.InvRead
import Idealize.ShloMosaic.Lib.StableHlo.Run
import Idealize.ShloMosaic.Lib.ValueIdx
import Idealize.ShloMosaic.PureOps.Ideal

set_option maxRecDepth 16384

noncomputable section

namespace Cert.KernelIdeal.Stages1

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)
open Cert.Spec

variable (m : (ℓ : Loc nD τ sig) → Buf (Elt Ideal) ℓ) (ρ : Dev nD → PrngReg)

/-- After region 0: the projected user features. -/
theorem st_v0 (c : Dev nD) : W1 m ρ c (Proc.devRef .tc main_v0) = Cert.ReferenceIdeal.Read.val_main_v4 (F := Ideal) (m ((c : Thread nD τ).loc main_arg0)) (m ((c : Thread nD τ).loc main_arg6)) (m ((c : Thread nD τ).loc main_arg7)) := by
  refine (W1_arr m ρ c 3).trans ((Reg0.arr_out (V0 m ρ) c).trans ?_)
  exact (Cert.RefLayers.v4_eq _ _ _).symm

/-- After region 1: the projected merchant features. -/
theorem st_v1 (c : Dev nD) : W2 m ρ c (Proc.devRef .tc main_v1) = Cert.ReferenceIdeal.Read.val_main_v9 (F := Ideal) (m ((c : Thread nD τ).loc main_arg1)) (m ((c : Thread nD τ).loc main_arg8)) (m ((c : Thread nD τ).loc main_arg9)) := by
  refine (W2_arr m ρ c 3).trans ((Reg1.arr_out (V1 m ρ) c).trans ?_)
  rw [Cert.RefLayers.v9_eq]
  exact congr (congr (congrArg linRelu (Kept.keep1_main_arg1 m ρ c)) (Kept.keep1_main_arg8 m ρ c)) (Kept.keep1_main_arg9 m ρ c)

/-- After the first host stretch: the neighbour aggregate of the merchant features along the second edge list. -/
theorem st_v38 (c : Dev nD) : W3 m ρ c (Proc.devRef .tc main_v38) = Cert.ReferenceIdeal.Read.val_main_v23 (F := Ideal) (m ((c : Thread nD τ).loc main_arg1)) (m ((c : Thread nD τ).loc main_arg4)) (m ((c : Thread nD τ).loc main_arg8)) (m ((c : Thread nD τ).loc main_arg9)) := by
  show StableHlo.after hostOps2 (W2 m ρ c) (Proc.devRef .tc main_v38) = _
  after_results_simp
  rw [st_v1 m ρ c, Kept.keep2_main_arg4 m ρ c]
  rfl

/-- After the first host stretch: the reciprocal in-degree column of the second edge list. -/
theorem st_v12 (c : Dev nD) : W3 m ρ c (Proc.devRef .tc main_v12)
    = broadcastInDim S100000x1 ![0] bcast_S100000_S100000x1_0
        (Host.divf (F := Ideal) (broadcastInDim S100000 ![] bcast_S_S100000 (constant (F := Ideal) S_ .f32 0x3F800000#32))
          (maximumf (F := Ideal) (Cert.ReferenceIdeal.Read.val_main_v29 (F := Ideal) (m ((c : Thread nD τ).loc main_arg4))) (broadcastInDim S100000 ![] bcast_S_S100000 (constant (F := Ideal) S_ .f32 0x3F800000#32)))) := by
  show StableHlo.after hostOps2 (W2 m ρ c) (Proc.devRef .tc main_v12) = _
  after_results_simp
  rw [Kept.keep2_main_arg4 m ρ c]
  rfl

/-- After the first host stretch: the reciprocal in-degree column of the first edge list. -/
theorem st_v23 (c : Dev nD) : W3 m ρ c (Proc.devRef .tc main_v23)
    = broadcastInDim S100000x1 ![0] bcast_S100000_S100000x1_0
        (Host.divf (F := Ideal) (broadcastInDim S100000 ![] bcast_S_S100000 (constant (F := Ideal) S_ .f32 0x3F800000#32))
          (maximumf (F := Ideal) (Cert.ReferenceIdeal.Read.val_main_v61 (F := Ideal) (m ((c : Thread nD τ).loc main_arg3))) (broadcastInDim S100000 ![] bcast_S_S100000 (constant (F := Ideal) S_ .f32 0x3F800000#32)))) := by
  show StableHlo.after hostOps2 (W2 m ρ c) (Proc.devRef .tc main_v23) = _
  after_results_simp
  rw [Kept.keep2_main_arg3 m ρ c]
  rfl

/-- After region 2: the user features of the first layer. -/
theorem st_v39 (c : Dev nD) : W4 m ρ c (Proc.devRef .tc main_v39) = Cert.ReferenceIdeal.Read.val_main_v41 (F := Ideal) (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W4_arr m ρ c 6).trans ((Reg2.arr_out (V3 m ρ) c).trans ?_)
  rw [Cert.RefLayers.v41_eq]
  rw [show V3 m ρ c main_v38 = _ from st_v38 m ρ c,
    show V3 m ρ c main_v0 = _ from (Kept.keep3_main_v0 m ρ c).trans (st_v0 m ρ c),
    show V3 m ρ c main_arg10 = _ from Kept.keep3_main_arg10 m ρ c,
    show V3 m ρ c main_arg11 = _ from Kept.keep3_main_arg11 m ρ c,
    show V3 m ρ c main_arg12 = _ from Kept.keep3_main_arg12 m ρ c]
  refine sageKer_eq_sageRef _ _ (Cert.ReferenceIdeal.Read.val_main_v31 (F := Ideal) (m ((c : Thread nD τ).loc main_arg4))) _ _ _ _ (fun r => InvRead.cm_ne (Cert.ReferenceIdeal.Read.val_main_v29 (F := Ideal) (m ((c : Thread nD τ).loc main_arg4))) r) (fun r => ?_)
  rw [show V3 m ρ c main_v12 = _ from st_v12 m ρ c]
  exact InvRead.inv_read (Cert.ReferenceIdeal.Read.val_main_v29 (F := Ideal) (m ((c : Thread nD τ).loc main_arg4))) r

end Cert.KernelIdeal.Stages1

end
-- ==== Proof.Region3.lean ====
/-
  Region 3 (a mean-aggregation layer): the output array after the region is `sageKer` of the six arrays the region
  finds — for every row `r` and column `q`, the positive part of
  `(∑ₖ (agg[r,k]·inv[r,0])·wl[k,q] + ∑ₖ xd[r,k]·wr[k,q]) + bl[q]`.
  The grid has 25 points; point `t` reads rows `4000·t … 4000·t+3999` of the aggregate, of the reciprocal-count column
  and of the root features, the whole of the two weights and the bias, and writes the same rows of the output, so the
  25 blocks tile the 100000 rows.
-/
import proofs.«117216_j44994077393231_2_alg».proof.Proof.Gen.KernelIdeal.Frame
import proofs.«117216_j44994077393231_2_alg».proof.Proof.Spec
import proofs.«117216_j44994077393231_2_alg».proof.Proof.MatmulRead
import Idealize.ShloMosaic.Lib.Pipeline.Value
import Idealize.ShloMosaic.Lib.ValueIdx
import Idealize.ShloMosaic.Lib.ValueLayout

set_option maxRecDepth 16384

noncomputable section

namespace Cert.KernelIdeal.Reg3

open Cert.KernelIdeal Cert.KernelIdeal.Gen Cert.KernelIdeal.MatmulRead Cert.Spec
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-- The bias row `[128] → [1,128] → [4000,128]` read at an entry is the bias at the column. -/
theorem bias_apply (b : Vec Ideal S128 .f32) (p : Fin 4000) (q : Fin 128) :
    broadcastTo S4000x128 (shapeCast S1x128 b shapeCasts_S128_S1x128) broadcasts_S1x128_S4000x128 (ix2 p q) = b (ix1 q) := by
  rw [broadcastTo_apply _ _ (ix2 p q) (ix2 (0 : Fin 1) q) (fun a => by
    match a with
    | ⟨0, _⟩ => rfl
    | ⟨1, _⟩ => rfl)]
  exact shapeCast_apply b _ (ix2 (0 : Fin 1) q) (ix1 q) (by
    rw [Shape.rowMajor_val_one, Shape.rowMajor_val_two]
    show q.val = (0 : Fin 1).val * 128 + q.val
    simp)

/-- The aggregate times the reciprocal-count column (broadcast along the row) at an entry. -/
theorem mean_apply (agg : Vec Ideal S4000x128 .f32) (inv : Vec Ideal S4000x1 .f32) (p : Fin 4000) (k : Fin 128) :
    mulf (F := Ideal) (s := S4000x128) (φ := .f32) (shapeCast S4000x128 agg shapeCasts_S4000x128_S4000x128)
      (broadcastTo S4000x128 (shapeCast S4000x1 inv shapeCasts_S4000x1_S4000x1) broadcasts_S4000x1_S4000x128) (ix2 p k)
      = agg (ix2 p k) * inv (ix2 p (0 : Fin 1)) := by
  rw [mulf_apply, shapeCast_self, shapeCast_self, broadcastTo_apply _ _ (ix2 p k) (ix2 p (0 : Fin 1)) (fun a => by
    match a with
    | ⟨0, _⟩ => rfl
    | ⟨1, _⟩ => rfl)]

/-- The body's arithmetic at an entry of the block. -/
theorem pay_apply (agg : Vec Ideal S4000x128 .f32) (inv : Vec Ideal S4000x1 .f32) (wl : Vec Ideal S128x128 .f32)
    (xd : Vec Ideal S4000x128 .bf16) (wr : Vec Ideal S128x128 .f32) (bl : Vec Ideal S128 .f32) (p : Fin 4000) (q : Fin 128) :
    k3_pay1 (F := Ideal) agg inv wl xd wr bl (ix2 p q)
      = max (((∑ k : Fin 128, (agg (ix2 p k) * inv (ix2 p (0 : Fin 1))) * wl (ix2 k q))
          + ∑ k : Fin 128, xd (ix2 p k) * wr (ix2 k q)) + bl (ix1 q)) z32 := by
  unfold k3_pay1
  rw [truncf_apply, maximumf_apply, addf_apply, addf_apply, bias_apply]
  refine congrArg₂ max (congrArg (· + bl (ix1 q)) (congrArg₂ (· + ·) ?_ ?_)) rfl
  · refine (mm_4000_128 _ _ p q).trans (Finset.sum_congr rfl fun k _ => ?_)
    rw [truncf_apply, truncf_apply, mean_apply]
  · refine (mm_4000_128 _ _ p q).trans (Finset.sum_congr rfl fun k _ => ?_)
    rw [truncf_apply, shapeCast_self]

/-- The same, with the block's entries named as entries of whole arrays. -/
theorem block_entry (agg : Vec Ideal S4000x128 .f32) (inv : Vec Ideal S4000x1 .f32) (wl : Vec Ideal S128x128 .f32)
    (xd : Vec Ideal S4000x128 .bf16) (wr : Vec Ideal S128x128 .f32) (bl : Vec Ideal S128 .f32)
    (AGG : Arr2 100000 128) (INV : Arr2 100000 1) (XD : Arr2 100000 128) (WL : Arr2 128 128) (BL : Arr1 128) (WR : Arr2 128 128)
    (i : (⟨2, ![100000, 128]⟩ : Shape).Idx) (p : Fin 4000) (q : Fin 128)
    (h1 : ∀ k : Fin 128, agg (ix2 p k) = AGG (ix2 (i 0) k)) (h2 : inv (ix2 p (0 : Fin 1)) = INV (ix2 (i 0) (0 : Fin 1)))
    (h3 : ∀ k : Fin 128, xd (ix2 p k) = XD (ix2 (i 0) k)) (h4 : ∀ k : Fin 128, wl (ix2 k q) = WL (ix2 k (i 1)))
    (h5 : bl (ix1 q) = BL (ix1 (i 1))) (h6 : ∀ k : Fin 128, wr (ix2 k q) = WR (ix2 k (i 1))) :
    k3_pay1 (F := Ideal) agg inv wl xd wr bl (ix2 p q) = sageKer AGG INV XD WL BL WR i := by
  rw [pay_apply]
  unfold sageKer
  simp only [h1, h2, h3, h4, h5, h6]

variable (V : (c : Dev nD) → (b : Ref sig .tc) → Buf (Elt Ideal) ((c : Thread nD τ).loc b))

/-- The index maps over the grid: the three row windows and the output sit at block `t`, the weights and the bias at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0 ∧ win3_4.index t (0 : Fin 1) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What point `t` writes back is block `t` of `sageKer` of the arrays as the region finds them. -/
theorem flushed_eq (c : Dev nD) (t : Fin cfg3.N) :
    (dat3 V c).flushed 6 t
      = ((cfg3.win 6).blk t).view.read (Elt Ideal)
          (sageKer (V c main_v54) (V c main_v23) (V c main_v1) (V c main_arg13) (V c main_arg14) (V c main_arg15)) := by
  show (cfg3.win 6).cut (grid3.coords t) ((dat3 V c).after 6 t) = _
  rw [after3_6]
  unfold out3_6
  rw [View.canon_unit_zero hz2]
  simp only [View.ld_unit_zero (S := S4000x128) hz2, View.ld_unit_zero (S := S4000x1) hz2, View.ld_unit_zero (S := S128x128) hz2, View.ld_unit_zero (S := S128) hz1]
  obtain ⟨e0, e1, e2, e3, e4, e5, e6, e7, e8, e9, e10, e11, e12⟩ := idx_facts t
  funext j
  obtain ⟨p, q, rfl⟩ : ∃ (p : Fin 4000) (q : Fin 128), j = ix2 p q := ⟨j 0, j 1, eq_ix2 j⟩
  refine block_entry _ _ _ _ _ _ _ _ _ _ _ _ (((cfg3.win 6).blk t).view.emb (ix2 p q)) p q ?_ ?_ ?_ ?_ ?_ ?_
  · intro k
    show V c main_v54 (((cfg3.win 0).blk t).view.emb (ix2 p k)) = V c main_v54 _
    refine congrArg (V c main_v54) (funext fun a => Fin.ext ?_)
    match a with
    | ⟨0, _⟩ => show win3_0.index t (0 : Fin 2) * 4000 + 1 * p.val = win3_6.index t (0 : Fin 2) * 4000 + 1 * p.val; omega
    | ⟨1, _⟩ => show win3_0.index t (1 : Fin 2) * 128 + 1 * k.val = k.val; omega
  · show V c main_v23 (((cfg3.win 1).blk t).view.emb (ix2 p (0 : Fin 1))) = V c main_v23 _
    refine congrArg (V c main_v23) (funext fun a => Fin.ext ?_)
    match a with
    | ⟨0, _⟩ => show win3_1.index t (0 : Fin 2) * 4000 + 1 * p.val = win3_6.index t (0 : Fin 2) * 4000 + 1 * p.val; omega
    | ⟨1, _⟩ => show win3_1.index t (1 : Fin 2) * 1 + 1 * 0 = 0; omega
  · intro k
    show V c main_v1 (((cfg3.win 2).blk t).view.emb (ix2 p k)) = V c main_v1 _
    refine congrArg (V c main_v1) (funext fun a => Fin.ext ?_)
    match a with
    | ⟨0, _⟩ => show win3_2.index t (0 : Fin 2) * 4000 + 1 * p.val = win3_6.index t (0 : Fin 2) * 4000 + 1 * p.val; omega
    | ⟨1, _⟩ => show win3_2.index t (1 : Fin 2) * 128 + 1 * k.val = k.val; omega
  · intro k
    show V c main_arg13 (((cfg3.win 3).blk t).view.emb (ix2 k q)) = V c main_arg13 _
    refine congrArg (V c main_arg13) (funext fun a => Fin.ext ?_)
    match a with
    | ⟨0, _⟩ => show win3_3.index t (0 : Fin 2) * 128 + 1 * k.val = k.val; omega
    | ⟨1, _⟩ => show win3_3.index t (1 : Fin 2) * 128 + 1 * q.val = win3_6.index t (1 : Fin 2) * 128 + 1 * q.val; omega
  · show V c main_arg14 (((cfg3.win 4).blk t).view.emb (ix1 q)) = V c main_arg14 _
    refine congrArg (V c main_arg14) (funext fun a => Fin.ext ?_)
    match a with
    | ⟨0, _⟩ => show win3_4.index t (0 : Fin 1) * 128 + 1 * q.val = win3_6.index t (1 : Fin 2) * 128 + 1 * q.val; omega
  · intro k
    show V c main_arg15 (((cfg3.win 5).blk t).view.emb (ix2 k q)) = V c main_arg15 _
    refine congrArg (V c main_arg15) (funext fun a => Fin.ext ?_)
    match a with
    | ⟨0, _⟩ => show win3_5.index t (0 : Fin 2) * 128 + 1 * k.val = k.val; omega
    | ⟨1, _⟩ => show win3_5.index t (1 : Fin 2) * 128 + 1 * q.val = win3_6.index t (1 : Fin 2) * 128 + 1 * q.val; omega

/-- An index of the output array is in point `t`'s block iff its row is in rows `4000·t … 4000·t + 3999`. -/
theorem mem_blk (t : Fin cfg3.N) (i : S100000x128.Idx) :
    i ∈ ((cfg3.win 6).blk t).view.set ↔ ∀ a : Fin 2, win3_6.index t a * S4000x128.size a ≤ (i a).val ∧ (i a).val < win3_6.index t a * S4000x128.size a + S4000x128.size a := by
  show i ∈ ((View.whole main_v55).slice (win3_6.rect t)).set ↔ _
  rw [View.set_slice_whole, Rect.mem_set_unit]
  exact Iff.rfl

/-- The 25 row blocks tile the array: row `r` is in the block of point `r / 4000`. -/
theorem cover (i : S100000x128.Idx) :
    ∃ t : Fin cfg3.N, (cfg3.win 6).flush t = true ∧ i ∈ ((cfg3.win 6).blk t).view.set := by
  have hN : grid3.N = 25 := N_3
  have hi0 : (i 0).val < 100000 := (i 0).isLt
  have hi1 : (i 1).val < 128 := (i 1).isLt
  let t : Fin cfg3.N := ⟨(i 0).val / 4000, by show (i 0).val / 4000 < grid3.N; rw [hN]; omega⟩
  obtain ⟨e0, e1, e2, e3, e4, e5, e6, e7, e8, e9, e10, e11, e12⟩ := idx_facts t
  have ht : t.val = (i 0).val / 4000 := rfl
  refine ⟨t, flush3_6 t, ?_⟩
  rw [mem_blk]
  intro a
  match a with
  | ⟨0, _⟩ => show win3_6.index t (0 : Fin 2) * 4000 ≤ (i 0).val ∧ (i 0).val < win3_6.index t (0 : Fin 2) * 4000 + 4000; omega
  | ⟨1, _⟩ => show win3_6.index t (1 : Fin 2) * 128 ≤ (i 1).val ∧ (i 1).val < win3_6.index t (1 : Fin 2) * 128 + 128; omega

/-- The output array after the region. -/
theorem arr_out (c : Dev nD) :
    (dat3 V c).arrAt 6 cfg3.N
      = sageKer (V c main_v54) (V c main_v23) (V c main_v1) (V c main_arg13) (V c main_arg14) (V c main_arg15) :=
  (dat3 V c).arrAt_eq_of_cover 6 _ (fun t _ => flushed_eq V c t) cover

end Cert.KernelIdeal.Reg3

end
-- ==== Proof.Region4.lean ====
/-
  Region 4 (a mean-aggregation layer): the output array after the region is `sageKer` of the six arrays the region
  finds — for every row `r` and column `q`, the positive part of
  `(∑ₖ (agg[r,k]·inv[r,0])·wl[k,q] + ∑ₖ xd[r,k]·wr[k,q]) + bl[q]`.
  The grid has 25 points; point `t` reads rows `4000·t … 4000·t+3999` of the aggregate, of the reciprocal-count column
  and of the root features, the whole of the two weights and the bias, and writes the same rows of the output, so the
  25 blocks tile the 100000 rows.
-/
import proofs.«117216_j44994077393231_2_alg».proof.Proof.Gen.KernelIdeal.Frame
import proofs.«117216_j44994077393231_2_alg».proof.Proof.Spec
import proofs.«117216_j44994077393231_2_alg».proof.Proof.MatmulRead
import Idealize.ShloMosaic.Lib.Pipeline.Value
import Idealize.ShloMosaic.Lib.ValueIdx
import Idealize.ShloMosaic.Lib.ValueLayout

set_option maxRecDepth 16384

noncomputable section

namespace Cert.KernelIdeal.Reg4

open Cert.KernelIdeal Cert.KernelIdeal.Gen Cert.KernelIdeal.MatmulRead Cert.Spec
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-- The bias row `[128] → [1,128] → [4000,128]` read at an entry is the bias at the column. -/
theorem bias_apply (b : Vec Ideal S128 .f32) (p : Fin 4000) (q : Fin 128) :
    broadcastTo S4000x128 (shapeCast S1x128 b shapeCasts_S128_S1x128) broadcasts_S1x128_S4000x128 (ix2 p q) = b (ix1 q) := by
  rw [broadcastTo_apply _ _ (ix2 p q) (ix2 (0 : Fin 1) q) (fun a => by
    match a with
    | ⟨0, _⟩ => rfl
    | ⟨1, _⟩ => rfl)]
  exact shapeCast_apply b _ (ix2 (0 : Fin 1) q) (ix1 q) (by
    rw [Shape.rowMajor_val_one, Shape.rowMajor_val_two]
    show q.val = (0 : Fin 1).val * 128 + q.val
    simp)

/-- The aggregate times the reciprocal-count column (broadcast along the row) at an entry. -/
theorem mean_apply (agg : Vec Ideal S4000x128 .f32) (inv : Vec Ideal S4000x1 .f32) (p : Fin 4000) (k : Fin 128) :
    mulf (F := Ideal) (s := S4000x128) (φ := .f32) (shapeCast S4000x128 agg shapeCasts_S4000x128_S4000x128)
      (broadcastTo S4000x128 (shapeCast S4000x1 inv shapeCasts_S4000x1_S4000x1) broadcasts_S4000x1_S4000x128) (ix2 p k)
      = agg (ix2 p k) * inv (ix2 p (0 : Fin 1)) := by
  rw [mulf_apply, shapeCast_self, shapeCast_self, broadcastTo_apply _ _ (ix2 p k) (ix2 p (0 : Fin 1)) (fun a => by
    match a with
    | ⟨0, _⟩ => rfl
    | ⟨1, _⟩ => rfl)]

/-- The body's arithmetic at an entry of the block. -/
theorem pay_apply (agg : Vec Ideal S4000x128 .f32) (inv : Vec Ideal S4000x1 .f32) (wl : Vec Ideal S128x128 .f32)
    (xd : Vec Ideal S4000x128 .bf16) (wr : Vec Ideal S128x128 .f32) (bl : Vec Ideal S128 .f32) (p : Fin 4000) (q : Fin 128) :
    k4_pay1 (F := Ideal) agg inv wl xd wr bl (ix2 p q)
      = max (((∑ k : Fin 128, (agg (ix2 p k) * inv (ix2 p (0 : Fin 1))) * wl (ix2 k q))
          + ∑ k : Fin 128, xd (ix2 p k) * wr (ix2 k q)) + bl (ix1 q)) z32 := by
  unfold k4_pay1
  rw [truncf_apply, maximumf_apply, addf_apply, addf_apply, bias_apply]
  refine congrArg₂ max (congrArg (· + bl (ix1 q)) (congrArg₂ (· + ·) ?_ ?_)) rfl
  · refine (mm_4000_128 _ _ p q).trans (Finset.sum_congr rfl fun k _ => ?_)
    rw [truncf_apply, truncf_apply, mean_apply]
  · refine (mm_4000_128 _ _ p q).trans (Finset.sum_congr rfl fun k _ => ?_)
    rw [truncf_apply, shapeCast_self]

/-- The same, with the block's entries named as entries of whole arrays. -/
theorem block_entry (agg : Vec Ideal S4000x128 .f32) (inv : Vec Ideal S4000x1 .f32) (wl : Vec Ideal S128x128 .f32)
    (xd : Vec Ideal S4000x128 .bf16) (wr : Vec Ideal S128x128 .f32) (bl : Vec Ideal S128 .f32)
    (AGG : Arr2 100000 128) (INV : Arr2 100000 1) (XD : Arr2 100000 128) (WL : Arr2 128 128) (BL : Arr1 128) (WR : Arr2 128 128)
    (i : (⟨2, ![100000, 128]⟩ : Shape).Idx) (p : Fin 4000) (q : Fin 128)
    (h1 : ∀ k : Fin 128, agg (ix2 p k) = AGG (ix2 (i 0) k)) (h2 : inv (ix2 p (0 : Fin 1)) = INV (ix2 (i 0) (0 : Fin 1)))
    (h3 : ∀ k : Fin 128, xd (ix2 p k) = XD (ix2 (i 0) k)) (h4 : ∀ k : Fin 128, wl (ix2 k q) = WL (ix2 k (i 1)))
    (h5 : bl (ix1 q) = BL (ix1 (i 1))) (h6 : ∀ k : Fin 128, wr (ix2 k q) = WR (ix2 k (i 1))) :
    k4_pay1 (F := Ideal) agg inv wl xd wr bl (ix2 p q) = sageKer AGG INV XD WL BL WR i := by
  rw [pay_apply]
  unfold sageKer
  simp only [h1, h2, h3, h4, h5, h6]

variable (V : (c : Dev nD) → (b : Ref sig .tc) → Buf (Elt Ideal) ((c : Thread nD τ).loc b))

/-- The index maps over the grid: the three row windows and the output sit at block `t`, the weights and the bias at block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0 ∧ win4_4.index t (0 : Fin 1) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- What point `t` writes back is block `t` of `sageKer` of the arrays as the region finds them. -/
theorem flushed_eq (c : Dev nD) (t : Fin cfg4.N) :
    (dat4 V c).flushed 6 t
      = ((cfg4.win 6).blk t).view.read (Elt Ideal)
          (sageKer (V c main_v70) (V c main_v12) (V c main_v39) (V c main_arg16) (V c main_arg17) (V c main_arg18)) := by
  show (cfg4.win 6).cut (grid4.coords t) ((dat4 V c).after 6 t) = _
  rw [after4_6]
  unfold out4_6
  rw [View.canon_unit_zero hz2]
  simp only [View.ld_unit_zero (S := S4000x128) hz2, View.ld_unit_zero (S := S4000x1) hz2, View.ld_unit_zero (S := S128x128) hz2, View.ld_unit_zero (S := S128) hz1]
  obtain ⟨e0, e1, e2, e3, e4, e5, e6, e7, e8, e9, e10, e11, e12⟩ := idx_facts t
  funext j
  obtain ⟨p, q, rfl⟩ : ∃ (p : Fin 4000) (q : Fin 128), j = ix2 p q := ⟨j 0, j 1, eq_ix2 j⟩
  refine block_entry _ _ _ _ _ _ _ _ _ _ _ _ (((cfg4.win 6).blk t).view.emb (ix2 p q)) p q ?_ ?_ ?_ ?_ ?_ ?_
  · intro k
    show V c main_v70 (((cfg4.win 0).blk t).view.emb (ix2 p k)) = V c main_v70 _
    refine congrArg (V c main_v70) (funext fun a => Fin.ext ?_)
    match a with
    | ⟨0, _⟩ => show win4_0.index t (0 : Fin 2) * 4000 + 1 * p.val = win4_6.index t (0 : Fin 2) * 4000 + 1 * p.val; omega
    | ⟨1, _⟩ => show win4_0.index t (1 : Fin 2) * 128 + 1 * k.val = k.val; omega
  · show V c main_v12 (((cfg4.win 1).blk t).view.emb (ix2 p (0 : Fin 1))) = V c main_v12 _
    refine congrArg (V c main_v12) (funext fun a => Fin.ext ?_)
    match a with
    | ⟨0, _⟩ => show win4_1.index t (0 : Fin 2) * 4000 + 1 * p.val = win4_6.index t (0 : Fin 2) * 4000 + 1 * p.val; omega
    | ⟨1, _⟩ => show win4_1.index t (1 : Fin 2) * 1 + 1 * 0 = 0; omega
  · intro k
    show V c main_v39 (((cfg4.win 2).blk t).view.emb (ix2 p k)) = V c main_v39 _
    refine congrArg (V c main_v39) (funext fun a => Fin.ext ?_)
    match a with
    | ⟨0, _⟩ => show win4_2.index t (0 : Fin 2) * 4000 + 1 * p.val = win4_6.index t (0 : Fin 2) * 4000 + 1 * p.val; omega
    | ⟨1, _⟩ => show win4_2.index t (1 : Fin 2) * 128 + 1 * k.val = k.val; omega
  · intro k
    show V c main_arg16 (((cfg4.win 3).blk t).view.emb (ix2 k q)) = V c main_arg16 _
    refine congrArg (V c main_arg16) (funext fun a => Fin.ext ?_)
    match a with
    | ⟨0, _⟩ => show win4_3.index t (0 : Fin 2) * 128 + 1 * k.val = k.val; omega
    | ⟨1, _⟩ => show win4_3.index t (1 : Fin 2) * 128 + 1 * q.val = win4_6.index t (1 : Fin 2) * 128 + 1 * q.val; omega
  · show V c main_arg17 (((cfg4.win 4).blk t).view.emb (ix1 q)) = V c main_arg17 _
    refine congrArg (V c main_arg17) (funext fun a => Fin.ext ?_)
    match a with
    | ⟨0, _⟩ => show win4_4.index t (0 : Fin 1) * 128 + 1 * q.val = win4_6.index t (1 : Fin 2) * 128 + 1 * q.val; omega
  · intro k
    show V c main_arg18 (((cfg4.win 5).blk t).view.emb (ix2 k q)) = V c main_arg18 _
    refine congrArg (V c main_arg18) (funext fun a => Fin.ext ?_)
    match a with
    | ⟨0, _⟩ => show win4_5.index t (0 : Fin 2) * 128 + 1 * k.val = k.val; omega
    | ⟨1, _⟩ => show win4_5.index t (1 : Fin 2) * 128 + 1 * q.val = win4_6.index t (1 : Fin 2) * 128 + 1 * q.val; omega

/-- An index of the output array is in point `t`'s block iff its row is in rows `4000·t … 4000·t + 3999`. -/
theorem mem_blk (t : Fin cfg4.N) (i : S100000x128.Idx) :
    i ∈ ((cfg4.win 6).blk t).view.set ↔ ∀ a : Fin 2, win4_6.index t a * S4000x128.size a ≤ (i a).val ∧ (i a).val < win4_6.index t a * S4000x128.size a + S4000x128.size a := by
  show i ∈ ((View.whole main_v71).slice (win4_6.rect t)).set ↔ _
  rw [View.set_slice_whole, Rect.mem_set_unit]
  exact Iff.rfl

/-- The 25 row blocks tile the array: row `r` is in the block of point `r / 4000`. -/
theorem cover (i : S100000x128.Idx) :
    ∃ t : Fin cfg4.N, (cfg4.win 6).flush t = true ∧ i ∈ ((cfg4.win 6).blk t).view.set := by
  have hN : grid4.N = 25 := N_4
  have hi0 : (i 0).val < 100000 := (i 0).isLt
  have hi1 : (i 1).val < 128 := (i 1).isLt
  let t : Fin cfg4.N := ⟨(i 0).val / 4000, by show (i 0).val / 4000 < grid4.N; rw [hN]; omega⟩
  obtain ⟨e0, e1, e2, e3, e4, e5, e6, e7, e8, e9, e10, e11, e12⟩ := idx_facts t
  have ht : t.val = (i 0).val / 4000 := rfl
  refine ⟨t, flush4_6 t, ?_⟩
  rw [mem_blk]
  intro a
  match a with
  | ⟨0, _⟩ => show win4_6.index t (0 : Fin 2) * 4000 ≤ (i 0).val ∧ (i 0).val < win4_6.index t (0 : Fin 2) * 4000 + 4000; omega
  | ⟨1, _⟩ => show win4_6.index t (1 : Fin 2) * 128 ≤ (i 1).val ∧ (i 1).val < win4_6.index t (1 : Fin 2) * 128 + 128; omega

/-- The output array after the region. -/
theorem arr_out (c : Dev nD) :
    (dat4 V c).arrAt 6 cfg4.N
      = sageKer (V c main_v70) (V c main_v12) (V c main_v39) (V c main_arg16) (V c main_arg17) (V c main_arg18) :=
  (dat4 V c).arrAt_eq_of_cover 6 _ (fun t _ => flushed_eq V c t) cover

end Cert.KernelIdeal.Reg4

end
-- ==== Proof.Region5.lean ====
/-
  Region 5 (a mean-aggregation layer): the output array after the region is `sageKer` of the six arrays the region
  finds — for every row `r` and column `q`, the positive part of
  `(∑ₖ (agg[r,k]·inv[r,0])·wl[k,q] + ∑ₖ xd[r,k]·wr[k,q]) + bl[q]`.
  The grid has 25 points; point `t` reads rows `4000·t … 4000·t+3999` of the aggregate, of the reciprocal-count column
  and of the root features, the whole of the two weights and the bias, and writes the same rows of the output, so the
  25 blocks tile the 100000 rows.
-/
import proofs.«117216_j44994077393231_2_alg».proof.Proof.Gen.KernelIdeal.Frame
import proofs.«117216_j44994077393231_2_alg».proof.Proof.Spec
import proofs.«117216_j44994077393231_2_alg».proof.Proof.MatmulRead
import Idealize.ShloMosaic.Lib.Pipeline.Value
import Idealize.ShloMosaic.Lib.ValueIdx
import Idealize.ShloMosaic.Lib.ValueLayout

set_option maxRecDepth 16384

noncomputable section

namespace Cert.KernelIdeal.Reg5

open Cert.KernelIdeal Cert.KernelIdeal.Gen Cert.KernelIdeal.MatmulRead Cert.Spec
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-- The bias row `[128] → [1,128] → [4000,128]` read at an entry is the bias at the column. -/
theorem bias_apply (b : Vec Ideal S128 .f32) (p : Fin 4000) (q : Fin 128) :
    broadcastTo S4000x128 (shapeCast S1x128 b shapeCasts_S128_S1x128) broadcasts_S1x128_S4000x128 (ix2 p q) = b (ix1 q) := by
  rw [broadcastTo_apply _ _ (ix2 p q) (ix2 (0 : Fin 1) q) (fun a => by
    match a with
    | ⟨0, _⟩ => rfl
    | ⟨1, _⟩ => rfl)]
  exact shapeCast_apply b _ (ix2 (0 : Fin 1) q) (ix1 q) (by
    rw [Shape.rowMajor_val_one, Shape.rowMajor_val_two]
    show q.val = (0 : Fin 1).val * 128 + q.val
    simp)

/-- The aggregate times the reciprocal-count column (broadcast along the row) at an entry. -/
theorem mean_apply (agg : Vec Ideal S4000x128 .f32) (inv : Vec Ideal S4000x1 .f32) (p : Fin 4000) (k : Fin 128) :
    mulf (F := Ideal) (s := S4000x128) (φ := .f32) (shapeCast S4000x128 agg shapeCasts_S4000x128_S4000x128)
      (broadcastTo S4000x128 (shapeCast S4000x1 inv shapeCasts_S4000x1_S4000x1) broadcasts_S4000x1_S4000x128) (ix2 p k)
      = agg (ix2 p k) * inv (ix2 p (0 : Fin 1)) := by
  rw [mulf_apply, shapeCast_self, shapeCast_self, broadcastTo_apply _ _ (ix2 p k) (ix2 p (0 : Fin 1)) (fun a => by
    match a with
    | ⟨0, _⟩ => rfl
    | ⟨1, _⟩ => rfl)]

/-- The body's arithmetic at an entry of the block. -/
theorem pay_apply (agg : Vec Ideal S4000x128 .f32) (inv : Vec Ideal S4000x1 .f32) (wl : Vec Ideal S128x128 .f32)
    (xd : Vec Ideal S4000x128 .bf16) (wr : Vec Ideal S128x128 .f32) (bl : Vec Ideal S128 .f32) (p : Fin 4000) (q : Fin 128) :
    k5_pay1 (F := Ideal) agg inv wl xd wr bl (ix2 p q)
      = max (((∑ k : Fin 128, (agg (ix2 p k) * inv (ix2 p (0 : Fin 1))) * wl (ix2 k q))
          + ∑ k : Fin 128, xd (ix2 p k) * wr (ix2 k q)) + bl (ix1 q)) z32 := by
  unfold k5_pay1
  rw [truncf_apply, maximumf_apply, addf_apply, addf_apply, bias_apply]
  refine congrArg₂ max (congrArg (· + bl (ix1 q)) (congrArg₂ (· + ·) ?_ ?_)) rfl
  · refine (mm_4000_128 _ _ p q).trans (Finset.sum_congr rfl fun k _ => ?_)
    rw [truncf_apply, truncf_apply, mean_apply]
  · refine (mm_4000_128 _ _ p q).trans (Finset.sum_congr rfl fun k _ => ?_)
    rw [truncf_apply, shapeCast_self]

/-- The same, with the block's entries named as entries of whole arrays. -/
theorem block_entry (agg : Vec Ideal S4000x128 .f32) (inv : Vec Ideal S4000x1 .f32) (wl : Vec Ideal S128x128 .f32)
    (xd : Vec Ideal S4000x128 .bf16) (wr : Vec Ideal S128x128 .f32) (bl : Vec Ideal S128 .f32)
    (AGG : Arr2 100000 128) (INV : Arr2 100000 1) (XD : Arr2 100000 128) (WL : Arr2 128 128) (BL : Arr1 128) (WR : Arr2 128 128)
    (i : (⟨2, ![100000, 128]⟩ : Shape).Idx) (p : Fin 4000) (q : Fin 128)
    (h1 : ∀ k : Fin 128, agg (ix2 p k) = AGG (ix2 (i 0) k)) (h2 : inv (ix2 p (0 : Fin 1)) = INV (ix2 (i 0) (0 : Fin 1)))
    (h3 : ∀ k : Fin 128, xd (ix2 p k) = XD (ix2 (i 0) k)) (h4 : ∀ k : Fin 128, wl (ix2 k q) = WL (ix2 k (i 1)))
    (h5 : bl (ix1 q) = BL (ix1 (i 1))) (h6 : ∀ k : Fin 128, wr (ix2 k q) = WR (ix2 k (i 1))) :
    k5_pay1 (F := Ideal) agg inv wl xd wr bl (ix2 p q) = sageKer AGG INV XD WL BL WR i := by
  rw [pay_apply]
  unfold sageKer
  simp only [h1, h2, h3, h4, h5, h6]

variable (V : (c : Dev nD) → (b : Ref sig .tc) → Buf (Elt Ideal) ((c : Thread nD τ).loc b))

/-- The index maps over the grid: the three row windows and the output sit at block `t`, the weights and the bias at block 0. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0 ∧ win5_4.index t (0 : Fin 1) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- What point `t` writes back is block `t` of `sageKer` of the arrays as the region finds them. -/
theorem flushed_eq (c : Dev nD) (t : Fin cfg5.N) :
    (dat5 V c).flushed 6 t
      = ((cfg5.win 6).blk t).view.read (Elt Ideal)
          (sageKer (V c main_v86) (V c main_v23) (V c main_v55) (V c main_arg19) (V c main_arg20) (V c main_arg21)) := by
  show (cfg5.win 6).cut (grid5.coords t) ((dat5 V c).after 6 t) = _
  rw [after5_6]
  unfold out5_6
  rw [View.canon_unit_zero hz2]
  simp only [View.ld_unit_zero (S := S4000x128) hz2, View.ld_unit_zero (S := S4000x1) hz2, View.ld_unit_zero (S := S128x128) hz2, View.ld_unit_zero (S := S128) hz1]
  obtain ⟨e0, e1, e2, e3, e4, e5, e6, e7, e8, e9, e10, e11, e12⟩ := idx_facts t
  funext j
  obtain ⟨p, q, rfl⟩ : ∃ (p : Fin 4000) (q : Fin 128), j = ix2 p q := ⟨j 0, j 1, eq_ix2 j⟩
  refine block_entry _ _ _ _ _ _ _ _ _ _ _ _ (((cfg5.win 6).blk t).view.emb (ix2 p q)) p q ?_ ?_ ?_ ?_ ?_ ?_
  · intro k
    show V c main_v86 (((cfg5.win 0).blk t).view.emb (ix2 p k)) = V c main_v86 _
    refine congrArg (V c main_v86) (funext fun a => Fin.ext ?_)
    match a with
    | ⟨0, _⟩ => show win5_0.index t (0 : Fin 2) * 4000 + 1 * p.val = win5_6.index t (0 : Fin 2) * 4000 + 1 * p.val; omega
    | ⟨1, _⟩ => show win5_0.index t (1 : Fin 2) * 128 + 1 * k.val = k.val; omega
  · show V c main_v23 (((cfg5.win 1).blk t).view.emb (ix2 p (0 : Fin 1))) = V c main_v23 _
    refine congrArg (V c main_v23) (funext fun a => Fin.ext ?_)
    match a with
    | ⟨0, _⟩ => show win5_1.index t (0 : Fin 2) * 4000 + 1 * p.val = win5_6.index t (0 : Fin 2) * 4000 + 1 * p.val; omega
    | ⟨1, _⟩ => show win5_1.index t (1 : Fin 2) * 1 + 1 * 0 = 0; omega
  · intro k
    show V c main_v55 (((cfg5.win 2).blk t).view.emb (ix2 p k)) = V c main_v55 _
    refine congrArg (V c main_v55) (funext fun a => Fin.ext ?_)
    match a with
    | ⟨0, _⟩ => show win5_2.index t (0 : Fin 2) * 4000 + 1 * p.val = win5_6.index t (0 : Fin 2) * 4000 + 1 * p.val; omega
    | ⟨1, _⟩ => show win5_2.index t (1 : Fin 2) * 128 + 1 * k.val = k.val; omega
  · intro k
    show V c main_arg19 (((cfg5.win 3).blk t).view.emb (ix2 k q)) = V c main_arg19 _
    refine congrArg (V c main_arg19) (funext fun a => Fin.ext ?_)
    match a with
    | ⟨0, _⟩ => show win5_3.index t (0 : Fin 2) * 128 + 1 * k.val = k.val; omega
    | ⟨1, _⟩ => show win5_3.index t (1 : Fin 2) * 128 + 1 * q.val = win5_6.index t (1 : Fin 2) * 128 + 1 * q.val; omega
  · show V c main_arg20 (((cfg5.win 4).blk t).view.emb (ix1 q)) = V c main_arg20 _
    refine congrArg (V c main_arg20) (funext fun a => Fin.ext ?_)
    match a with
    | ⟨0, _⟩ => show win5_4.index t (0 : Fin 1) * 128 + 1 * q.val = win5_6.index t (1 : Fin 2) * 128 + 1 * q.val; omega
  · intro k
    show V c main_arg21 (((cfg5.win 5).blk t).view.emb (ix2 k q)) = V c main_arg21 _
    refine congrArg (V c main_arg21) (funext fun a => Fin.ext ?_)
    match a with
    | ⟨0, _⟩ => show win5_5.index t (0 : Fin 2) * 128 + 1 * k.val = k.val; omega
    | ⟨1, _⟩ => show win5_5.index t (1 : Fin 2) * 128 + 1 * q.val = win5_6.index t (1 : Fin 2) * 128 + 1 * q.val; omega

/-- An index of the output array is in point `t`'s block iff its row is in rows `4000·t … 4000·t + 3999`. -/
theorem mem_blk (t : Fin cfg5.N) (i : S100000x128.Idx) :
    i ∈ ((cfg5.win 6).blk t).view.set ↔ ∀ a : Fin 2, win5_6.index t a * S4000x128.size a ≤ (i a).val ∧ (i a).val < win5_6.index t a * S4000x128.size a + S4000x128.size a := by
  show i ∈ ((View.whole main_v87).slice (win5_6.rect t)).set ↔ _
  rw [View.set_slice_whole, Rect.mem_set_unit]
  exact Iff.rfl

/-- The 25 row blocks tile the array: row `r` is in the block of point `r / 4000`. -/
theorem cover (i : S100000x128.Idx) :
    ∃ t : Fin cfg5.N, (cfg5.win 6).flush t = true ∧ i ∈ ((cfg5.win 6).blk t).view.set := by
  have hN : grid5.N = 25 := N_5
  have hi0 : (i 0).val < 100000 := (i 0).isLt
  have hi1 : (i 1).val < 128 := (i 1).isLt
  let t : Fin cfg5.N := ⟨(i 0).val / 4000, by show (i 0).val / 4000 < grid5.N; rw [hN]; omega⟩
  obtain ⟨e0, e1, e2, e3, e4, e5, e6, e7, e8, e9, e10, e11, e12⟩ := idx_facts t
  have ht : t.val = (i 0).val / 4000 := rfl
  refine ⟨t, flush5_6 t, ?_⟩
  rw [mem_blk]
  intro a
  match a with
  | ⟨0, _⟩ => show win5_6.index t (0 : Fin 2) * 4000 ≤ (i 0).val ∧ (i 0).val < win5_6.index t (0 : Fin 2) * 4000 + 4000; omega
  | ⟨1, _⟩ => show win5_6.index t (1 : Fin 2) * 128 ≤ (i 1).val ∧ (i 1).val < win5_6.index t (1 : Fin 2) * 128 + 128; omega

/-- The output array after the region. -/
theorem arr_out (c : Dev nD) :
    (dat5 V c).arrAt 6 cfg5.N
      = sageKer (V c main_v86) (V c main_v23) (V c main_v55) (V c main_arg19) (V c main_arg20) (V c main_arg21) :=
  (dat5 V c).arrAt_eq_of_cover 6 _ (fun t _ => flushed_eq V c t) cover

end Cert.KernelIdeal.Reg5

end
-- ==== Proof.RefLayers2b.lean ====
/-
  The reference program's remaining three mean-aggregation layers (first layer, second node type; second layer, both
  node types): each stage is `sageRef` of its neighbour aggregate, its clamped in-degree column, its root features and
  its three weights, over the extended reals. The aggregate and the in-degree column (each a sum over the edge list)
  enter only as two given arrays, and the identity holds whatever they are. At an index `(r, q)` each summand of the
  first product is the aggregate at `(r, k)` divided by the in-degree at `r`; the composed index maps of the two
  matrix products and of the two broadcasts are the coordinates `(r, k)`, `(k, q)`, `q` and `r`.
-/
import proofs.«117216_j44994077393231_2_alg».proof.Proof.Gen.ReferenceIdeal.Read
import proofs.«117216_j44994077393231_2_alg».proof.Proof.Spec

noncomputable section

namespace Cert.RefLayers

open Idealize.ShloMosaic Idealize.ShloMosaic.ValueIdx
open Cert.ReferenceIdeal Cert.ReferenceIdeal.Read Cert.Spec

variable (x0 x1 : (⟨S100000x32, .f32⟩ : BufTy).Contents (Elt Ideal)) (x2 : (⟨S500000x16, .f32⟩ : BufTy).Contents (Elt Ideal))
  (x3 x4 : (⟨S2x1000000, .i32⟩ : BufTy).Contents (Elt Ideal)) (x5 : (⟨S2x500000, .i32⟩ : BufTy).Contents (Elt Ideal))
  (x6 : (⟨S32x128, .f32⟩ : BufTy).Contents (Elt Ideal)) (x7 : (⟨S128, .f32⟩ : BufTy).Contents (Elt Ideal))
  (x8 : (⟨S32x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal)) (x12 : (⟨S128x128, .f32⟩ : BufTy).Contents (Elt Ideal))
  (x13 : (⟨S128x128, .f32⟩ : BufTy).Contents (Elt Ideal)) (x14 : (⟨S128, .f32⟩ : BufTy).Contents (Elt Ideal)) (x15 : (⟨S128x128, .f32⟩ : BufTy).Contents (Elt Ideal))
  (x16 : (⟨S128x128, .f32⟩ : BufTy).Contents (Elt Ideal)) (x17 : (⟨S128, .f32⟩ : BufTy).Contents (Elt Ideal)) (x18 : (⟨S128x128, .f32⟩ : BufTy).Contents (Elt Ideal))
  (x19 : (⟨S128x128, .f32⟩ : BufTy).Contents (Elt Ideal)) (x20 : (⟨S128, .f32⟩ : BufTy).Contents (Elt Ideal)) (x21 : (⟨S128x128, .f32⟩ : BufTy).Contents (Elt Ideal))
  (x22 : (⟨S16x128, .f32⟩ : BufTy).Contents (Elt Ideal)) (x23 : (⟨S128, .f32⟩ : BufTy).Contents (Elt Ideal))
  (x24 : (⟨S384x128, .f32⟩ : BufTy).Contents (Elt Ideal)) (x25 : (⟨S128, .f32⟩ : BufTy).Contents (Elt Ideal))
  (x26 : (⟨S128x2, .f32⟩ : BufTy).Contents (Elt Ideal)) (x27 : (⟨S2, .f32⟩ : BufTy).Contents (Elt Ideal))

/-! ## The four mean-aggregation layers -/

/-- First layer, second node type. -/
theorem v73_eq : val_main_v73 (F := Ideal) x0 x1 x3 x6 x7 x8 x9 x13 x14 x15
    = sageRef (val_main_v55 (F := Ideal) x0 x3 x6 x7) (val_main_v63 (F := Ideal) x3)
        (val_main_v9 (F := Ideal) x1 x8 x9) x13 x14 x15 := by
  funext i
  obtain ⟨r, q, rfl⟩ : ∃ (r : Fin 100000) (q : Fin 128), i = ix2 r q := ⟨i 0, i 1, eq_ix2 i⟩
  show val_main_v73 (F := Ideal) x0 x1 x3 x6 x7 x8 x9 x13 x14 x15 (ix2 r q)
      = max (((∑ k : Fin 128, Ideal.div (val_main_v55 (F := Ideal) x0 x3 x6 x7 (ix2 r k))
                (val_main_v63 (F := Ideal) x3 (ix1 r)) * x13 (ix2 k q)) + x14 (ix1 q))
          + ∑ k : Fin 128, val_main_v9 (F := Ideal) x1 x8 x9 (ix2 r k) * x15 (ix2 k q)) z32
  have el : ∀ k : Fin 128, lidx_main_v67 (ix2 r q) k = ix2 r k := fun k =>
    funext fun a => Fin.ext (by match a with | ⟨0, _⟩ => rfl | ⟨1, _⟩ => rfl)
  have er : ∀ k : Fin 128, ridx_main_v67 (ix2 r q) k = ix2 k q := fun k =>
    funext fun a => Fin.ext (by match a with | ⟨0, _⟩ => rfl | ⟨1, _⟩ => rfl)
  have el' : ∀ k : Fin 128, lidx_main_v71 (ix2 r q) k = ix2 r k := fun k =>
    funext fun a => Fin.ext (by match a with | ⟨0, _⟩ => rfl | ⟨1, _⟩ => rfl)
  have er' : ∀ k : Fin 128, ridx_main_v71 (ix2 r q) k = ix2 k q := fun k =>
    funext fun a => Fin.ext (by match a with | ⟨0, _⟩ => rfl | ⟨1, _⟩ => rfl)
  have eb : idx_main_v68 (idx_main_v69 (ix2 r q)) = ix1 q :=
    funext fun a => Fin.ext (by match a with | ⟨0, _⟩ => rfl)
  have ec : ∀ k : Fin 128, idx_main_v64 (idx_main_v65 (ix2 r k)) = ix1 r := fun k =>
    funext fun a => Fin.ext (by match a with | ⟨0, _⟩ => rfl)
  have hs : ∀ k : Fin 128, val_main_v66 (F := Ideal) x0 x3 x6 x7 (ix2 r k)
      = Ideal.div (val_main_v55 (F := Ideal) x0 x3 x6 x7 (ix2 r k)) (val_main_v63 (F := Ideal) x3 (ix1 r)) := fun k => by
    rw [val_main_v66_apply, val_main_v65_apply, val_main_v64_apply, ec k, Ideal.hostDivf_def]
  rw [val_main_v73_apply, val_main_v72_apply, val_main_v70_apply, val_main_v67_apply,
    val_main_v69_apply, val_main_v68_apply, val_main_v71_apply, val_main_call3_v0_apply,
    val_main_call3_cst_apply]
  simp only [el, er, el', er', hs, eb, Ideal.addf_def, Ideal.maximumf_def, Ideal.ofBits_def]

/-- Second layer, first node type: its root features are the first layer's output for that type. -/
theorem v105_eq : val_main_v105 (F := Ideal) x0 x1 x3 x4 x6 x7 x8 x9 x10 x11 x12 x13 x14 x15 x16 x17 x18
    = sageRef (val_main_v87 (F := Ideal) x0 x1 x3 x4 x6 x7 x8 x9 x13 x14 x15) (val_main_v95 (F := Ideal) x4)
        (val_main_v41 (F := Ideal) x0 x1 x4 x6 x7 x8 x9 x10 x11 x12) x16 x17 x18 := by
  funext i
  obtain ⟨r, q, rfl⟩ : ∃ (r : Fin 100000) (q : Fin 128), i = ix2 r q := ⟨i 0, i 1, eq_ix2 i⟩
  show val_main_v105 (F := Ideal) x0 x1 x3 x4 x6 x7 x8 x9 x10 x11 x12 x13 x14 x15 x16 x17 x18 (ix2 r q)
      = max (((∑ k : Fin 128, Ideal.div (val_main_v87 (F := Ideal) x0 x1 x3 x4 x6 x7 x8 x9 x13 x14 x15 (ix2 r k))
                (val_main_v95 (F := Ideal) x4 (ix1 r)) * x16 (ix2 k q)) + x17 (ix1 q))
          + ∑ k : Fin 128, val_main_v41 (F := Ideal) x0 x1 x4 x6 x7 x8 x9 x10 x11 x12 (ix2 r k) * x18 (ix2 k q)) z32
  have el : ∀ k : Fin 128, lidx_main_v99 (ix2 r q) k = ix2 r k := fun k =>
    funext fun a => Fin.ext (by match a with | ⟨0, _⟩ => rfl | ⟨1, _⟩ => rfl)
  have er : ∀ k : Fin 128, ridx_main_v99 (ix2 r q) k = ix2 k q := fun k =>
    funext fun a => Fin.ext (by match a with | ⟨0, _⟩ => rfl | ⟨1, _⟩ => rfl)
  have el' : ∀ k : Fin 128, lidx_main_v103 (ix2 r q) k = ix2 r k := fun k =>
    funext fun a => Fin.ext (by match a with | ⟨0, _⟩ => rfl | ⟨1, _⟩ => rfl)
  have er' : ∀ k : Fin 128, ridx_main_v103 (ix2 r q) k = ix2 k q := fun k =>
    funext fun a => Fin.ext (by match a with | ⟨0, _⟩ => rfl | ⟨1, _⟩ => rfl)
  have eb : idx_main_v100 (idx_main_v101 (ix2 r q)) = ix1 q :=
    funext fun a => Fin.ext (by match a with | ⟨0, _⟩ => rfl)
  have ec : ∀ k : Fin 128, idx_main_v96 (idx_main_v97 (ix2 r k)) = ix1 r := fun k =>
    funext fun a => Fin.ext (by match a with | ⟨0, _⟩ => rfl)
  have hs : ∀ k : Fin 128, val_main_v98 (F := Ideal) x0 x1 x3 x4 x6 x7 x8 x9 x13 x14 x15 (ix2 r k)
      = Ideal.div (val_main_v87 (F := Ideal) x0 x1 x3 x4 x6 x7 x8 x9 x13 x14 x15 (ix2 r k)) (val_main_v95 (F := Ideal) x4 (ix1 r)) := fun k => by
    rw [val_main_v98_apply, val_main_v97_apply, val_main_v96_apply, ec k, Ideal.hostDivf_def]
  rw [val_main_v105_apply, val_main_v104_apply, val_main_v102_apply, val_main_v99_apply,
    val_main_v101_apply, val_main_v100_apply, val_main_v103_apply, val_main_call4_v0_apply,
    val_main_call4_cst_apply]
  simp only [el, er, el', er', hs, eb, Ideal.addf_def, Ideal.maximumf_def, Ideal.ofBits_def]

/-- Second layer, second node type. -/
theorem v137_eq : val_main_v137 (F := Ideal) x0 x1 x3 x4 x6 x7 x8 x9 x10 x11 x12 x13 x14 x15 x19 x20 x21
    = sageRef (val_main_v119 (F := Ideal) x0 x1 x3 x4 x6 x7 x8 x9 x10 x11 x12) (val_main_v127 (F := Ideal) x3)
        (val_main_v73 (F := Ideal) x0 x1 x3 x6 x7 x8 x9 x13 x14 x15) x19 x20 x21 := by
  funext i
  obtain ⟨r, q, rfl⟩ : ∃ (r : Fin 100000) (q : Fin 128), i = ix2 r q := ⟨i 0, i 1, eq_ix2 i⟩
  show val_main_v137 (F := Ideal) x0 x1 x3 x4 x6 x7 x8 x9 x10 x11 x12 x13 x14 x15 x19 x20 x21 (ix2 r q)
      = max (((∑ k : Fin 128, Ideal.div (val_main_v119 (F := Ideal) x0 x1 x3 x4 x6 x7 x8 x9 x10 x11 x12 (ix2 r k))
                (val_main_v127 (F := Ideal) x3 (ix1 r)) * x19 (ix2 k q)) + x20 (ix1 q))
          + ∑ k : Fin 128, val_main_v73 (F := Ideal) x0 x1 x3 x6 x7 x8 x9 x13 x14 x15 (ix2 r k) * x21 (ix2 k q)) z32
  have el : ∀ k : Fin 128, lidx_main_v131 (ix2 r q) k = ix2 r k := fun k =>
    funext fun a => Fin.ext (by match a with | ⟨0, _⟩ => rfl | ⟨1, _⟩ => rfl)
  have er : ∀ k : Fin 128, ridx_main_v131 (ix2 r q) k = ix2 k q := fun k =>
    funext fun a => Fin.ext (by match a with | ⟨0, _⟩ => rfl | ⟨1, _⟩ => rfl)
  have el' : ∀ k : Fin 128, lidx_main_v135 (ix2 r q) k = ix2 r k := fun k =>
    funext fun a => Fin.ext (by match a with | ⟨0, _⟩ => rfl | ⟨1, _⟩ => rfl)
  have er' : ∀ k : Fin 128, ridx_main_v135 (ix2 r q) k = ix2 k q := fun k =>
    funext fun a => Fin.ext (by match a with | ⟨0, _⟩ => rfl | ⟨1, _⟩ => rfl)
  have eb : idx_main_v132 (idx_main_v133 (ix2 r q)) = ix1 q :=
    funext fun a => Fin.ext (by match a with | ⟨0, _⟩ => rfl)
  have ec : ∀ k : Fin 128, idx_main_v128 (idx_main_v129 (ix2 r k)) = ix1 r := fun k =>
    funext fun a => Fin.ext (by match a with | ⟨0, _⟩ => rfl)
  have hs : ∀ k : Fin 128, val_main_v130 (F := Ideal) x0 x1 x3 x4 x6 x7 x8 x9 x10 x11 x12 (ix2 r k)
      = Ideal.div (val_main_v119 (F := Ideal) x0 x1 x3 x4 x6 x7 x8 x9 x10 x11 x12 (ix2 r k)) (val_main_v127 (F := Ideal) x3 (ix1 r)) := fun k => by
    rw [val_main_v130_apply, val_main_v129_apply, val_main_v128_apply, ec k, Ideal.hostDivf_def]
  rw [val_main_v137_apply, val_main_v136_apply, val_main_v134_apply, val_main_v131_apply,
    val_main_v133_apply, val_main_v132_apply, val_main_v135_apply, val_main_call5_v0_apply,
    val_main_call5_cst_apply]
  simp only [el, er, el', er', hs, eb, Ideal.addf_def, Ideal.maximumf_def, Ideal.ofBits_def]

end Cert.RefLayers

end
-- ==== Proof.Stages2.lean ====
/-
  Boundaries five to ten of the kernel program's run, read as the reference's stages of the launched arguments: each
  stretch of host operations forms the next neighbour aggregate (the same gather and scatter-add, of an array already
  known to be the reference's, along the same edge list), and each of regions 3, 4, 5 is one mean-aggregation layer,
  the kernel's `aggregate · (1 / c)` being the reference's `aggregate / c` since the clamped count is never zero. The
  second layer reuses the first layer's reciprocal columns; the reference recomputes the counts from the same edge
  lists, which is the same array.
-/
import proofs.«117216_j44994077393231_2_alg».proof.Proof.Kept
import proofs.«117216_j44994077393231_2_alg».proof.Proof.Stages1
import proofs.«117216_j44994077393231_2_alg».proof.Proof.Region3
import proofs.«117216_j44994077393231_2_alg».proof.Proof.Region4
import proofs.«117216_j44994077393231_2_alg».proof.Proof.Region5
import proofs.«117216_j44994077393231_2_alg».proof.Proof.Spec
import proofs.«117216_j44994077393231_2_alg».proof.Proof.RefLayers2b
import proofs.«117216_j44994077393231_2_alg».proof.Proof.InvRead
import Idealize.ShloMosaic.Lib.StableHlo.Run
import Idealize.ShloMosaic.Lib.ValueIdx
import Idealize.ShloMosaic.PureOps.Ideal

set_option maxRecDepth 16384

noncomputable section

namespace Cert.KernelIdeal.Stages2

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)
open Cert.Spec

variable (m : (ℓ : Loc nD τ sig) → Buf (Elt Ideal) ℓ) (ρ : Dev nD → PrngReg)

/-- The neighbour aggregate of the user features along the first edge list. -/
theorem st_v54 (c : Dev nD) : W5 m ρ c (Proc.devRef .tc main_v54) = Cert.ReferenceIdeal.Read.val_main_v55 (F := Ideal) (m ((c : Thread nD τ).loc main_arg0)) (m ((c : Thread nD τ).loc main_arg3)) (m ((c : Thread nD τ).loc main_arg6)) (m ((c : Thread nD τ).loc main_arg7)) := by
  show StableHlo.after hostOps3 (W4 m ρ c) (Proc.devRef .tc main_v54) = _
  after_results_simp
  rw [(Kept.keep4_main_v0 m ρ c).trans (Stages1.st_v0 m ρ c), Kept.keep4_main_arg3 m ρ c]
  rfl

/-- After region 3: the merchant features of the first layer. -/
theorem st_v55 (c : Dev nD) : W6 m ρ c (Proc.devRef .tc main_v55) = Cert.ReferenceIdeal.Read.val_main_v73 (F := Ideal) (m ((c : Thread nD τ).loc main_arg0)) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15)) := by
  refine (W6_arr m ρ c 6).trans ((Reg3.arr_out (V5 m ρ) c).trans ?_)
  rw [Cert.RefLayers.v73_eq]
  rw [show V5 m ρ c main_v54 = _ from st_v54 m ρ c,
    show V5 m ρ c main_v1 = _ from (Kept.keep5_main_v1 m ρ c).trans (Stages1.st_v1 m ρ c),
    show V5 m ρ c main_arg13 = _ from Kept.keep5_main_arg13 m ρ c,
    show V5 m ρ c main_arg14 = _ from Kept.keep5_main_arg14 m ρ c,
    show V5 m ρ c main_arg15 = _ from Kept.keep5_main_arg15 m ρ c]
  refine sageKer_eq_sageRef _ _ (Cert.ReferenceIdeal.Read.val_main_v63 (F := Ideal) (m ((c : Thread nD τ).loc main_arg3))) _ _ _ _ (fun r => InvRead.cm_ne (Cert.ReferenceIdeal.Read.val_main_v61 (F := Ideal) (m ((c : Thread nD τ).loc main_arg3))) r) (fun r => ?_)
  rw [show V5 m ρ c main_v23 = _ from (Kept.keep5_main_v23 m ρ c).trans (Stages1.st_v23 m ρ c)]
  exact InvRead.inv_read (Cert.ReferenceIdeal.Read.val_main_v61 (F := Ideal) (m ((c : Thread nD τ).loc main_arg3))) r

/-- The neighbour aggregate of the first layer's merchant features along the second edge list. -/
theorem st_v70 (c : Dev nD) : W7 m ρ c (Proc.devRef .tc main_v70) = Cert.ReferenceIdeal.Read.val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15)) := by
  show StableHlo.after hostOps4 (W6 m ρ c) (Proc.devRef .tc main_v70) = _
  after_results_simp
  rw [st_v55 m ρ c, Kept.keep6_main_arg4 m ρ c]
  rfl

/-- After region 4: the user features of the second layer. -/
theorem st_v71 (c : Dev nD) : W8 m ρ c (Proc.devRef .tc main_v71) = Cert.ReferenceIdeal.Read.val_main_v105 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W8_arr m ρ c 6).trans ((Reg4.arr_out (V7 m ρ) c).trans ?_)
  rw [Cert.RefLayers.v105_eq]
  rw [show V7 m ρ c main_v70 = _ from st_v70 m ρ c,
    show V7 m ρ c main_v39 = _ from (Kept.keep7_main_v39 m ρ c).trans (Stages1.st_v39 m ρ c),
    show V7 m ρ c main_arg16 = _ from Kept.keep7_main_arg16 m ρ c,
    show V7 m ρ c main_arg17 = _ from Kept.keep7_main_arg17 m ρ c,
    show V7 m ρ c main_arg18 = _ from Kept.keep7_main_arg18 m ρ c]
  refine sageKer_eq_sageRef _ _ (Cert.ReferenceIdeal.Read.val_main_v95 (F := Ideal) (m ((c : Thread nD τ).loc main_arg4))) _ _ _ _ (fun r => InvRead.cm_ne (Cert.ReferenceIdeal.Read.val_main_v29 (F := Ideal) (m ((c : Thread nD τ).loc main_arg4))) r) (fun r => ?_)
  rw [show V7 m ρ c main_v12 = _ from (Kept.keep7_main_v12 m ρ c).trans (Stages1.st_v12 m ρ c)]
  exact InvRead.inv_read (Cert.ReferenceIdeal.Read.val_main_v29 (F := Ideal) (m ((c : Thread nD τ).loc main_arg4))) r

/-- The neighbour aggregate of the first layer's user features along the first edge list. -/
theorem st_v86 (c : Dev nD) : W9 m ρ c (Proc.devRef .tc main_v86) = Cert.ReferenceIdeal.Read.val_main_v119 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps5 (W8 m ρ c) (Proc.devRef .tc main_v86) = _
  after_results_simp
  rw [(Kept.keep8_main_v39 m ρ c).trans (Stages1.st_v39 m ρ c), Kept.keep8_main_arg3 m ρ c]
  rfl

/-- After region 5: the merchant features of the second layer. -/
theorem st_v87 (c : Dev nD) : W10 m ρ c (Proc.devRef .tc main_v87) = Cert.ReferenceIdeal.Read.val_main_v137 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg19)) (m ((c : Thread nD τ).loc main_arg20)) (m ((c : Thread nD τ).loc main_arg21)) := by
  refine (W10_arr m ρ c 6).trans ((Reg5.arr_out (V9 m ρ) c).trans ?_)
  rw [Cert.RefLayers.v137_eq]
  rw [show V9 m ρ c main_v86 = _ from st_v86 m ρ c,
    show V9 m ρ c main_v55 = _ from (Kept.keep9_main_v55 m ρ c).trans (st_v55 m ρ c),
    show V9 m ρ c main_arg19 = _ from Kept.keep9_main_arg19 m ρ c,
    show V9 m ρ c main_arg20 = _ from Kept.keep9_main_arg20 m ρ c,
    show V9 m ρ c main_arg21 = _ from Kept.keep9_main_arg21 m ρ c]
  refine sageKer_eq_sageRef _ _ (Cert.ReferenceIdeal.Read.val_main_v127 (F := Ideal) (m ((c : Thread nD τ).loc main_arg3))) _ _ _ _ (fun r => InvRead.cm_ne (Cert.ReferenceIdeal.Read.val_main_v61 (F := Ideal) (m ((c : Thread nD τ).loc main_arg3))) r) (fun r => ?_)
  rw [show V9 m ρ c main_v23 = _ from (Kept.keep9_main_v23 m ρ c).trans (Stages1.st_v23 m ρ c)]
  exact InvRead.inv_read (Cert.ReferenceIdeal.Read.val_main_v61 (F := Ideal) (m ((c : Thread nD τ).loc main_arg3))) r

end Cert.KernelIdeal.Stages2

end
-- ==== Proof.Region6.lean ====
/-
  Region 6 (the edge classifier): the output array after the region is, for every edge `r` and output column `q`,
  `∑ₖ h[r,k]·w2[k,q] + b2[q]`, where the hidden row is the positive part of
  `((∑ₖ src[r,k]·w1a[k,·] + ∑ₖ dst[r,k]·w1b[k,·]) + ∑ₖ ee[r,k]·w1c[k,·]) + b1` and the edge features `ee` are the
  positive part of `∑ⱼ ea[r,j]·we[j,·] + be`.
  The grid has 100 points; point `t` reads rows `5000·t … 5000·t+4999` of the two gathered node-feature arrays and of
  the edge attributes, the whole of every weight and bias, and writes the same rows of the output, so the 100 blocks
  tile the 500000 rows.
-/
import proofs.«117216_j44994077393231_2_alg».proof.Proof.Gen.KernelIdeal.Frame
import proofs.«117216_j44994077393231_2_alg».proof.Proof.Spec
import proofs.«117216_j44994077393231_2_alg».proof.Proof.MatmulRead
import Idealize.ShloMosaic.Lib.Pipeline.Value
import Idealize.ShloMosaic.Lib.ValueIdx
import Idealize.ShloMosaic.Lib.ValueLayout

set_option maxRecDepth 16384

noncomputable section

namespace Cert.KernelIdeal.Reg6

open Cert.KernelIdeal Cert.KernelIdeal.Gen Cert.KernelIdeal.MatmulRead Cert.Spec
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-- A bias row `[128] → [1,128] → [5000,128]` read at an entry is the bias at the column. -/
theorem bias_apply (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_apply _ _ (ix2 p q) (ix2 (0 : Fin 1) q) (fun a => by
    match a with
    | ⟨0, _⟩ => rfl
    | ⟨1, _⟩ => rfl)]
  exact shapeCast_apply b _ (ix2 (0 : Fin 1) q) (ix1 q) (by
    rw [Shape.rowMajor_val_one, Shape.rowMajor_val_two]
    show q.val = (0 : Fin 1).val * 128 + q.val
    simp)

/-- The hidden row at an entry of the block. -/
theorem hid_apply (ea : Vec Ideal S5000x16 .f32) (we : Vec Ideal S16x128 .f32) (be : Vec Ideal S128 .f32)
    (src dst : Vec Ideal S5000x128 .bf16) (w1a w1b w1c : Vec Ideal S128x128 .f32) (b1 : Vec Ideal S128 .f32)
    (p : Fin 5000) (q : Fin 128) :
    k6_pay2 (F := Ideal) ea we be src dst w1a w1b w1c b1 (ix2 p q)
      = max (((((∑ k : Fin 128, src (ix2 p k) * w1a (ix2 k q)) + ∑ k : Fin 128, dst (ix2 p k) * w1b (ix2 k q))
          + ∑ k : Fin 128, max ((∑ j : Fin 16, ea (ix2 p j) * we (ix2 j k)) + be (ix1 k)) z32 * w1c (ix2 k q)))
          + b1 (ix1 q)) z32 := by
  unfold k6_pay2
  rw [truncf_apply, maximumf_apply, addf_apply, addf_apply, addf_apply, bias_apply]
  refine congrArg₂ max (congrArg (· + b1 (ix1 q)) (congrArg₂ (· + ·) (congrArg₂ (· + ·) ?_ ?_) ?_)) rfl
  · refine (mm_5000_128 _ _ p q).trans (Finset.sum_congr rfl fun k _ => ?_)
    simp only [truncf_apply, shapeCast_self]
  · refine (mm_5000_128 _ _ p q).trans (Finset.sum_congr rfl fun k _ => ?_)
    simp only [truncf_apply, shapeCast_self]
  · refine (mm_5000_128 _ _ p q).trans (Finset.sum_congr rfl fun k _ => ?_)
    rw [truncf_apply, maximumf_apply, addf_apply, bias_apply]
    refine congrArg₂ (· * ·) (congrArg₂ max (congrArg (· + be (ix1 k)) ?_) rfl) ?_
    · refine (mm_5000_16 _ _ p k).trans (Finset.sum_congr rfl fun j _ => ?_)
      simp only [truncf_apply]
    · simp only [truncf_apply, shapeCast_self]

/-- The output row at an entry of the block, from the hidden block. -/
theorem out_apply (h : FVec Ideal S5000x128 .bf16) (w2 : Vec Ideal S128x128 .f32) (b2 : Vec Ideal S128 .f32)
    (p : Fin 5000) (q : Fin 128) :
    k6_pay1 (F := Ideal) h w2 b2 (ix2 p q) = (∑ k : Fin 128, h (ix2 p k) * w2 (ix2 k q)) + b2 (ix1 q) := by
  unfold k6_pay1
  rw [addf_apply, bias_apply]
  simp only [shapeCast_self]
  refine congrArg (· + b2 (ix1 q)) ?_
  refine (mm_5000_128 _ _ p q).trans (Finset.sum_congr rfl fun k _ => ?_)
  simp only [truncf_apply, shapeCast_self]

/-- The same, with the block's entries named as entries of whole arrays. -/
theorem block_entry (ea : Vec Ideal S5000x16 .f32) (we : Vec Ideal S16x128 .f32) (be : Vec Ideal S128 .f32)
    (src dst : Vec Ideal S5000x128 .bf16) (w1a w1b w1c : Vec Ideal S128x128 .f32) (b1 : Vec Ideal S128 .f32)
    (w2 : Vec Ideal S128x128 .f32) (b2 : Vec Ideal S128 .f32)
    (SRC DST : Arr2 500000 128) (EA : Arr2 500000 16) (WE : Arr2 16 128) (BE : Arr1 128) (W1A W1B W1C : Arr2 128 128)
    (B1 : Arr1 128) (W2 : Arr2 128 128) (B2 : Arr1 128)
    (i : (⟨2, ![500000, 128]⟩ : Shape).Idx) (p : Fin 5000) (q : Fin 128)
    (hsrc : ∀ k : Fin 128, src (ix2 p k) = SRC (ix2 (i 0) k)) (hdst : ∀ k : Fin 128, dst (ix2 p k) = DST (ix2 (i 0) k))
    (hea : ∀ j : Fin 16, ea (ix2 p j) = EA (ix2 (i 0) j))
    (hwe : ∀ (j : Fin 16) (k : Fin 128), we (ix2 j k) = WE (ix2 j k)) (hbe : ∀ k : Fin 128, be (ix1 k) = BE (ix1 k))
    (hw1a : ∀ k k' : Fin 128, w1a (ix2 k k') = W1A (ix2 k k')) (hw1b : ∀ k k' : Fin 128, w1b (ix2 k k') = W1B (ix2 k k'))
    (hw1c : ∀ k k' : Fin 128, w1c (ix2 k k') = W1C (ix2 k k')) (hb1 : ∀ k : Fin 128, b1 (ix1 k) = B1 (ix1 k))
    (hw2 : ∀ k : Fin 128, w2 (ix2 k q) = W2 (ix2 k (i 1))) (hb2 : b2 (ix1 q) = B2 (ix1 (i 1))) :
    k6_pay1 (F := Ideal) (k6_pay2 (F := Ideal) ea we be src dst w1a w1b w1c b1) w2 b2 (ix2 p q)
      = headOut (hidKer SRC DST (edgeFeat EA WE BE) W1A W1B W1C B1) W2 B2 i := by
  rw [out_apply]
  show _ = (∑ k : Fin 128, hidKer SRC DST (edgeFeat EA WE BE) W1A W1B W1C B1 (ix2 (i 0) k) * W2 (ix2 k (i 1))) + B2 (ix1 (i 1))
  rw [hb2]
  refine congrArg (· + B2 (ix1 (i 1))) (Finset.sum_congr rfl fun k _ => ?_)
  rw [hw2 k]
  refine congrArg (· * W2 (ix2 k (i 1))) ?_
  rw [hid_apply]
  show _ = max (((((∑ k' : Fin 128, SRC (ix2 (i 0) k') * W1A (ix2 k' k)) + ∑ k' : Fin 128, DST (ix2 (i 0) k') * W1B (ix2 k' k))
          + ∑ k' : Fin 128, max ((∑ j : Fin 16, EA (ix2 (i 0) j) * WE (ix2 j k')) + BE (ix1 k')) z32 * W1C (ix2 k' k)))
          + B1 (ix1 k)) z32
  simp only [hsrc, hdst, hea, hwe, hbe, hw1a, hw1b, hw1c, hb1]

variable (V : (c : Dev nD) → (b : Ref sig .tc) → Buf (Elt Ideal) ((c : Thread nD τ).loc b))

/-- The index maps over the grid: the three row windows and the output sit at block `t`, every weight and bias at block 0. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0 ∧ win6_4.index t (0 : Fin 1) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0 ∧ win6_8.index t (0 : Fin 1) = 0
    ∧ win6_9.index t (0 : Fin 2) = 0 ∧ win6_9.index t (1 : Fin 2) = 0 ∧ win6_10.index t (0 : Fin 1) = 0
    ∧ win6_11.index t (0 : Fin 2) = t.val ∧ win6_11.index t (1 : Fin 2) = 0 :=
  (by decide +kernel : ∀ t : Fin grid6.N, _)

/-- What point `t` writes back is block `t` of the classifier's function of the arrays as the region finds them. -/
theorem flushed_eq (c : Dev nD) (t : Fin cfg6.N) :
    (dat6 V c).flushed 11 t
      = ((cfg6.win 11).blk t).view.read (Elt Ideal)
          (headOut (hidKer (V c main_v96) (V c main_v105) (edgeFeat (V c main_arg2) (V c main_arg22) (V c main_arg23))
              (V c main_v106) (V c main_v107) (V c main_v108) (V c main_arg25)) (V c main_v111) (V c main_v114)) := by
  show (cfg6.win 11).cut (grid6.coords t) ((dat6 V c).after 11 t) = _
  rw [after6_11]
  unfold out6_11
  rw [View.canon_unit_zero hz2]
  simp only [View.ld_unit_zero (S := S5000x128) hz2, View.ld_unit_zero (S := S5000x16) hz2, View.ld_unit_zero (S := S16x128) hz2,
    View.ld_unit_zero (S := S128x128) hz2, View.ld_unit_zero (S := S128) hz1]
  obtain ⟨e0, e1, e2, e3, e4, e5, e6, e7, e8, e9, e10, e11, e12, e13, e14, e15, e16, e17, e18, e19, e20⟩ := idx_facts t
  funext j
  obtain ⟨p, q, rfl⟩ : ∃ (p : Fin 5000) (q : Fin 128), j = ix2 p q := ⟨j 0, j 1, eq_ix2 j⟩
  refine block_entry _ _ _ _ _ _ _ _ _ _ _ _ _ _ _ _ _ _ _ _ _ _ (((cfg6.win 11).blk t).view.emb (ix2 p q)) p q
    ?_ ?_ ?_ ?_ ?_ ?_ ?_ ?_ ?_ ?_ ?_
  · intro k
    show V c main_v96 (((cfg6.win 0).blk t).view.emb (ix2 p k)) = V c main_v96 _
    refine congrArg (V c main_v96) (funext fun a => Fin.ext ?_)
    match a with
    | ⟨0, _⟩ => show win6_0.index t (0 : Fin 2) * 5000 + 1 * p.val = win6_11.index t (0 : Fin 2) * 5000 + 1 * p.val; omega
    | ⟨1, _⟩ => show win6_0.index t (1 : Fin 2) * 128 + 1 * k.val = k.val; omega
  · intro k
    show V c main_v105 (((cfg6.win 1).blk t).view.emb (ix2 p k)) = V c main_v105 _
    refine congrArg (V c main_v105) (funext fun a => Fin.ext ?_)
    match a with
    | ⟨0, _⟩ => show win6_1.index t (0 : Fin 2) * 5000 + 1 * p.val = win6_11.index t (0 : Fin 2) * 5000 + 1 * p.val; omega
    | ⟨1, _⟩ => show win6_1.index t (1 : Fin 2) * 128 + 1 * k.val = k.val; omega
  · intro k
    show V c main_arg2 (((cfg6.win 2).blk t).view.emb (ix2 p k)) = V c main_arg2 _
    refine congrArg (V c main_arg2) (funext fun a => Fin.ext ?_)
    match a with
    | ⟨0, _⟩ => show win6_2.index t (0 : Fin 2) * 5000 + 1 * p.val = win6_11.index t (0 : Fin 2) * 5000 + 1 * p.val; omega
    | ⟨1, _⟩ => show win6_2.index t (1 : Fin 2) * 16 + 1 * k.val = k.val; omega
  · intro k k'
    show V c main_arg22 (((cfg6.win 3).blk t).view.emb (ix2 k k')) = V c main_arg22 _
    refine congrArg (V c main_arg22) (funext fun a => Fin.ext ?_)
    match a with
    | ⟨0, _⟩ => show win6_3.index t (0 : Fin 2) * 16 + 1 * k.val = k.val; omega
    | ⟨1, _⟩ => show win6_3.index t (1 : Fin 2) * 128 + 1 * k'.val = k'.val; omega
  · intro k
    show V c main_arg23 (((cfg6.win 4).blk t).view.emb (ix1 k)) = V c main_arg23 _
    refine congrArg (V c main_arg23) (funext fun a => Fin.ext ?_)
    match a with
    | ⟨0, _⟩ => show win6_4.index t (0 : Fin 1) * 128 + 1 * k.val = k.val; omega
  · intro k k'
    show V c main_v106 (((cfg6.win 5).blk t).view.emb (ix2 k k')) = V c main_v106 _
    refine congrArg (V c main_v106) (funext fun a => Fin.ext ?_)
    match a with
    | ⟨0, _⟩ => show win6_5.index t (0 : Fin 2) * 128 + 1 * k.val = k.val; omega
    | ⟨1, _⟩ => show win6_5.index t (1 : Fin 2) * 128 + 1 * k'.val = k'.val; omega
  · intro k k'
    show V c main_v107 (((cfg6.win 6).blk t).view.emb (ix2 k k')) = V c main_v107 _
    refine congrArg (V c main_v107) (funext fun a => Fin.ext ?_)
    match a with
    | ⟨0, _⟩ => show win6_6.index t (0 : Fin 2) * 128 + 1 * k.val = k.val; omega
    | ⟨1, _⟩ => show win6_6.index t (1 : Fin 2) * 128 + 1 * k'.val = k'.val; omega
  · intro k k'
    show V c main_v108 (((cfg6.win 7).blk t).view.emb (ix2 k k')) = V c main_v108 _
    refine congrArg (V c main_v108) (funext fun a => Fin.ext ?_)
    match a with
    | ⟨0, _⟩ => show win6_7.index t (0 : Fin 2) * 128 + 1 * k.val = k.val; omega
    | ⟨1, _⟩ => show win6_7.index t (1 : Fin 2) * 128 + 1 * k'.val = k'.val; omega
  · intro k
    show V c main_arg25 (((cfg6.win 8).blk t).view.emb (ix1 k)) = V c main_arg25 _
    refine congrArg (V c main_arg25) (funext fun a => Fin.ext ?_)
    match a with
    | ⟨0, _⟩ => show win6_8.index t (0 : Fin 1) * 128 + 1 * k.val = k.val; omega
  · intro k
    show V c main_v111 (((cfg6.win 9).blk t).view.emb (ix2 k q)) = V c main_v111 _
    refine congrArg (V c main_v111) (funext fun a => Fin.ext ?_)
    match a with
    | ⟨0, _⟩ => show win6_9.index t (0 : Fin 2) * 128 + 1 * k.val = k.val; omega
    | ⟨1, _⟩ => show win6_9.index t (1 : Fin 2) * 128 + 1 * q.val = win6_11.index t (1 : Fin 2) * 128 + 1 * q.val; omega
  · show V c main_v114 (((cfg6.win 10).blk t).view.emb (ix1 q)) = V c main_v114 _
    refine congrArg (V c main_v114) (funext fun a => Fin.ext ?_)
    match a with
    | ⟨0, _⟩ => show win6_10.index t (0 : Fin 1) * 128 + 1 * q.val = win6_11.index t (1 : Fin 2) * 128 + 1 * q.val; omega

/-- An index of the output array is in point `t`'s block iff its row is in rows `5000·t … 5000·t + 4999`. -/
theorem mem_blk (t : Fin cfg6.N) (i : S500000x128.Idx) :
    i ∈ ((cfg6.win 11).blk t).view.set ↔ ∀ a : Fin 2, win6_11.index t a * S5000x128.size a ≤ (i a).val ∧ (i a).val < win6_11.index t a * S5000x128.size a + S5000x128.size a := by
  show i ∈ ((View.whole main_v115).slice (win6_11.rect t)).set ↔ _
  rw [View.set_slice_whole, Rect.mem_set_unit]
  exact Iff.rfl

/-- The 100 row blocks tile the array: row `r` is in the block of point `r / 5000`. -/
theorem cover (i : S500000x128.Idx) :
    ∃ t : Fin cfg6.N, (cfg6.win 11).flush t = true ∧ i ∈ ((cfg6.win 11).blk t).view.set := by
  have hN : grid6.N = 100 := N_6
  have hi0 : (i 0).val < 500000 := (i 0).isLt
  have hi1 : (i 1).val < 128 := (i 1).isLt
  let t : Fin cfg6.N := ⟨(i 0).val / 5000, by show (i 0).val / 5000 < grid6.N; rw [hN]; omega⟩
  obtain ⟨e0, e1, e2, e3, e4, e5, e6, e7, e8, e9, e10, e11, e12, e13, e14, e15, e16, e17, e18, e19, e20⟩ := idx_facts t
  have ht : t.val = (i 0).val / 5000 := rfl
  refine ⟨t, flush6_11 t, ?_⟩
  rw [mem_blk]
  intro a
  match a with
  | ⟨0, _⟩ => show win6_11.index t (0 : Fin 2) * 5000 ≤ (i 0).val ∧ (i 0).val < win6_11.index t (0 : Fin 2) * 5000 + 5000; omega
  | ⟨1, _⟩ => show win6_11.index t (1 : Fin 2) * 128 ≤ (i 1).val ∧ (i 1).val < win6_11.index t (1 : Fin 2) * 128 + 128; omega

/-- The output array after the region. -/
theorem arr_out (c : Dev nD) :
    (dat6 V c).arrAt 11 cfg6.N
      = headOut (hidKer (V c main_v96) (V c main_v105) (edgeFeat (V c main_arg2) (V c main_arg22) (V c main_arg23))
          (V c main_v106) (V c main_v107) (V c main_v108) (V c main_arg25)) (V c main_v111) (V c main_v114) :=
  (dat6 V c).arrAt_eq_of_cover 11 _ (fun t _ => flushed_eq V c t) cover

end Cert.KernelIdeal.Reg6

end
-- ==== Proof.RefLayers3.lean ====
/-
  The reference program's edge classifier, over the extended reals: the edge-feature layer is `edgeFeat`; the hidden
  layer is `hidRef` of the joined 384-column array, a given array; the result is `headOut` of the hidden layer.
-/
import proofs.«117216_j44994077393231_2_alg».proof.Proof.Gen.ReferenceIdeal.Read
import proofs.«117216_j44994077393231_2_alg».proof.Proof.Spec

noncomputable section

namespace Cert.RefLayers

open Idealize.ShloMosaic Idealize.ShloMosaic.ValueIdx
open Cert.ReferenceIdeal Cert.ReferenceIdeal.Read Cert.Spec

variable (x0 x1 : (⟨S100000x32, .f32⟩ : BufTy).Contents (Elt Ideal)) (x2 : (⟨S500000x16, .f32⟩ : BufTy).Contents (Elt Ideal))
  (x3 x4 : (⟨S2x1000000, .i32⟩ : BufTy).Contents (Elt Ideal)) (x5 : (⟨S2x500000, .i32⟩ : BufTy).Contents (Elt Ideal))
  (x6 : (⟨S32x128, .f32⟩ : BufTy).Contents (Elt Ideal)) (x7 : (⟨S128, .f32⟩ : BufTy).Contents (Elt Ideal))
  (x8 : (⟨S32x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal)) (x12 : (⟨S128x128, .f32⟩ : BufTy).Contents (Elt Ideal))
  (x13 : (⟨S128x128, .f32⟩ : BufTy).Contents (Elt Ideal)) (x14 : (⟨S128, .f32⟩ : BufTy).Contents (Elt Ideal)) (x15 : (⟨S128x128, .f32⟩ : BufTy).Contents (Elt Ideal))
  (x16 : (⟨S128x128, .f32⟩ : BufTy).Contents (Elt Ideal)) (x17 : (⟨S128, .f32⟩ : BufTy).Contents (Elt Ideal)) (x18 : (⟨S128x128, .f32⟩ : BufTy).Contents (Elt Ideal))
  (x19 : (⟨S128x128, .f32⟩ : BufTy).Contents (Elt Ideal)) (x20 : (⟨S128, .f32⟩ : BufTy).Contents (Elt Ideal)) (x21 : (⟨S128x128, .f32⟩ : BufTy).Contents (Elt Ideal))
  (x22 : (⟨S16x128, .f32⟩ : BufTy).Contents (Elt Ideal)) (x23 : (⟨S128, .f32⟩ : BufTy).Contents (Elt Ideal))
  (x24 : (⟨S384x128, .f32⟩ : BufTy).Contents (Elt Ideal)) (x25 : (⟨S128, .f32⟩ : BufTy).Contents (Elt Ideal))
  (x26 : (⟨S128x2, .f32⟩ : BufTy).Contents (Elt Ideal)) (x27 : (⟨S2, .f32⟩ : BufTy).Contents (Elt Ideal))

/-! ## The edge classifier -/

/-- The edge-feature layer: rows of the edge attributes times `x22`, plus `x23`, positive part. -/
theorem v160_eq : val_main_v160 (F := Ideal) x2 x22 x23 = edgeFeat x2 x22 x23 := by
  funext i
  obtain ⟨r, q, rfl⟩ : ∃ (r : Fin 500000) (q : Fin 128), i = ix2 r q := ⟨i 0, i 1, eq_ix2 i⟩
  show val_main_v160 (F := Ideal) x2 x22 x23 (ix2 r q)
      = max ((∑ k : Fin 16, x2 (ix2 r k) * x22 (ix2 k q)) + x23 (ix1 q)) z32
  have el : ∀ k : Fin 16, lidx_main_v156 (ix2 r q) k = ix2 r k := fun k =>
    funext fun a => Fin.ext (by match a with | ⟨0, _⟩ => rfl | ⟨1, _⟩ => rfl)
  have er : ∀ k : Fin 16, ridx_main_v156 (ix2 r q) k = ix2 k q := fun k =>
    funext fun a => Fin.ext (by match a with | ⟨0, _⟩ => rfl | ⟨1, _⟩ => rfl)
  have eb : idx_main_v157 (idx_main_v158 (ix2 r q)) = ix1 q :=
    funext fun a => Fin.ext (by match a with | ⟨0, _⟩ => rfl)
  rw [val_main_v160_apply, val_main_v159_apply, val_main_v156_apply, val_main_v158_apply,
    val_main_v157_apply, val_main_call6_v0_apply, val_main_call6_cst_apply]
  simp only [el, er, eb, Ideal.addf_def, Ideal.maximumf_def, Ideal.ofBits_def]

/-- The hidden layer: rows of the joined 384-column array times `x24`, plus `x25`, positive part. -/
theorem v166_eq : val_main_v166 (F := Ideal) x0 x1 x2 x3 x4 x5 x6 x7 x8 x9 x10 x11 x12 x13 x14 x15 x16 x17 x18 x19 x20 x21 x22 x23 x24 x25
    = hidRef (val_main_v161 (F := Ideal) x0 x1 x2 x3 x4 x5 x6 x7 x8 x9 x10 x11 x12 x13 x14 x15 x16 x17 x18 x19 x20 x21 x22 x23) x24 x25 := by
  funext i
  obtain ⟨r, q, rfl⟩ : ∃ (r : Fin 500000) (q : Fin 128), i = ix2 r q := ⟨i 0, i 1, eq_ix2 i⟩
  show val_main_v166 (F := Ideal) x0 x1 x2 x3 x4 x5 x6 x7 x8 x9 x10 x11 x12 x13 x14 x15 x16 x17 x18 x19 x20 x21 x22 x23 x24 x25 (ix2 r q)
      = max ((∑ k : Fin 384, val_main_v161 (F := Ideal) x0 x1 x2 x3 x4 x5 x6 x7 x8 x9 x10 x11 x12 x13 x14 x15 x16 x17 x18 x19 x20 x21 x22 x23 (ix2 r k) * x24 (ix2 k q)) + x25 (ix1 q)) z32
  have el : ∀ k : Fin 384, lidx_main_v162 (ix2 r q) k = ix2 r k := fun k =>
    funext fun a => Fin.ext (by match a with | ⟨0, _⟩ => rfl | ⟨1, _⟩ => rfl)
  have er : ∀ k : Fin 384, ridx_main_v162 (ix2 r q) k = ix2 k q := fun k =>
    funext fun a => Fin.ext (by match a with | ⟨0, _⟩ => rfl | ⟨1, _⟩ => rfl)
  have eb : idx_main_v163 (idx_main_v164 (ix2 r q)) = ix1 q :=
    funext fun a => Fin.ext (by match a with | ⟨0, _⟩ => rfl)
  rw [val_main_v166_apply, val_main_v165_apply, val_main_v162_apply, val_main_v164_apply,
    val_main_v163_apply, val_main_call7_v0_apply, val_main_call7_cst_apply]
  simp only [el, er, eb, Ideal.addf_def, Ideal.maximumf_def, Ideal.ofBits_def]

/-- The output layer over the hidden layer's stage: rows times `x26` (two output columns), plus `x27`. -/
theorem v170_eq_headOut : val_main_v170 (F := Ideal) x0 x1 x2 x3 x4 x5 x6 x7 x8 x9 x10 x11 x12 x13 x14 x15 x16 x17 x18 x19 x20 x21 x22 x23 x24 x25 x26 x27
    = headOut (val_main_v166 (F := Ideal) x0 x1 x2 x3 x4 x5 x6 x7 x8 x9 x10 x11 x12 x13 x14 x15 x16 x17 x18 x19 x20 x21 x22 x23 x24 x25) x26 x27 := by
  funext i
  obtain ⟨r, q, rfl⟩ : ∃ (r : Fin 500000) (q : Fin 2), i = ix2 r q := ⟨i 0, i 1, eq_ix2 i⟩
  show val_main_v170 (F := Ideal) x0 x1 x2 x3 x4 x5 x6 x7 x8 x9 x10 x11 x12 x13 x14 x15 x16 x17 x18 x19 x20 x21 x22 x23 x24 x25 x26 x27 (ix2 r q)
      = (∑ k : Fin 128, val_main_v166 (F := Ideal) x0 x1 x2 x3 x4 x5 x6 x7 x8 x9 x10 x11 x12 x13 x14 x15 x16 x17 x18 x19 x20 x21 x22 x23 x24 x25 (ix2 r k) * x26 (ix2 k q)) + x27 (ix1 q)
  have el : ∀ k : Fin 128, lidx_main_v167 (ix2 r q) k = ix2 r k := fun k =>
    funext fun a => Fin.ext (by match a with | ⟨0, _⟩ => rfl | ⟨1, _⟩ => rfl)
  have er : ∀ k : Fin 128, ridx_main_v167 (ix2 r q) k = ix2 k q := fun k =>
    funext fun a => Fin.ext (by match a with | ⟨0, _⟩ => rfl | ⟨1, _⟩ => rfl)
  have eb : idx_main_v168 (idx_main_v169 (ix2 r q)) = ix1 q :=
    funext fun a => Fin.ext (by match a with | ⟨0, _⟩ => rfl)
  rw [val_main_v170_apply, val_main_v167_apply, val_main_v169_apply, val_main_v168_apply]
  simp only [el, er, eb, Ideal.addf_def]

/-- The reference's result: the output layer of the hidden layer of the joined operand. -/
theorem v170_eq : val_main_v170 (F := Ideal) x0 x1 x2 x3 x4 x5 x6 x7 x8 x9 x10 x11 x12 x13 x14 x15 x16 x17 x18 x19 x20 x21 x22 x23 x24 x25 x26 x27
    = headOut (hidRef (val_main_v161 (F := Ideal) x0 x1 x2 x3 x4 x5 x6 x7 x8 x9 x10 x11 x12 x13 x14 x15 x16 x17 x18 x19 x20 x21 x22 x23) x24 x25) x26 x27 := by
  rw [v170_eq_headOut, v166_eq]

end Cert.RefLayers

end
-- ==== Proof.PadRead.lean ====
/-
  An OVERWRITE scatter read at an index.

  `Host.scatter d f x idx upd` is the left fold, over the update indices in row-major order, of the step
  "the update index `n` lands at the operand index `d.resultIdx? n idx`; when it lands inside, replace the element
  there by `f old (upd n)`". For the body `f = fun _ b => b` (the update replaces the element):

  * `fold_overwrite`: if the update index `n0` lands at `i'`, and every update index of the list that lands at `i'`
    is `n0`, then after the fold the element at `i'` is `upd n0` — as soon as `n0` is in the list, or the
    accumulator already holds `upd n0` there. (Induction on the list, the accumulator generalized: a step by an
    update index that does not land at `i'` leaves the element at `i'` alone; the step by `n0` writes `upd n0`.)
  * `scatter_overwrite_apply`: when every update index `j` lands inside, at `e j`, for an INJECTIVE `e`, the
    result at `e j` is `upd j`.

  Then the two scatters of the program: a `[128, 2]` update written into a `[128, 128]` array and a `[2]` update
  written into a `[128]` array, each at the start index `0` (every entry of the index array the zero word). The start
  is `0` on every axis, the window coordinate on axis `a` is the update index's coordinate on `a`; so the update index
  `(k, c)` lands at `(k, c)` (resp. `c` at `c`), always inside, and the landing map is injective. Hence the
  result read at a column (position) below 2 is the update's element there.
-/
import proofs.«117216_j44994077393231_2_alg».proof.KernelIdeal
import Idealize.ShloMosaic.Lib.ValueIdx

namespace Cert.PadRead

open Idealize.ShloMosaic Idealize.ShloMosaic.ValueIdx

variable {s si u : Shape} {α : Type} {w : Nat}

/-- The fold of overwriting steps, read at `i'`: the one update that lands there. -/
theorem fold_overwrite (d : ScatterDims s si u) (idx : IVec si w) (upd : u.Idx → α) (i' : s.Idx) (n0 : Fin u.numel)
    (hg : d.resultIdx? (u.rowMajor.symm n0) idx = some i')
    (l : List (Fin u.numel)) (huniq : ∀ n ∈ l, d.resultIdx? (u.rowMajor.symm n) idx = some i' → n = n0)
    (r : s.Idx → α) (h : r i' = upd (u.rowMajor.symm n0) ∨ n0 ∈ l) :
    (l.foldl (fun r n =>
      match d.resultIdx? (u.rowMajor.symm n) idx with
      | some i => fun i' => if i' = i then (fun _ b => b) (r i) (upd (u.rowMajor.symm n)) else r i'
      | none => r) r) i' = upd (u.rowMajor.symm n0) := by
  induction l generalizing r with
  | nil =>
    rcases h with h | h
    · exact h
    · exact absurd h List.not_mem_nil
  | cons a t ih =>
    rw [List.foldl_cons]
    apply ih (fun n hn => huniq n (List.mem_cons_of_mem _ hn))
    by_cases ha : a = n0
    · left
      subst ha
      simp only [hg, if_true]
    · have hne : d.resultIdx? (u.rowMajor.symm a) idx ≠ some i' := fun hh => ha (huniq a List.mem_cons_self hh)
      have hstep : (match d.resultIdx? (u.rowMajor.symm a) idx with
          | some i => fun i' => if i' = i then (fun _ b => b) (r i) (upd (u.rowMajor.symm a)) else r i'
          | none => r) i' = r i' := by
        cases hga : d.resultIdx? (u.rowMajor.symm a) idx with
        | none => rfl
        | some i =>
          have : i' ≠ i := fun hh => hne (by rw [hga, hh])
          simp only [if_neg this]
      rcases h with h | h
      · left; rw [hstep]; exact h
      · right
        rcases List.mem_cons.1 h with h | h
        · exact absurd h.symm ha
        · exact h

/-- An overwriting scatter whose update indices all land inside, at pairwise distinct places `e j`, holds `upd j`
    at `e j`. -/
theorem scatter_overwrite_apply (d : ScatterDims s si u) (x : s.Idx → α) (idx : IVec si w) (upd : u.Idx → α)
    (e : u.Idx → s.Idx) (he : Function.Injective e) (hr : ∀ j, d.resultIdx? j idx = some (e j)) (j : u.Idx) :
    Host.scatter d (fun _ b => b) x idx upd (e j) = upd j := by
  unfold Host.scatter
  have := fold_overwrite d idx upd (e j) (u.rowMajor j) (by rw [Equiv.symm_apply_apply]; exact hr j)
    (List.finRange u.numel) (fun n _ hn => by
      rw [hr] at hn
      have := he (Option.some.inj hn)
      rw [← this, Equiv.apply_symm_apply]) x (Or.inr (List.mem_finRange _))
  rw [Equiv.symm_apply_apply] at this
  exact this

end Cert.PadRead

namespace Cert.KernelIdeal

open Idealize.ShloMosaic Idealize.ShloMosaic.ValueIdx Cert.PadRead

variable [Facts₀] {α : Type} {w : Nat}

/-! ## The `[128, 2]` update written into the `[128, 128]` array at start `0` -/

/-- The window starts at `0` on both axes: the one start component is the zero word, read signed. -/
theorem padW_start (j : S128x2.Idx) (idx : IVec S1 w) (hidx : ∀ k, idx k = 0#w) (a : Fin 2) :
    scatter_S128x128_S1_S128x2_01_n_1_0.start j idx a = 0 := by
  unfold ScatterDims.start
  split
  · rw [hidx]; exact BitVec.toInt_zero
  · rfl

/-- The window coordinate on axis `a` is the update index's coordinate on `a`. -/
theorem padW_window (j : S128x2.Idx) (a : Fin 2) :
    scatter_S128x128_S1_S128x2_01_n_1_0.window j a = (j a).val := by
  match a with
  | ⟨0, _⟩ => rfl
  | ⟨1, _⟩ => rfl

/-- The update index `(k, c)` lands at `(k, c)`. -/
theorem padW_resultIdx (j : S128x2.Idx) (idx : IVec S1 w) (hidx : ∀ k, idx k = 0#w) :
    scatter_S128x128_S1_S128x2_01_n_1_0.resultIdx? j idx
      = some (ix2 (j 0) ⟨(j 1).val, by have := idx2_lt1 j; omega⟩) := by
  unfold ScatterDims.resultIdx?
  have hs := padW_start j idx hidx
  have hw := padW_window j
  rw [dif_pos]
  · congr 1
    funext a
    apply Fin.ext
    simp only [hs, hw]
    match a with
    | ⟨0, _⟩ => simp
    | ⟨1, _⟩ => simp
  · intro a
    rw [hs, hw]
    match a with
    | ⟨0, _⟩ => have := idx2_lt0 j; constructor; omega; show (0 : Int) + ((j 0).val : Int) < ((128 : Nat) : Int); omega
    | ⟨1, _⟩ => have := idx2_lt1 j; constructor; omega; show (0 : Int) + ((j 1).val : Int) < ((128 : Nat) : Int); omega

/-- Reading the padded weight at a column below 2: the update's element. -/
theorem padW_read (x : S128x128.Idx → α) (idx : IVec S1 w) (hidx : ∀ k, idx k = 0#w) (upd : S128x2.Idx → α)
    (k j : Fin 128) (hj : j.val < 2) :
    Host.scatter scatter_S128x128_S1_S128x2_01_n_1_0 (fun _ b => b) x idx upd (ix2 k j) = upd (ix2 k ⟨j.val, hj⟩) := by
  have inj : Function.Injective (fun j' : S128x2.Idx =>
      (ix2 (j' 0) ⟨(j' 1).val, by have := idx2_lt1 j'; omega⟩ : S128x128.Idx)) := by
    intro j1 j2 h12
    have h0 : j1 0 = j2 0 := congrFun h12 0
    have h1 : (j1 1).val = (j2 1).val := by
      have e := congrArg Fin.val (congrFun h12 1)
      exact e
    funext a
    match a with
    | ⟨0, _⟩ => exact h0
    | ⟨1, _⟩ => exact Fin.ext h1
  exact scatter_overwrite_apply scatter_S128x128_S1_S128x2_01_n_1_0 x idx upd _ inj
    (fun j' => padW_resultIdx j' idx hidx) (ix2 k ⟨j.val, hj⟩)

/-! ## The `[2]` update written into the `[128]` array at start `0` -/

/-- The window starts at `0`. -/
theorem padB_start (j : S2.Idx) (idx : IVec S1 w) (hidx : ∀ k, idx k = 0#w) (a : Fin 1) :
    scatter_S128_S1_S2_0_n_0_0.start j idx a = 0 := by
  unfold ScatterDims.start
  split
  · rw [hidx]; exact BitVec.toInt_zero
  · rfl

/-- The window coordinate is the update index's coordinate. -/
theorem padB_window (j : S2.Idx) (a : Fin 1) :
    scatter_S128_S1_S2_0_n_0_0.window j a = (j a).val := by
  match a with
  | ⟨0, _⟩ => rfl

/-- The update index `c` lands at `c`. -/
theorem padB_resultIdx (j : S2.Idx) (idx : IVec S1 w) (hidx : ∀ k, idx k = 0#w) :
    scatter_S128_S1_S2_0_n_0_0.resultIdx? j idx
      = some (ix1 ⟨(j 0).val, by have : (j 0).val < 2 := (j 0).isLt; omega⟩) := by
  unfold ScatterDims.resultIdx?
  have hs := padB_start j idx hidx
  have hw := padB_window j
  have hlt : (j 0).val < 2 := (j 0).isLt
  rw [dif_pos]
  · congr 1
    funext a
    apply Fin.ext
    simp only [hs, hw]
    match a with
    | ⟨0, _⟩ => simp
  · intro a
    rw [hs, hw]
    match a with
    | ⟨0, _⟩ => constructor; omega; show (0 : Int) + ((j 0).val : Int) < ((128 : Nat) : Int); omega

/-- Reading the padded bias at a position below 2: the update's element. -/
theorem padB_read (x : S128.Idx → α) (idx : IVec S1 w) (hidx : ∀ k, idx k = 0#w) (upd : S2.Idx → α)
    (j : Fin 128) (hj : j.val < 2) :
    Host.scatter scatter_S128_S1_S2_0_n_0_0 (fun _ b => b) x idx upd (ix1 j) = upd (ix1 ⟨j.val, hj⟩) := by
  have inj : Function.Injective (fun j' : S2.Idx =>
      (ix1 ⟨(j' 0).val, by have : (j' 0).val < 2 := (j' 0).isLt; omega⟩ : S128.Idx)) := by
    intro j1 j2 h12
    have h0 : (j1 0).val = (j2 0).val := by
      have e := congrArg Fin.val (congrFun h12 0)
      exact e
    funext a
    match a with
    | ⟨0, _⟩ => exact Fin.ext h0
  exact scatter_overwrite_apply scatter_S128_S1_S2_0_n_0_0 x idx upd _ inj
    (fun j' => padB_resultIdx j' idx hidx) (ix1 ⟨j.val, hj⟩)

end Cert.KernelIdeal

namespace Cert.KernelIdeal

open Idealize.ShloMosaic Idealize.ShloMosaic.ValueIdx Facts₀

variable [Facts₀] {F : FTy → Type} [FloatOps F]

/-! ## The two scatters on their operands as the program spells them

The index operand is the zero word broadcast to one entry; the operand written into is the word of `+0.0` broadcast
to the whole array (its value plays no part at a column below 2). -/

/-- Every entry of the broadcast zero word is the zero word. -/
theorem zeroIdx_apply (k : S1.Idx) : broadcastInDim S1 ![] bcast_S_S1 (constantI S_ 32 0#32) k = 0#32 := rfl

/-- The padded weight, as the program builds it, at a column below 2. -/
theorem padW_read_printed (W2 : (⟨S128x2, .f32⟩ : BufTy).Contents (Elt F)) (k j : Fin 128) (hj : j.val < 2) :
    Host.scatter scatter_S128x128_S1_S128x2_01_n_1_0 (fun _ b => b)
      (broadcastInDim S128x128 ![] bcast_S_S128x128 (constant (F := F) S_ .f32 0x00000000#32))
      (broadcastInDim S1 ![] bcast_S_S1 (constantI S_ 32 0#32)) W2 (ix2 k j) = W2 (ix2 k ⟨j.val, hj⟩) :=
  padW_read _ _ zeroIdx_apply W2 k j hj

/-- The padded bias, as the program builds it, at a position below 2. -/
theorem padB_read_printed (B2 : (⟨S2, .f32⟩ : BufTy).Contents (Elt F)) (j : Fin 128) (hj : j.val < 2) :
    Host.scatter scatter_S128_S1_S2_0_n_0_0 (fun _ b => b)
      (broadcastInDim S128 ![] bcast_S_S128 (constant (F := F) S_ .f32 0x00000000#32))
      (broadcastInDim S1 ![] bcast_S_S1 (constantI S_ 32 0#32)) B2 (ix1 j) = B2 (ix1 ⟨j.val, hj⟩) :=
  padB_read _ _ zeroIdx_apply B2 j hj

end Cert.KernelIdeal
-- ==== Proof.ConcatRead.lean ====
/-
  A three-piece concatenation along the second axis, read at an index.

  Three arrays of shape `[500000, 128]` joined along axis 1 give an array of shape `[500000, 384]`. The joined array
  at `(r, c)` is the piece whose span of columns holds `c`, read at `(r, c - (the columns before that piece))`:
  columns `0 … 127` are the first piece, `128 … 255` the second, `256 … 383` the third. Each read is the
  library's reading of a concatenation at a piece (`concatenate_apply_piece`) with the piece number, the number of
  columns before it (0, 128, 256) and the index `(r, k)` of the piece named.
-/
import proofs.«117216_j44994077393231_2_alg».proof.ReferenceIdeal
import Idealize.ShloMosaic.Lib.ValueIdx
import Idealize.ShloMosaic.Lib.Pipeline.Value

namespace Cert.ConcatRead

open Idealize.ShloMosaic Idealize.ShloMosaic.ValueIdx

variable {α : Type}

/-- the three pieces, each `[500000, 128]`, in order -/
abbrev pieces (a b c : (⟨2, ![500000, 128]⟩ : Shape).Idx → α) : List ((s : Shape) × (s.Idx → α)) :=
  [⟨⟨2, ![500000, 128]⟩, a⟩, ⟨⟨2, ![500000, 128]⟩, b⟩, ⟨⟨2, ![500000, 128]⟩, c⟩]

/-- Columns `0 … 127` of the joined array are the first piece. -/
theorem read_fst (a b c : (⟨2, ![500000, 128]⟩ : Shape).Idx → α)
    (h : Shape.Concatenates ((pieces a b c).map (·.1)) ⟨2, ![500000, 384]⟩ 1) (r : Fin 500000) (k : Fin 128) :
    concatenate ⟨2, ![500000, 384]⟩ 1 (pieces a b c) h (ix2 r ⟨k.val, by omega⟩) = a (ix2 r k) := by
  refine concatenate_apply_piece (t := ⟨2, ![500000, 384]⟩) (1 : Fin 2) (pieces a b c) h _ 0 (show 0 < 3 by omega)
    ⟨2, ![500000, 128]⟩ a rfl rfl 0 rfl (ix2 r k) (fun b hb => ?_) ?_
  · match b with
    | ⟨0, _⟩ => rfl
    | ⟨1, _⟩ => exact absurd rfl hb
  · show 0 + k.val = k.val
    omega

/-- Columns `128 … 255` of the joined array are the second piece. -/
theorem read_snd (a b c : (⟨2, ![500000, 128]⟩ : Shape).Idx → α)
    (h : Shape.Concatenates ((pieces a b c).map (·.1)) ⟨2, ![500000, 384]⟩ 1) (r : Fin 500000) (k : Fin 128) :
    concatenate ⟨2, ![500000, 384]⟩ 1 (pieces a b c) h (ix2 r ⟨k.val + 128, by omega⟩) = b (ix2 r k) := by
  refine concatenate_apply_piece (t := ⟨2, ![500000, 384]⟩) (1 : Fin 2) (pieces a b c) h _ 1 (show 1 < 3 by omega)
    ⟨2, ![500000, 128]⟩ b rfl rfl 128 rfl (ix2 r k) (fun b hb => ?_) ?_
  · match b with
    | ⟨0, _⟩ => rfl
    | ⟨1, _⟩ => exact absurd rfl hb
  · show 128 + k.val = k.val + 128
    omega

/-- Columns `256 … 383` of the joined array are the third piece. -/
theorem read_trd (a b c : (⟨2, ![500000, 128]⟩ : Shape).Idx → α)
    (h : Shape.Concatenates ((pieces a b c).map (·.1)) ⟨2, ![500000, 384]⟩ 1) (r : Fin 500000) (k : Fin 128) :
    concatenate ⟨2, ![500000, 384]⟩ 1 (pieces a b c) h (ix2 r ⟨k.val + 256, by omega⟩) = c (ix2 r k) := by
  refine concatenate_apply_piece (t := ⟨2, ![500000, 384]⟩) (1 : Fin 2) (pieces a b c) h _ 2 (show 2 < 3 by omega)
    ⟨2, ![500000, 128]⟩ c rfl rfl 256 rfl (ix2 r k) (fun b hb => ?_) ?_
  · match b with
    | ⟨0, _⟩ => rfl
    | ⟨1, _⟩ => exact absurd rfl hb
  · show 256 + k.val = k.val + 256
    omega

end Cert.ConcatRead
-- ==== Proof.SliceRead.lean ====
/-
  Unit-stride slices read at an index.

  A slice of shape `t` at the offsets `off` reads, at `j`, the operand at `off + j` (coordinate by coordinate). Here:
  the three row blocks `[0:128]`, `[128:256]`, `[256:384]` (all 128 columns) of a `[384, 128]` array, read at
  `(k, q)`, are the array at `(k, q)`, `(k + 128, q)`, `(k + 256, q)`; and the block `[0:500000, 0:2]` of a
  `[500000, 128]` array, read at `(r, j)`, is the array at `(r, j)`.
-/
import Idealize.ShloMosaic.Lib.ValueIdx
import Idealize.ShloMosaic.Lib.Pipeline.Value

namespace Cert.SliceRead

open Idealize.ShloMosaic Idealize.ShloMosaic.ValueIdx

variable {α : Type}

/-- Rows `0 … 127` of the `[384, 128]` array. -/
theorem rows0_read (x : (⟨2, ![384, 128]⟩ : Shape).Idx → α)
    (h : (⟨2, ![384, 128]⟩ : Shape).Slices ![0, 0] ⟨2, ![128, 128]⟩) (k q : Fin 128) :
    extractStridedSlice ⟨2, ![128, 128]⟩ ![0, 0] x h (ix2 k q) = x (ix2 ⟨k.val, by omega⟩ q) := by
  refine extractStridedSlice_apply _ x h (ix2 k q) (ix2 ⟨k.val, by omega⟩ q) (fun a => ?_)
  match a with
  | ⟨0, _⟩ => show k.val = 0 + k.val; omega
  | ⟨1, _⟩ => show q.val = 0 + q.val; omega

/-- Rows `128 … 255` of the `[384, 128]` array. -/
theorem rows128_read (x : (⟨2, ![384, 128]⟩ : Shape).Idx → α)
    (h : (⟨2, ![384, 128]⟩ : Shape).Slices ![128, 0] ⟨2, ![128, 128]⟩) (k q : Fin 128) :
    extractStridedSlice ⟨2, ![128, 128]⟩ ![128, 0] x h (ix2 k q) = x (ix2 ⟨k.val + 128, by omega⟩ q) := by
  refine extractStridedSlice_apply _ x h (ix2 k q) (ix2 ⟨k.val + 128, by omega⟩ q) (fun a => ?_)
  match a with
  | ⟨0, _⟩ => show k.val + 128 = 128 + k.val; omega
  | ⟨1, _⟩ => show q.val = 0 + q.val; omega

/-- Rows `256 … 383` of the `[384, 128]` array. -/
theorem rows256_read (x : (⟨2, ![384, 128]⟩ : Shape).Idx → α)
    (h : (⟨2, ![384, 128]⟩ : Shape).Slices ![256, 0] ⟨2, ![128, 128]⟩) (k q : Fin 128) :
    extractStridedSlice ⟨2, ![128, 128]⟩ ![256, 0] x h (ix2 k q) = x (ix2 ⟨k.val + 256, by omega⟩ q) := by
  refine extractStridedSlice_apply _ x h (ix2 k q) (ix2 ⟨k.val + 256, by omega⟩ q) (fun a => ?_)
  match a with
  | ⟨0, _⟩ => show k.val + 256 = 256 + k.val; omega
  | ⟨1, _⟩ => show q.val = 0 + q.val; omega

/-- Columns `0, 1` of the `[500000, 128]` array. -/
theorem cols2_read (x : (⟨2, ![500000, 128]⟩ : Shape).Idx → α)
    (h : (⟨2, ![500000, 128]⟩ : Shape).Slices ![0, 0] ⟨2, ![500000, 2]⟩) (r : Fin 500000) (j : Fin 2) :
    extractStridedSlice ⟨2, ![500000, 2]⟩ ![0, 0] x h (ix2 r j) = x (ix2 r ⟨j.val, by omega⟩) := by
  refine extractStridedSlice_apply _ x h (ix2 r j) (ix2 r ⟨j.val, by omega⟩) (fun a => ?_)
  match a with
  | ⟨0, _⟩ => show r.val = 0 + r.val; omega
  | ⟨1, _⟩ => show j.val = 0 + j.val; omega

end Cert.SliceRead
-- ==== Proof.ClsBridge.lean ====
/-
  The classifier's two spellings agree on the two output columns.

  The kernel's output layer multiplies the hidden layer by a weight padded from 2 to 128 columns and adds a bias
  padded from 2 to 128 entries; the reference uses the 2-column weight and the 2-entry bias. The two hidden layers
  are one function (`hidKer_eq_hidRef`: a sum over the 384 joined columns is the sum of the three block sums), and at
  an output column `j < 2` the padded weight and bias read the unpadded ones; so the two output layers agree there,
  term by term of the sum over the 128 hidden columns.
-/
import proofs.«117216_j44994077393231_2_alg».proof.Proof.Spec

noncomputable section

namespace Cert.Spec

open Idealize.ShloMosaic Idealize.ShloMosaic.ValueIdx

theorem headKer_eq_headRef (SRC DST EE : Arr2 500000 128) (W1A W1B W1C : Arr2 128 128) (B1 : Arr1 128)
    (W2P : Arr2 128 128) (B2P : Arr1 128) (REP : Arr2 500000 384) (W1 : Arr2 384 128) (W2 : Arr2 128 2) (B2 : Arr1 2)
    (hs : ∀ (r : Fin 500000) (k : Fin 128), REP (ix2 r ⟨k.val, by omega⟩) = SRC (ix2 r k))
    (hd : ∀ (r : Fin 500000) (k : Fin 128), REP (ix2 r ⟨k.val + 128, by omega⟩) = DST (ix2 r k))
    (he : ∀ (r : Fin 500000) (k : Fin 128), REP (ix2 r ⟨k.val + 256, by omega⟩) = EE (ix2 r k))
    (ha : ∀ (k : Fin 128) (q : Fin 128), W1 (ix2 ⟨k.val, by omega⟩ q) = W1A (ix2 k q))
    (hb : ∀ (k : Fin 128) (q : Fin 128), W1 (ix2 ⟨k.val + 128, by omega⟩ q) = W1B (ix2 k q))
    (hcc : ∀ (k : Fin 128) (q : Fin 128), W1 (ix2 ⟨k.val + 256, by omega⟩ q) = W1C (ix2 k q))
    (hw2 : ∀ (k : Fin 128) (j : Fin 128) (hj : j.val < 2), W2P (ix2 k j) = W2 (ix2 k ⟨j.val, hj⟩))
    (hb2 : ∀ (j : Fin 128) (hj : j.val < 2), B2P (ix1 j) = B2 (ix1 ⟨j.val, hj⟩))
    (r : Fin 500000) (j : Fin 2) :
    headOut (hidKer SRC DST EE W1A W1B W1C B1) W2P B2P (ix2 r ⟨j.val, by omega⟩)
      = headOut (hidRef REP W1 B1) W2 B2 (ix2 r j) := by
  rw [hidKer_eq_hidRef SRC DST EE W1A W1B W1C B1 REP W1 hs hd he ha hb hcc]
  have hjlt : (⟨j.val, by omega⟩ : Fin 128).val < 2 := j.isLt
  show (∑ k : Fin 128, hidRef REP W1 B1 (ix2 r k) * W2P (ix2 k ⟨j.val, by omega⟩)) + B2P (ix1 ⟨j.val, by omega⟩)
      = (∑ k : Fin 128, hidRef REP W1 B1 (ix2 r k) * W2 (ix2 k j)) + B2 (ix1 j)
  rw [hb2 ⟨j.val, by omega⟩ hjlt, Finset.sum_congr rfl (fun k _ => by rw [hw2 k ⟨j.val, by omega⟩ hjlt])]

end Cert.Spec

end
-- ==== Proof.Stages3.lean ====
/-
  The last three boundaries of the kernel program's run, read as the reference's stages of the launched arguments.
  The last stretch of host operations before the classifier gathers the second layer's user and merchant features
  along the two rows of the classifier's edge list (the reference's two gathers of the same arrays), cuts the hidden
  weight into its three row blocks, and pads the output weight and bias from 2 to 128 columns. Region 6 is the
  classifier on the padded operands; the final host operation keeps its first two output columns. At those two
  columns the padded output layer is the reference's, and the kernel's three block products are the reference's one
  product over the 384 joined columns.
-/
import proofs.«117216_j44994077393231_2_alg».proof.Proof.Kept
import proofs.«117216_j44994077393231_2_alg».proof.Proof.Stages2
import proofs.«117216_j44994077393231_2_alg».proof.Proof.Region6
import proofs.«117216_j44994077393231_2_alg».proof.Proof.Spec
import proofs.«117216_j44994077393231_2_alg».proof.Proof.RefLayers3
import proofs.«117216_j44994077393231_2_alg».proof.Proof.PadRead
import proofs.«117216_j44994077393231_2_alg».proof.Proof.ConcatRead
import proofs.«117216_j44994077393231_2_alg».proof.Proof.SliceRead
import proofs.«117216_j44994077393231_2_alg».proof.Proof.ClsBridge
import Idealize.ShloMosaic.Lib.StableHlo.Run
import Idealize.ShloMosaic.Lib.ValueIdx
import Idealize.ShloMosaic.PureOps.Ideal

set_option maxRecDepth 16384

noncomputable section

namespace Cert.KernelIdeal.Stages3

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)
open Cert.Spec

variable (m : (ℓ : Loc nD τ sig) → Buf (Elt Ideal) ℓ) (ρ : Dev nD → PrngReg)

/-! ## The two gathers along the classifier's edge list -/

/-- The second layer's user features gathered along the first row of the classifier's edge list. -/
theorem st_v96 (c : Dev nD) : W11 m ρ c (Proc.devRef .tc main_v96) = Cert.ReferenceIdeal.Read.val_main_v146 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  show StableHlo.after hostOps6 (W10 m ρ c) (Proc.devRef .tc main_v96) = _
  after_results_simp
  rw [(Kept.keep10_main_v71 m ρ c).trans (Stages2.st_v71 m ρ c), Kept.keep10_main_arg5 m ρ c]
  rfl

/-- The second layer's merchant features gathered along the second row of the classifier's edge list. -/
theorem st_v105 (c : Dev nD) : W11 m ρ c (Proc.devRef .tc main_v105) = Cert.ReferenceIdeal.Read.val_main_v155 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg19)) (m ((c : Thread nD τ).loc main_arg20)) (m ((c : Thread nD τ).loc main_arg21)) := by
  show StableHlo.after hostOps6 (W10 m ρ c) (Proc.devRef .tc main_v105) = _
  after_results_simp
  rw [Stages2.st_v87 m ρ c, Kept.keep10_main_arg5 m ρ c]
  rfl

/-! ## The hidden weight's three row blocks and the two padded operands, at an index -/

/-- Rows `0 … 127` of the hidden weight. -/
theorem st_v106 (c : Dev nD) (k q : Fin 128) :
    W11 m ρ c (Proc.devRef .tc main_v106) (ix2 k q) = (m ((c : Thread nD τ).loc main_arg24)) (ix2 ⟨k.val, by omega⟩ q) := by
  show StableHlo.after hostOps6 (W10 m ρ c) (Proc.devRef .tc main_v106) (ix2 k q) = _
  after_results_simp
  rw [Kept.keep10_main_arg24 m ρ c]
  exact Cert.SliceRead.rows0_read _ _ k q

/-- Rows `128 … 255` of the hidden weight. -/
theorem st_v107 (c : Dev nD) (k q : Fin 128) :
    W11 m ρ c (Proc.devRef .tc main_v107) (ix2 k q) = (m ((c : Thread nD τ).loc main_arg24)) (ix2 ⟨k.val + 128, by omega⟩ q) := by
  show StableHlo.after hostOps6 (W10 m ρ c) (Proc.devRef .tc main_v107) (ix2 k q) = _
  after_results_simp
  rw [Kept.keep10_main_arg24 m ρ c]
  exact Cert.SliceRead.rows128_read _ _ k q

/-- Rows `256 … 383` of the hidden weight. -/
theorem st_v108 (c : Dev nD) (k q : Fin 128) :
    W11 m ρ c (Proc.devRef .tc main_v108) (ix2 k q) = (m ((c : Thread nD τ).loc main_arg24)) (ix2 ⟨k.val + 256, by omega⟩ q) := by
  show StableHlo.after hostOps6 (W10 m ρ c) (Proc.devRef .tc main_v108) (ix2 k q) = _
  after_results_simp
  rw [Kept.keep10_main_arg24 m ρ c]
  exact Cert.SliceRead.rows256_read _ _ k q

/-- The padded output weight at a column below 2. -/
theorem st_v111 (c : Dev nD) (k j : Fin 128) (hj : j.val < 2) :
    W11 m ρ c (Proc.devRef .tc main_v111) (ix2 k j) = (m ((c : Thread nD τ).loc main_arg26)) (ix2 k ⟨j.val, hj⟩) := by
  show StableHlo.after hostOps6 (W10 m ρ c) (Proc.devRef .tc main_v111) (ix2 k j) = _
  after_results_simp
  rw [Kept.keep10_main_arg26 m ρ c]
  exact padW_read_printed _ k j hj

/-- The padded output bias at a position below 2. -/
theorem st_v114 (c : Dev nD) (j : Fin 128) (hj : j.val < 2) :
    W11 m ρ c (Proc.devRef .tc main_v114) (ix1 j) = (m ((c : Thread nD τ).loc main_arg27)) (ix1 ⟨j.val, hj⟩) := by
  show StableHlo.after hostOps6 (W10 m ρ c) (Proc.devRef .tc main_v114) (ix1 j) = _
  after_results_simp
  rw [Kept.keep10_main_arg27 m ρ c]
  exact padB_read_printed _ j hj

/-! ## The result -/

/-- The joined operand's first 128 columns are the gathered user features. -/
theorem rep_fst (c : Dev nD) (r : Fin 500000) (k : Fin 128) :
    (Cert.ReferenceIdeal.Read.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) (ix2 r ⟨k.val, by omega⟩) = (Cert.ReferenceIdeal.Read.val_main_v146 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (ix2 r k) :=
  Cert.ConcatRead.read_fst _ _ _ _ r k

/-- The joined operand's columns `128 … 255` are the gathered merchant features. -/
theorem rep_snd (c : Dev nD) (r : Fin 500000) (k : Fin 128) :
    (Cert.ReferenceIdeal.Read.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) (ix2 r ⟨k.val + 128, by omega⟩) = (Cert.ReferenceIdeal.Read.val_main_v155 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg19)) (m ((c : Thread nD τ).loc main_arg20)) (m ((c : Thread nD τ).loc main_arg21))) (ix2 r k) :=
  Cert.ConcatRead.read_snd _ _ _ _ r k

/-- The joined operand's columns `256 … 383` are the edge-feature layer. -/
theorem rep_trd (c : Dev nD) (r : Fin 500000) (k : Fin 128) :
    (Cert.ReferenceIdeal.Read.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) (ix2 r ⟨k.val + 256, by omega⟩) = edgeFeat (m ((c : Thread nD τ).loc main_arg2)) (m ((c : Thread nD τ).loc main_arg22)) (m ((c : Thread nD τ).loc main_arg23)) (ix2 r k) := by
  rw [← Cert.RefLayers.v160_eq]
  exact Cert.ConcatRead.read_trd _ _ _ _ r k

/-- After the last host operation the result buffer holds the reference's result. -/
theorem st_out (c : Dev nD) : W13 m ρ c (Proc.devRef .tc main_v116) = Cert.ReferenceIdeal.Read.val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  funext i
  obtain ⟨r, j, rfl⟩ : ∃ (r : Fin 500000) (j : Fin 2), i = ix2 r j := ⟨i 0, i 1, eq_ix2 i⟩
  show StableHlo.after hostOps7 (W12 m ρ c) (Proc.devRef .tc main_v116) (ix2 r j) = _
  after_results_simp
  rw [Cert.SliceRead.cols2_read]
  rw [show W12 m ρ c (Proc.devRef .tc main_v115) = _ from (W12_arr m ρ c 11).trans (Reg6.arr_out (V11 m ρ) c)]
  rw [Cert.RefLayers.v170_eq]
  rw [show V11 m ρ c main_v96 = _ from st_v96 m ρ c,
    show V11 m ρ c main_v105 = _ from st_v105 m ρ c,
    show V11 m ρ c main_arg2 = _ from Kept.keep11_main_arg2 m ρ c,
    show V11 m ρ c main_arg22 = _ from Kept.keep11_main_arg22 m ρ c,
    show V11 m ρ c main_arg23 = _ from Kept.keep11_main_arg23 m ρ c,
    show V11 m ρ c main_arg25 = _ from Kept.keep11_main_arg25 m ρ c]
  exact headKer_eq_headRef _ _ _ _ _ _ _ _ _ (Cert.ReferenceIdeal.Read.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) (m ((c : Thread nD τ).loc main_arg24)) (m ((c : Thread nD τ).loc main_arg26)) (m ((c : Thread nD τ).loc main_arg27))
    (rep_fst m c) (rep_snd m c) (rep_trd m c)
    (fun k q => (st_v106 m ρ c k q).symm) (fun k q => (st_v107 m ρ c k q).symm) (fun k q => (st_v108 m ρ c k q).symm)
    (st_v111 m ρ c) (st_v114 m ρ c) r j

end Cert.KernelIdeal.Stages3

end
-- ==== Proof.lean ====
/-
  The certificate of the heterogeneous-graph network: a Pallas kernel program of seven kernel regions (two input
  projections, four mean-aggregation layers, an edge classifier) among host gathers and scatter-adds, against its
  plain reference, at the ideal instance (floats are extended reals, every operation exact, a change of float format
  the identity).

  Frames. The two kernel programs' frames are the generated ones; the reference has no kernel, and its frame is its
  generated run with the result dropped. The ideal pass rewrote nothing, so the kernel's idealization is its own text.

  Values. Both programs end with the same array, the reference's last stage of the launched arguments. On the kernel's
  side this is read off its run boundary by boundary: every region writes, block by block, one whole-array function of
  the arrays it finds (an input projection, a mean-aggregation layer, the classifier), and every stretch of host
  operations applies the reference's own gathers and scatter-adds to arrays already known to be the reference's.
  Three laws join the two spellings, none of which needs finiteness: `a · (1 / c) = a / c` for the never-zero clamped
  in-degree `c = max(count, 1)`; a sum over the 384 joined columns is the sum of its three blocks of 128; and a product
  with the zero-padded last weight, read at its first two columns, is the product with the weight itself.
-/
import proofs.«117216_j44994077393231_2_alg».proof.Defs
import proofs.«117216_j44994077393231_2_alg».proof.Proof.Gen.Kernel
import proofs.«117216_j44994077393231_2_alg».proof.Proof.Gen.Kernel.Frame
import proofs.«117216_j44994077393231_2_alg».proof.Proof.Gen.KernelIdeal
import proofs.«117216_j44994077393231_2_alg».proof.Proof.Gen.KernelIdeal.Frame
import proofs.«117216_j44994077393231_2_alg».proof.Proof.Gen.ReferenceIdeal
import proofs.«117216_j44994077393231_2_alg».proof.Proof.Gen.Pre_finite_inputs
import proofs.«117216_j44994077393231_2_alg».proof.Proof.Gen.ReferenceIdeal.Run
import proofs.«117216_j44994077393231_2_alg».proof.Proof.Gen.ReferenceIdeal.Read
import proofs.«117216_j44994077393231_2_alg».proof.Proof.KernelRun
import proofs.«117216_j44994077393231_2_alg».proof.Proof.Stages3
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's last stage of the launched arguments. -/
theorem algebraic : Cert.algebraic_KernelIdeal_ReferenceIdeal := by
  intro m ρ m' ρ' _ hagree
  refine ⟨fun c => Cert.ReferenceIdeal.Read.val_main_v170 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26))
      (m ((c.tc : Thread Cert.KernelIdeal.nD Cert.KernelIdeal.τ).loc Cert.KernelIdeal.main_arg27)), ?_, ?_⟩
  · exact (θ_run Cert.KernelIdeal.defs _ _).mono
      (fun r h c => ⟨(h c).1.trans (Cert.KernelIdeal.Stages3.st_out m ρ c), (h c).2⟩)
      (Cert.KernelIdeal.Result.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v170_eq]
    obtain ⟨h0, h1, h2, h3, h4, h5, h6, h7, h8, h9, h10, h11, h12, h13, h14, h15, h16, h17, h18, h19, h20, h21, h22, h23, h24, h25, h26, h27⟩ := hagree c
    rw [h0, h1, h2, h3, h4, h5, h6, h7, h8, h9, h10, h11, h12, h13, h14, h15, h16, h17, h18, h19, h20, h21, h22, h23, h24, h25, h26, h27]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
